-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v119)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v119) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S60000x133 : Shape := ⟨2, ![60000, 133]⟩
abbrev S120000x147 : Shape := ⟨2, ![120000, 147]⟩
abbrev S512x147 : Shape := ⟨2, ![512, 147]⟩
abbrev S512x512 : Shape := ⟨2, ![512, 512]⟩
abbrev S512x645 : Shape := ⟨2, ![512, 645]⟩
abbrev S512 : Shape := ⟨1, ![512]⟩
abbrev S60000x6 : Shape := ⟨2, ![60000, 6]⟩
abbrev S120000 : Shape := ⟨1, ![120000]⟩
abbrev S60000 : Shape := ⟨1, ![60000]⟩
abbrev S_ : Shape := ⟨0, ![]⟩

class Facts : Prop where
  bcast_S_S60000x133 : S_.BroadcastsInDim S60000x133 (![] : Fin 0 → Fin S60000x133.rank)
  reducesTo_S60000x133_S_d0_1 : S60000x133.ReducesTo [0, 1] S_
  h_S_ : 0 < S_.numel
  bcast_S_S120000x147 : S_.BroadcastsInDim S120000x147 (![] : Fin 0 → Fin S120000x147.rank)
  reducesTo_S120000x147_S_d0_1 : S120000x147.ReducesTo [0, 1] S_
  bcast_S_S512x147 : S_.BroadcastsInDim S512x147 (![] : Fin 0 → Fin S512x147.rank)
  reducesTo_S512x147_S_d0_1 : S512x147.ReducesTo [0, 1] S_
  bcast_S_S512x512 : S_.BroadcastsInDim S512x512 (![] : Fin 0 → Fin S512x512.rank)
  reducesTo_S512x512_S_d0_1 : S512x512.ReducesTo [0, 1] S_
  bcast_S_S512x645 : S_.BroadcastsInDim S512x645 (![] : Fin 0 → Fin S512x645.rank)
  reducesTo_S512x645_S_d0_1 : S512x645.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512x645 .f32) (main_arg5 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x645 .f32 := Host.absf main_arg4
  let main_cst_6 : FVec F S_ .f32 := constant S_ .f32 0x7F800000#32
  let main_v20 : FVec F S512x645 .f32 := broadcastInDim S512x645 ![] bcast_S_S512x645 main_cst_6
  let main_v21 : IVec S512x645 1 := cmpf .olt main_v19 main_v20
  let main_c_7 : IVec S_ 1 := constantI S_ 1 1#1
  let main_v22 : IVec S_ 1 := (fun x v => Host.reduce IntOp.andi x v reducesTo_S512x645_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S60000x133 .f32) (main_arg1 : FVec F S120000x147 .f32) (main_arg2 : FVec F S512x147 .f32) (main_arg3 : FVec F S512x512 .f32) (main_arg4 : FVec F S512x645 .f32) (main_arg5 : FVec F S512 .f32) (main_arg6 : IVec S60000x6 32) (main_arg7 : IVec S120000 32) (main_arg8 : IVec S120000 32) (main_arg9 : IVec S60000 32) : IVec S_ 1 :=
  let main_v0 : FVec F S60000x133 .f32 := Host.absf main_arg0
  let main_cst : FVec F S_ .f32 := constant S_ .f32 0x7F800000#32
  let main_v1 : FVec F S60000x133 .f32 := broadcastInDim S60000x133 ![] bcast_S_S60000x133 main_cst
  let main_v2 : IVec S60000x133 1 := cmpf .olt main_v0 main_v1
  let main_c : IVec S_ 1 := constantI S_ 1 1#1
  let main_v3 : IVec S_ 1 := (fun x v => Host.reduce IntOp.andi x v reducesTo_S60000x133_S_d0_1 h_S_) main_v2 main_c
  let main_v4 : FVec F S120000x147 .f32 := Host.absf main_arg1
  let main_cst_0 : FVec F S_ .f32 := constant S_ .f32 0x7F800000#32
  let main_v5 : FVec F S120000x147 .f32 := broadcastInDim S120000x147 ![] bcast_S_S120000x147 main_cst_0
  let main_v6 : IVec S120000x147 1 := cmpf .olt main_v4 main_v5
  let main_c_1 : IVec S_ 1 := constantI S_ 1 1#1
  let main_v7 : IVec S_ 1 := (fun x v => Host.reduce IntOp.andi x v reducesTo_S120000x147_S_d0_1 h_S_) main_v6 main_c_1
  let main_v8 : IVec S_ 1 := andi main_v3 main_v7
  let main_v9 : FVec F S512x147 .f32 := Host.absf main_arg2
  let main_cst_2 : FVec F S_ .f32 := constant S_ .f32 0x7F800000#32
  let main_v10 : FVec F S512x147 .f32 := broadcastInDim S512x147 ![] bcast_S_S512x147 main_cst_2
  let main_v11 : IVec S512x147 1 := cmpf .olt main_v9 main_v10
  let main_c_3 : IVec S_ 1 := constantI S_ 1 1#1
  let main_v12 : IVec S_ 1 := (fun x v => Host.reduce IntOp.andi x v reducesTo_S512x147_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_v13 main_v16
-- ==== Kernel.lean ====
abbrev S60000x133 : Shape := ⟨2, ![60000, 133]⟩
abbrev S120000x147 : Shape := ⟨2, ![120000, 147]⟩
abbrev S512x147 : Shape := ⟨2, ![512, 147]⟩
abbrev S512x512 : Shape := ⟨2, ![512, 512]⟩
abbrev S512x645 : Shape := ⟨2, ![512, 645]⟩
abbrev S512 : Shape := ⟨1, ![512]⟩
abbrev S60000x6 : Shape := ⟨2, ![60000, 6]⟩
abbrev S120000 : Shape := ⟨1, ![120000]⟩
abbrev S60000 : Shape := ⟨1, ![60000]⟩
abbrev S120000x512 : Shape := ⟨2, ![120000, 512]⟩
abbrev S1600x147 : Shape := ⟨2, ![1600, 147]⟩
abbrev S1600x512 : Shape := ⟨2, ![1600, 512]⟩
abbrev S147x512 : Shape := ⟨2, ![147, 512]⟩
abbrev S_ : Shape := ⟨0, ![]⟩
abbrev S60000x6x1 : Shape := ⟨3, ![60000, 6, 1]⟩
abbrev S60000x6x512 : Shape := ⟨3, ![60000, 6, 512]⟩
abbrev S60000x512 : Shape := ⟨2, ![60000, 512]⟩
abbrev S120000x1 : Shape := ⟨2, ![120000, 1]⟩
abbrev S60000x645 : Shape := ⟨2, ![60000, 645]⟩
abbrev S1x512 : Shape := ⟨2, ![1, 512]⟩
abbrev S2000x645 : Shape := ⟨2, ![2000, 645]⟩
abbrev S2000x512 : Shape := ⟨2, ![2000, 512]⟩
abbrev S645x512 : Shape := ⟨2, ![645, 512]⟩
abbrev S60000x1 : Shape := ⟨2, ![60000, 1]⟩
abbrev S512x1 : Shape := ⟨2, ![512, 1]⟩

abbrev nBuf : Space → Nat
  | .hbm => 166
  | .vmem => 41
  | .smem => 0
  | _ => 0

abbrev hbmTy0_0 (i : Nat) : BufTy := match i % 128 with
  | 0 => ⟨S60000x133, .f32⟩
  | 1 => ⟨S120000x147, .f32⟩
  | 2 => ⟨S512x147, .f32⟩
  | 3 => ⟨S512x512, .f32⟩
  | 4 => ⟨S512x645, .f32⟩
  | 5 => ⟨S512, .f32⟩
  | 6 => ⟨S60000x6, .i32⟩
  | 7 => ⟨S120000, .i32⟩
  | 8 => ⟨S120000, .i32⟩
  | 9 => ⟨S60000, .i32⟩
  | 10 => ⟨S120000x512, .f32⟩
  | 11 => ⟨S120000x512, .f32⟩
  | 12 => ⟨S_, .i32⟩
  | 13 => ⟨S60000x6, .i32⟩
  | 14 => ⟨S60000x6, .i1⟩
  | 15 => ⟨S_, .i32⟩
  | 16 => ⟨S60000x6, .i32⟩
  | 17 => ⟨S60000x6, .i32⟩
  | 18 => ⟨S60000x6, .i32⟩
  | 19 => ⟨S60000x6x1, .i32⟩
  | 20 => ⟨S60000x6x512, .f32⟩
  | 21 => ⟨S_, .f32⟩
  | 22 => ⟨S60000x512, .f32⟩
  | 23 => ⟨S_, .i32⟩
  | 24 => ⟨S120000, .i32⟩
  | 25 => ⟨S120000, .i1⟩
  | 26 => ⟨S_, .i32⟩
  | 27 => ⟨S120000, .i32⟩
  | 28 => ⟨S120000, .i32⟩
  | 29 => ⟨S120000, .i32⟩
  | 30 => ⟨S120000x1, .i32⟩
  | 31 => ⟨S120000x512, .f32⟩
  | 32 => ⟨S_, .i32⟩
  | 33 => ⟨S120000, .i32⟩
  | 34 => ⟨S120000, .i1⟩
  | 35 => ⟨S_, .i32⟩
  | 36 => ⟨S120000, .i32⟩
  | 37 => ⟨S120000, .i32⟩
  | 38 => ⟨S120000, .i32⟩
  | 39 => ⟨S120000x1, .i32⟩
  | 40 => ⟨S120000x512, .f32⟩
  | 41 => ⟨S120000x512, .f32⟩
  | 42 => ⟨S120000x512, .f32⟩
  | 43 => ⟨S_, .i32⟩
  | 44 => ⟨S60000x6, .i32⟩
  | 45 => ⟨S60000x6, .i1⟩
  | 46 => ⟨S_, .i32⟩
  | 47 => ⟨S60000x6, .i32⟩
  | 48 => ⟨S60000x6, .i32⟩
  | 49 => ⟨S60000x6, .i32⟩
  | 50 => ⟨S60000x6x1, .i32⟩
  | 51 => ⟨S60000x6x512, .f32⟩
  | 52 => ⟨S_, .f32⟩
  | 53 => ⟨S60000x512, .f32⟩
  | 54 => ⟨S_, .i32⟩
  | 55 => ⟨S120000, .i32⟩
  | 56 => ⟨S120000, .i1⟩
  | 57 => ⟨S_, .i32⟩
  | 58 => ⟨S120000, .i32⟩
  | 59 => ⟨S120000, .i32⟩
  | 60 => ⟨S120000, .i32⟩
  | 61 => ⟨S120000x1, .i32⟩
  | 62 => ⟨S120000x512, .f32⟩
  | 63 => ⟨S_, .i32⟩
  | 64 => ⟨S120000, .i32⟩
  | 65 => ⟨S120000, .i1⟩
  | 66 => ⟨S_, .i32⟩
  | 67 => ⟨S120000, .i32⟩
  | 68 => ⟨S120000, .i32⟩
  | 69 => ⟨S120000, .i32⟩
  | 70 => ⟨S120000x1, .i32⟩
  | 71 => ⟨S120000x512, .f32⟩
  | 72 => ⟨S120000x512, .f32⟩
  | 73 => ⟨S120000x512, .f32⟩
  | 74 => ⟨S_, .i32⟩
  | 75 => ⟨S60000x6, .i32⟩
  | 76 => ⟨S60000x6, .i1⟩
  | 77 => ⟨S_, .i32⟩
  | 78 => ⟨S60000x6, .i32⟩
  | 79 => ⟨S60000x6, .i32⟩
  | 80 => ⟨S60000x6, .i32⟩
  | 81 => ⟨S60000x6x1, .i32⟩
  | 82 => ⟨S60000x6x512, .f32⟩
  | 83 => ⟨S_, .f32⟩
  | 84 => ⟨S60000x512, .f32⟩
  | 85 => ⟨S_, .i32⟩
  | 86 => ⟨S120000, .i32⟩
  | 87 => ⟨S120000, .i1⟩
  | 88 => ⟨S_, .i32⟩
  | 89 => ⟨S120000, .i32⟩
  | 90 => ⟨S120000, .i32⟩
  | 91 => ⟨S120000, .i32⟩
  | 92 => ⟨S120000x1, .i32⟩
  | 93 => ⟨S120000x512, .f32⟩
  | 94 => ⟨S_, .i32⟩
  | 95 => ⟨S120000, .i32⟩
  | 96 => ⟨S120000, .i1⟩
  | 97 => ⟨S_, .i32⟩
  | 98 => ⟨S120000, .i32⟩
  | 99 => ⟨S120000, .i32⟩
  | 100 => ⟨S120000, .i32⟩
  | 101 => ⟨S120000x1, .i32⟩
  | 102 => ⟨S120000x512, .f32⟩
  | 103 => ⟨S120000x512, .f32⟩
  | 104 => ⟨S120000x512, .f32⟩
  | 105 => ⟨S_, .i32⟩
  | 106 => ⟨S60000x6, .i32⟩
  | 107 => ⟨S60000x6, .i1⟩
  | 108 => ⟨S_, .i32⟩
  | 109 => ⟨S60000x6, .i32⟩
  | 110 => ⟨S60000x6, .i32⟩
  | 111 => ⟨S60000x6, .i32⟩
  | 112 => ⟨S60000x6x1, .i32⟩
  | 113 => ⟨S60000x6x512, .f32⟩
  | 114 => ⟨S_, .f32⟩
  | 115 => ⟨S60000x512, .f32⟩
  | 116 => ⟨S_, .i32⟩
  | 117 => ⟨S120000, .i32⟩
  | 118 => ⟨S120000, .i1⟩
  | 119 => ⟨S_, .i32⟩
  | 120 => ⟨S120000, .i32⟩
  | 121 => ⟨S120000, .i32⟩
  | 122 => ⟨S120000, .i32⟩
  | 123 => ⟨S120000x1, .i32⟩
  | 124 => ⟨S120000x512, .f32⟩
  | 125 => ⟨S_, .i32⟩
  | 126 => ⟨S120000, .i32⟩
  | 127 => ⟨S120000, .i1⟩
  | _ => ⟨S60000x133, .f32⟩

abbrev hbmTy0_1 (i : Nat) : BufTy := match i % 128 with
  | 0 => ⟨S_, .i32⟩
  | 1 => ⟨S120000, .i32⟩
  | 2 => ⟨S120000, .i32⟩
  | 3 => ⟨S120000, .i32⟩
  | 4 => ⟨S120000x1, .i32⟩
  | 5 => ⟨S120000x512, .f32⟩
  | 6 => ⟨S120000x512, .f32⟩
  | 7 => ⟨S120000x512, .f32⟩
  | 8 => ⟨S_, .i32⟩
  | 9 => ⟨S60000x6, .i32⟩
  | 10 => ⟨S60000x6, .i1⟩
  | 11 => ⟨S_, .i32⟩
  | 12 => ⟨S60000x6, .i32⟩
  | 13 => ⟨S60000x6, .i32⟩
  | 14 => ⟨S60000x6, .i32⟩
  | 15 => ⟨S60000x6x1, .i32⟩
  | 16 => ⟨S60000x6x512, .f32⟩
  | 17 => ⟨S_, .f32⟩
  | 18 => ⟨S60000x512, .f32⟩
  | 19 => ⟨S60000x645, .f32⟩
  | 20 => ⟨S1x512, .f32⟩
  | 21 => ⟨S60000x512, .f32⟩
  | 22 => ⟨S_, .f32⟩
  | 23 => ⟨S512x512, .f32⟩
  | 24 => ⟨S60000x1, .i32⟩
  | 25 => ⟨S512x512, .f32⟩
  | 26 => ⟨S_, .f32⟩
  | 27 => ⟨S60000, .f32⟩
  | 28 => ⟨S_, .f32⟩
  | 29 => ⟨S512, .f32⟩
  | 30 => ⟨S60000x1, .i32⟩
  | 31 => ⟨S512, .f32⟩
  | 32 => ⟨S_, .f32⟩
  | 33 => ⟨S512, .f32⟩
  | 34 => ⟨S512, .f32⟩
  | 35 => ⟨S512x1, .f32⟩
  | 36 => ⟨S512x512, .f32⟩
  | 37 => ⟨S512x512, .f32⟩
  | _ => ⟨S60000x133, .f32⟩

abbrev hbmTy (i : Nat) : BufTy := match i / 128 with
  | 0 => hbmTy0_0 i
  | 1 => hbmTy0_1 i
  | _ => ⟨S60000x133, .f32⟩

abbrev bufTy : (tb : Table) → Fin (tcTables nBuf tb) → BufTy
  | .hbm, ⟨i, _⟩ => hbmTy i
  | .local _ .vmem, ⟨0, _⟩ => ⟨S1600x147, .f32⟩
  | .local _ .vmem, ⟨1, _⟩ => ⟨S1600x147, .f32⟩
  | .local _ .vmem, ⟨2, _⟩ => ⟨S512x147, .f32⟩
  | .local _ .vmem, ⟨3, _⟩ => ⟨S1600x512, .f32⟩
  | .local _ .vmem, ⟨4, _⟩ => ⟨S1600x512, .f32⟩
  | .local _ .vmem, ⟨5, _⟩ => ⟨S1600x512, .f32⟩
  | .local _ .vmem, ⟨6, _⟩ => ⟨S1600x512, .f32⟩
  | .local _ .vmem, ⟨7, _⟩ => ⟨S1600x512, .f32⟩
  | .local _ .vmem, ⟨8, _⟩ => ⟨S1600x512, .f32⟩
  | .local _ .vmem, ⟨9, _⟩ => ⟨S1600x512, .f32⟩
  | .local _ .vmem, ⟨10, _⟩ => ⟨S1600x512, .f32⟩
  | .local _ .vmem, ⟨11, _⟩ => ⟨S512x512, .f32⟩
  | .local _ .vmem, ⟨12, _⟩ => ⟨S1600x512, .f32⟩
  | .local _ .vmem, ⟨13, _⟩ => ⟨S1600x512, .f32⟩
  | .local _ .vmem, ⟨14, _⟩ => ⟨S1600x512, .f32⟩
  | .local _ .vmem, ⟨15, _⟩ => ⟨S1600x512, .f32⟩
  | .local _ .vmem, ⟨16, _⟩ => ⟨S1600x512, .f32⟩
  | .local _ .vmem, ⟨17, _⟩ => ⟨S1600x512, .f32⟩
  | .local _ .vmem, ⟨18, _⟩ => ⟨S512x512, .f32⟩
  | .local _ .vmem, ⟨19, _⟩ => ⟨S1600x512, .f32⟩
  | .local _ .vmem, ⟨20, _⟩ => ⟨S1600x512, .f32⟩
  | .local _ .vmem, ⟨21, _⟩ => ⟨S1600x512, .f32⟩
  | .local _ .vmem, ⟨22, _⟩ => ⟨S1600x512, .f32⟩
  | .local _ .vmem, ⟨23, _⟩ => ⟨S1600x512, .f32⟩
  | .local _ .vmem, ⟨24, _⟩ => ⟨S1600x512, .f32⟩
  | .local _ .vmem, ⟨25, _⟩ => ⟨S512x512, .f32⟩
  | .local _ .vmem, ⟨26, _⟩ => ⟨S1600x512, .f32⟩
  | .local _ .vmem, ⟨27, _⟩ => ⟨S1600x512, .f32⟩
  | .local _ .vmem, ⟨28, _⟩ => ⟨S1600x512, .f32⟩
  | .local _ .vmem, ⟨29, _⟩ => ⟨S1600x512, .f32⟩
  | .local _ .vmem, ⟨30, _⟩ => ⟨S1600x512, .f32⟩
  | .local _ .vmem, ⟨31, _⟩ => ⟨S1600x512, .f32⟩
  | .local _ .vmem, ⟨32, _⟩ => ⟨S512x512, .f32⟩
  | .local _ .vmem, ⟨33, _⟩ => ⟨S1600x512, .f32⟩
  | .local _ .vmem, ⟨34, _⟩ => ⟨S1600x512, .f32⟩
  | .local _ .vmem, ⟨35, _⟩ => ⟨S2000x645, .f32⟩
  | .local _ .vmem, ⟨36, _⟩ => ⟨S2000x645, .f32⟩
  | .local _ .vmem, ⟨37, _⟩ => ⟨S512x645, .f32⟩
  | .local _ .vmem, ⟨38, _⟩ => ⟨S1x512, .f32⟩
  | .local _ .vmem, ⟨39, _⟩ => ⟨S2000x512, .f32⟩
  | .local _ .vmem, ⟨40, _⟩ => ⟨S2000x512, .f32⟩
  | _, _ => ⟨S60000x133, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_c_1 : Ref sig .tc := ⟨.hbm, 23, rfl⟩
abbrev main_v9 : Ref sig .tc := ⟨.hbm, 24, rfl⟩
abbrev main_v10 : Ref sig .tc := ⟨.hbm, 25, rfl⟩
abbrev main_c_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c_3 : Ref sig .tc := ⟨.hbm, 32, rfl⟩
abbrev main_v16 : Ref sig .tc := ⟨.hbm, 33, rfl⟩
abbrev main_v17 : Ref sig .tc := ⟨.hbm, 34, rfl⟩
abbrev main_c_4 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_7 : Ref sig .tc := ⟨.hbm, 52, rfl⟩
abbrev main_v32 : Ref sig .tc := ⟨.hbm, 53, rfl⟩
abbrev main_c_8 : Ref sig .tc := ⟨.hbm, 54, rfl⟩
abbrev main_v33 : Ref sig .tc := ⟨.hbm, 55, rfl⟩
abbrev main_v34 : Ref sig .tc := ⟨.hbm, 56, rfl⟩
abbrev main_c_9 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_10 : Ref sig .tc := ⟨.hbm, 63, rfl⟩
abbrev main_v40 : Ref sig .tc := ⟨.hbm, 64, rfl⟩
abbrev main_v41 : Ref sig .tc := ⟨.hbm, 65, rfl⟩
abbrev main_c_11 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_12 : Ref sig .tc := ⟨.hbm, 74, rfl⟩
abbrev main_v49 : Ref sig .tc := ⟨.hbm, 75, rfl⟩
abbrev main_v50 : Ref sig .tc := ⟨.hbm, 76, rfl⟩
abbrev main_c_13 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_14 : Ref sig .tc := ⟨.hbm, 83, rfl⟩
abbrev main_v56 : Ref sig .tc := ⟨.hbm, 84, rfl⟩
abbrev main_c_15 : Ref sig .tc := ⟨.hbm, 85, rfl⟩
abbrev main_v57 : Ref sig .tc := ⟨.hbm, 86, rfl⟩
abbrev main_v58 : Ref sig .tc := ⟨.hbm, 87, rfl⟩
abbrev main_c_16 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_c_17 : Ref sig .tc := ⟨.hbm, 94, rfl⟩
abbrev main_v64 : Ref sig .tc := ⟨.hbm, 95, rfl⟩
abbrev main_v65 : Ref sig .tc := ⟨.hbm, 96, rfl⟩
abbrev main_c_18 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_c_19 : Ref sig .tc := ⟨.hbm, 105, rfl⟩
abbrev main_v73 : Ref sig .tc := ⟨.hbm, 106, rfl⟩
abbrev main_v74 : Ref sig .tc := ⟨.hbm, 107, rfl⟩
abbrev main_c_20 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_21 : Ref sig .tc := ⟨.hbm, 114, rfl⟩
abbrev main_v80 : Ref sig .tc := ⟨.hbm, 115, rfl⟩
abbrev main_c_22 : Ref sig .tc := ⟨.hbm, 116, rfl⟩
abbrev main_v81 : Ref sig .tc := ⟨.hbm, 117, rfl⟩
abbrev main_v82 : Ref sig .tc := ⟨.hbm, 118, rfl⟩
abbrev main_c_23 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_c_24 : Ref sig .tc := ⟨.hbm, 125, rfl⟩
abbrev main_v88 : Ref sig .tc := ⟨.hbm, 126, rfl⟩
abbrev main_v89 : Ref sig .tc := ⟨.hbm, 127, rfl⟩
abbrev main_c_25 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_c_26 : Ref sig .tc := ⟨.hbm, 136, rfl⟩
abbrev main_v97 : Ref sig .tc := ⟨.hbm, 137, rfl⟩
abbrev main_v98 : Ref sig .tc := ⟨.hbm, 138, rfl⟩
abbrev main_c_27 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_cst_28 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_cst_29 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_cst_30 : Ref sig .tc := ⟨.hbm, 154, rfl⟩
abbrev main_v111 : Ref sig .tc := ⟨.hbm, 155, rfl⟩
abbrev main_cst_31 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_cst_32 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg3_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg2_0 : Ref sig .tc := ⟨.vmem, 38, rfl⟩
abbrev cc5_stg3_0 : Ref sig .tc := ⟨.vmem, 39, rfl⟩
abbrev cc5_stg3_1 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem3_0 : DmaSem sig := 33
abbrev cc4_sem3_1 : DmaSem sig := 34
abbrev cc5_sem0_0 : DmaSem sig := 35
abbrev cc5_sem0_1 : DmaSem sig := 36
abbrev cc5_sem1_0 : DmaSem sig := 37
abbrev cc5_sem2_0 : DmaSem sig := 38
abbrev cc5_sem3_0 : DmaSem sig := 39
abbrev cc5_sem3_1 : DmaSem sig := 40

abbrev nD : Nat := 1
abbrev τ : Topo := Topo.v7x

variable {F : FTy → Type} [FloatOps F]

abbrev grid0 : Pipeline.Grid := ⟨1, ![75], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1600x147 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x147 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1600x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1600x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![75], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1600x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1600x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1600x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![75], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1600x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1600x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S512x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1600x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![75], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1600x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1600x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S512x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1600x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![75], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1600x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1600x512 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S512x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1600x512 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![30], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x645 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S512x645 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x512 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x512 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  inb_S1600x147_S1600x147_0_0 : ∀ a, (![0, 0] : Fin 2 → Nat) a + S1600x147.size a ≤ S1600x147.size a
  h_S1600x147 : 0 < S1600x147.numel
  bitsLt_bf16_f32 : FTy.bits .bf16 < FTy.bits .f32
  inb_S512x147_S512x147_0_0 : ∀ a, (![0, 0] : Fin 2 → Nat) a + S512x147.size a ≤ S512x147.size a
  h_S512x147 : 0 < S512x147.numel
  transposes_S512x147_p1_0_S147x512 : S512x147.Transposes [1, 0] S147x512
  inb_S1600x512_S1600x512_0_0 : ∀ a, (![0, 0] : Fin 2 → Nat) a + S1600x512.size a ≤ S1600x512.size a
  h_S1600x512 : 0 < S1600x512.numel
  bcast_S_S60000x6 : S_.BroadcastsInDim S60000x6 (![] : Fin 0 → Fin S60000x6.rank)
  bcast_S60000x6_S60000x6x1_0_1 : S60000x6.BroadcastsInDim S60000x6x1 (![0, 1] : Fin 2 → Fin S60000x6x1.rank)
  reducesTo_S60000x6x512_S60000x512_d1 : S60000x6x512.ReducesTo [1] S60000x512
  h_S_ : 0 < S_.numel
  bcast_S_S120000 : S_.BroadcastsInDim S120000 (![] : Fin 0 → Fin S120000.rank)
  bcast_S120000_S120000x1_0 : S120000.BroadcastsInDim S120000x1 (![0] : Fin 1 → Fin S120000x1.rank)
  shapeCasts_S1600x512_S1600x512 : S1600x512.ShapeCasts S1600x512
  inb_S512x512_S512x512_0_0 : ∀ a, (![0, 0] : Fin 2 → Nat) a + S512x512.size a ≤ S512x512.size a
  h_S512x512 : 0 < S512x512.numel
  transposes_S512x512_p1_0_S512x512 : S512x512.Transposes [1, 0] S512x512
  concatenates_S60000x133_S60000x512_S60000x645_d1 : Shape.Concatenates [S60000x133, S60000x512] S60000x645 1
  shapeCasts_S512_S1x512 : S512.ShapeCasts S1x512
  inb_S2000x645_S2000x645_0_0 : ∀ a, (![0, 0] : Fin 2 → Nat) a + S2000x645.size a ≤ S2000x645.size a
  h_S2000x645 : 0 < S2000x645.numel
  shapeCasts_S2000x645_S2000x645 : S2000x645.ShapeCasts S2000x645
  inb_S512x645_S512x645_0_0 : ∀ a, (![0, 0] : Fin 2 → Nat) a + S512x645.size a ≤ S512x645.size a
  h_S512x645 : 0 < S512x645.numel
  transposes_S512x645_p1_0_S645x512 : S512x645.Transposes [1, 0] S645x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S2000x512_S2000x512_0_0 : ∀ a, (![0, 0] : Fin 2 → Nat) a + S2000x512.size a ≤ S2000x512.size a
  h_S2000x512 : 0 < S2000x512.numel
  bcast_S_S512x512 : S_.BroadcastsInDim S512x512 (![] : Fin 0 → Fin S512x512.rank)
  bcast_S60000_S60000x1_0 : S60000.BroadcastsInDim S60000x1 (![0] : Fin 1 → Fin S60000x1.rank)
  bcast_S_S60000 : S_.BroadcastsInDim S60000 (![] : Fin 0 → Fin S60000.rank)
  bcast_S_S512 : S_.BroadcastsInDim S512 (![] : Fin 0 → Fin S512.rank)
  bcast_S512_S512x1_0 : S512.BroadcastsInDim S512x1 (![0] : Fin 1 → Fin S512x1.rank)
  bcast_S512x1_S512x512_0_1 : S512x1.BroadcastsInDim S512x512 (![0, 1] : Fin 2 → Fin S512x512.rank)
  dot_S1600x147_S147x512_S1600x512_1_0_0_1_n_n_wf : DotDims.WF S1600x147 S147x512 S1600x512 [1] [0] [0] [1] [] []
  gather_S120000x512_S60000x6x1_S60000x6x512_2_0_n_n_0_2_1512_wf : GatherDims.WF S120000x512 S60000x6x1 S60000x6x512 [2] [0] [] [0] [] 2 ![1, 512]
  gather_S60000x512_S120000x1_S120000x512_1_0_n_n_0_1_1512_wf : GatherDims.WF S60000x512 S120000x1 S120000x512 [1] [0] [] [0] [] 1 ![1, 512]
  gather_S120000x512_S120000x1_S120000x512_1_0_n_n_0_1_1512_wf : GatherDims.WF S120000x512 S120000x1 S120000x512 [1] [0] [] [0] [] 1 ![1, 512]
  dot_S1600x512_S512x512_S1600x512_1_0_0_1_n_n_wf : DotDims.WF S1600x512 S512x512 S1600x512 [1] [0] [0] [1] [] []
  dot_S2000x645_S645x512_S2000x512_1_0_0_1_n_n_wf : DotDims.WF S2000x645 S645x512 S2000x512 [1] [0] [0] [1] [] []
  scatter_S512x512_S60000x1_S60000x512_1_0_0_1_wf : ScatterDims.WF S512x512 S60000x1 S60000x512 [1] [0] [0] 1
  scatter_S512_S60000x1_S60000_n_0_0_1_wf : ScatterDims.WF S512 S60000x1 S60000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1600x147.size a ≤ S120000x147.size a
  hwx0_0 : ∀ i : grid0.Coords, EltTy.bits .f32 = 32 ∨ (Rect.block (s := S120000x147) S1600x147.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x147.size a ≤ S512x147.size a
  hwx0_1 : ∀ i : grid0.Coords, EltTy.bits .f32 = 32 ∨ (Rect.block (s := S512x147) S512x147.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1600x512.size a ≤ S120000x512.size a
  hwx0_2 : ∀ i : grid0.Coords, EltTy.bits .f32 = 32 ∨ (Rect.block (s := S120000x512) S1600x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1600x512.size a ≤ S120000x512.size a
  hwx0_3 : ∀ i : grid0.Coords, EltTy.bits .f32 = 32 ∨ (Rect.block (s := S120000x512) S1600x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1600x512.size a ≤ S120000x512.size a
  hwx1_0 : ∀ i : grid1.Coords, EltTy.bits .f32 = 32 ∨ (Rect.block (s := S120000x512) S1600x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1600x512.size a ≤ S120000x512.size a
  hwx1_1 : ∀ i : grid1.Coords, EltTy.bits .f32 = 32 ∨ (Rect.block (s := S120000x512) S1600x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .f32 = 32 ∨ (Rect.block (s := S512x512) S512x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1600x512.size a ≤ S120000x512.size a
  hwx1_3 : ∀ i : grid1.Coords, EltTy.bits .f32 = 32 ∨ (Rect.block (s := S120000x512) S1600x512.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1600x512.size a ≤ S120000x512.size a
  hwx2_0 : ∀ i : grid2.Coords, EltTy.bits .f32 = 32 ∨ (Rect.block (s := S120000x512) S1600x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1600x512.size a ≤ S120000x512.size a
  hwx2_1 : ∀ i : grid2.Coords, EltTy.bits .f32 = 32 ∨ (Rect.block (s := S120000x512) S1600x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S512x512.size a
  hwx2_2 : ∀ i : grid2.Coords, EltTy.bits .f32 = 32 ∨ (Rect.block (s := S512x512) S512x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1600x512.size a ≤ S120000x512.size a
  hwx2_3 : ∀ i : grid2.Coords, EltTy.bits .f32 = 32 ∨ (Rect.block (s := S120000x512) S1600x512.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1600x512.size a ≤ S120000x512.size a
  hwx3_0 : ∀ i : grid3.Coords, EltTy.bits .f32 = 32 ∨ (Rect.block (s := S120000x512) S1600x512.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1600x512.size a ≤ S120000x512.size a
  hwx3_1 : ∀ i : grid3.Coords, EltTy.bits .f32 = 32 ∨ (Rect.block (s := S120000x512) S1600x512.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S512x512.size a ≤ S512x512.size a
  hwx3_2 : ∀ i : grid3.Coords, EltTy.bits .f32 = 32 ∨ (Rect.block (s := S512x512) S512x512.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1600x512.size a ≤ S120000x512.size a
  hwx3_3 : ∀ i : grid3.Coords, EltTy.bits .f32 = 32 ∨ (Rect.block (s := S120000x512) S1600x512.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1600x512.size a ≤ S120000x512.size a
  hwx4_0 : ∀ i : grid4.Coords, EltTy.bits .f32 = 32 ∨ (Rect.block (s := S120000x512) S1600x512.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1600x512.size a ≤ S120000x512.size a
  hwx4_1 : ∀ i : grid4.Coords, EltTy.bits .f32 = 32 ∨ (Rect.block (s := S120000x512) S1600x512.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S512x512.size a ≤ S512x512.size a
  hwx4_2 : ∀ i : grid4.Coords, EltTy.bits .f32 = 32 ∨ (Rect.block (s := S512x512) S512x512.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1600x512.size a ≤ S120000x512.size a
  hwx4_3 : ∀ i : grid4.Coords, EltTy.bits .f32 = 32 ∨ (Rect.block (s := S120000x512) S1600x512.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x645.size a ≤ S60000x645.size a
  hwx5_0 : ∀ i : grid5.Coords, EltTy.bits .f32 = 32 ∨ (Rect.block (s := S60000x645) S2000x645.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S512x645.size a ≤ S512x645.size a
  hwx5_1 : ∀ i : grid5.Coords, EltTy.bits .f32 = 32 ∨ (Rect.block (s := S512x645) S512x645.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x512.size a ≤ S1x512.size a
  hwx5_2 : ∀ i : grid5.Coords, EltTy.bits .f32 = 32 ∨ (Rect.block (s := S1x512) S1x512.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x512.size a ≤ S60000x512.size a
  hwx5_3 : ∀ i : grid5.Coords, EltTy.bits .f32 = 32 ∨ (Rect.block (s := S60000x512) S2000x512.size (cc5_transform_3 i) (hinb5_3 i)).WholeWords (EltTy.packing .f32)

variable [Facts₀]

def dot_S1600x147_S147x512_S1600x512_1_0_0_1_n_n : DotDims S1600x147 S147x512 S1600x512 where
  lhsContracting := [1]
  rhsContracting := [0]
  lhsNonContracting := [0]
  rhsNonContracting := [1]
  lhsBatch := []
  rhsBatch := []
  wf := dot_S1600x147_S147x512_S1600x512_1_0_0_1_n_n_wf
def gather_S120000x512_S60000x6x1_S60000x6x512_2_0_n_n_0_2_1512 : GatherDims S120000x512 S60000x6x1 S60000x6x512 where
  offsetDims := [2]
  collapsedSliceDims := [0]
  operandBatchingDims := []
  startIndicesBatchingDims := []
  startIndexMap := [0]
  indexVectorDim := 2
  sliceSizes := ![1, 512]
  wf := gather_S120000x512_S60000x6x1_S60000x6x512_2_0_n_n_0_2_1512_wf
def gather_S60000x512_S120000x1_S120000x512_1_0_n_n_0_1_1512 : GatherDims S60000x512 S120000x1 S120000x512 where
  offsetDims := [1]
  collapsedSliceDims := [0]
  operandBatchingDims := []
  startIndicesBatchingDims := []
  startIndexMap := [0]
  indexVectorDim := 1
  sliceSizes := ![1, 512]
  wf := gather_S60000x512_S120000x1_S120000x512_1_0_n_n_0_1_1512_wf
def gather_S120000x512_S120000x1_S120000x512_1_0_n_n_0_1_1512 : GatherDims S120000x512 S120000x1 S120000x512 where
  offsetDims := [1]
  collapsedSliceDims := [0]
  operandBatchingDims := []
  startIndicesBatchingDims := []
  startIndexMap := [0]
  indexVectorDim := 1
  sliceSizes := ![1, 512]
  wf := gather_S120000x512_S120000x1_S120000x512_1_0_n_n_0_1_1512_wf
def dot_S1600x512_S512x512_S1600x512_1_0_0_1_n_n : DotDims S1600x512 S512x512 S1600x512 where
  lhsContracting := [1]
  rhsContracting := [0]
  lhsNonContracting := [0]
  rhsNonContracting := [1]
  lhsBatch := []
  rhsBatch := []
  wf := dot_S1600x512_S512x512_S1600x512_1_0_0_1_n_n_wf
def dot_S2000x645_S645x512_S2000x512_1_0_0_1_n_n : DotDims S2000x645 S645x512 S2000x512 where
  lhsContracting := [1]
  rhsContracting := [0]
  lhsNonContracting := [0]
  rhsNonContracting := [1]
  lhsBatch := []
  rhsBatch := []
  wf := dot_S2000x645_S645x512_S2000x512_1_0_0_1_n_n_wf
def scatter_S512x512_S60000x1_S60000x512_1_0_0_1 : ScatterDims S512x512 S60000x1 S60000x512 where
  updateWindowDims := [1]
  insertedWindowDims := [0]
  scatterDimsToOperandDims := [0]
  indexVectorDim := 1
  wf := scatter_S512x512_S60000x1_S60000x512_1_0_0_1_wf
def scatter_S512_S60000x1_S60000_n_0_0_1 : ScatterDims S512 S60000x1 S60000 where
  updateWindowDims := []
  insertedWindowDims := [0]
  scatterDimsToOperandDims := [0]
  indexVectorDim := 1
  wf := scatter_S512_S60000x1_S60000_n_0_0_1_wf

abbrev win0_0 : Pipeline.Window sig grid0 :=
  Pipeline.Window.ofSpec (Memref.whole main_arg1) S1600x147.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x147.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1600x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1600x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v23) S1600x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S1600x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1600x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v47) S1600x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0_0) S1600x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S512x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S1600x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v71) S1600x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v0_0) S1600x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg3) S512x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v72) S1600x512.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v95) S1600x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v0_0) S1600x512.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg3) S512x512.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v96) S1600x512.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v105) S2000x645.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg4) S512x645.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v106) S1x512.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v107) S2000x512.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S60000x133 : Shape := ⟨2, ![60000, 133]⟩
abbrev S120000x147 : Shape := ⟨2, ![120000, 147]⟩
abbrev S512x147 : Shape := ⟨2, ![512, 147]⟩
abbrev S512x512 : Shape := ⟨2, ![512, 512]⟩
abbrev S512x645 : Shape := ⟨2, ![512, 645]⟩
abbrev S512 : Shape := ⟨1, ![512]⟩
abbrev S60000x6 : Shape := ⟨2, ![60000, 6]⟩
abbrev S120000 : Shape := ⟨1, ![120000]⟩
abbrev S60000 : Shape := ⟨1, ![60000]⟩
abbrev S147x512 : Shape := ⟨2, ![147, 512]⟩
abbrev S120000x512 : Shape := ⟨2, ![120000, 512]⟩
abbrev S_ : Shape := ⟨0, ![]⟩
abbrev S60000x6x1 : Shape := ⟨3, ![60000, 6, 1]⟩
abbrev S60000x6x512 : Shape := ⟨3, ![60000, 6, 512]⟩
abbrev S60000x512 : Shape := ⟨2, ![60000, 512]⟩
abbrev S120000x1 : Shape := ⟨2, ![120000, 1]⟩
abbrev S60000x645 : Shape := ⟨2, ![60000, 645]⟩
abbrev S645x512 : Shape := ⟨2, ![645, 512]⟩
abbrev S1x512 : Shape := ⟨2, ![1, 512]⟩
abbrev S60000x1 : Shape := ⟨2, ![60000, 1]⟩
abbrev S512x1 : Shape := ⟨2, ![512, 1]⟩

abbrev nBuf : Space → Nat
  | .hbm => 195
  | .vmem => 0
  | .smem => 0
  | _ => 0

abbrev hbmTy0_0 (i : Nat) : BufTy := match i % 128 with
  | 0 => ⟨S60000x133, .f32⟩
  | 1 => ⟨S120000x147, .f32⟩
  | 2 => ⟨S512x147, .f32⟩
  | 3 => ⟨S512x512, .f32⟩
  | 4 => ⟨S512x645, .f32⟩
  | 5 => ⟨S512, .f32⟩
  | 6 => ⟨S60000x6, .i32⟩
  | 7 => ⟨S120000, .i32⟩
  | 8 => ⟨S120000, .i32⟩
  | 9 => ⟨S60000, .i32⟩
  | 10 => ⟨S147x512, .f32⟩
  | 11 => ⟨S120000x512, .f32⟩
  | 12 => ⟨S_, .f32⟩
  | 13 => ⟨S120000x512, .f32⟩
  | 14 => ⟨S120000x512, .f32⟩
  | 15 => ⟨S_, .i32⟩
  | 16 => ⟨S60000x6, .i32⟩
  | 17 => ⟨S60000x6, .i1⟩
  | 18 => ⟨S_, .i32⟩
  | 19 => ⟨S60000x6, .i32⟩
  | 20 => ⟨S60000x6, .i32⟩
  | 21 => ⟨S60000x6, .i32⟩
  | 22 => ⟨S60000x6x1, .i32⟩
  | 23 => ⟨S60000x6x512, .f32⟩
  | 24 => ⟨S_, .f32⟩
  | 25 => ⟨S60000x512, .f32⟩
  | 26 => ⟨S_, .i32⟩
  | 27 => ⟨S120000, .i32⟩
  | 28 => ⟨S120000, .i1⟩
  | 29 => ⟨S_, .i32⟩
  | 30 => ⟨S120000, .i32⟩
  | 31 => ⟨S120000, .i32⟩
  | 32 => ⟨S120000, .i32⟩
  | 33 => ⟨S120000x1, .i32⟩
  | 34 => ⟨S120000x512, .f32⟩
  | 35 => ⟨S_, .i32⟩
  | 36 => ⟨S120000, .i32⟩
  | 37 => ⟨S120000, .i1⟩
  | 38 => ⟨S_, .i32⟩
  | 39 => ⟨S120000, .i32⟩
  | 40 => ⟨S120000, .i32⟩
  | 41 => ⟨S120000, .i32⟩
  | 42 => ⟨S120000x1, .i32⟩
  | 43 => ⟨S120000x512, .f32⟩
  | 44 => ⟨S120000x512, .f32⟩
  | 45 => ⟨S512x512, .f32⟩
  | 46 => ⟨S120000x512, .f32⟩
  | 47 => ⟨S120000x512, .f32⟩
  | 48 => ⟨S_, .f32⟩
  | 49 => ⟨S120000x512, .f32⟩
  | 50 => ⟨S120000x512, .f32⟩
  | 51 => ⟨S_, .i32⟩
  | 52 => ⟨S60000x6, .i32⟩
  | 53 => ⟨S60000x6, .i1⟩
  | 54 => ⟨S_, .i32⟩
  | 55 => ⟨S60000x6, .i32⟩
  | 56 => ⟨S60000x6, .i32⟩
  | 57 => ⟨S60000x6, .i32⟩
  | 58 => ⟨S60000x6x1, .i32⟩
  | 59 => ⟨S60000x6x512, .f32⟩
  | 60 => ⟨S_, .f32⟩
  | 61 => ⟨S60000x512, .f32⟩
  | 62 => ⟨S_, .i32⟩
  | 63 => ⟨S120000, .i32⟩
  | 64 => ⟨S120000, .i1⟩
  | 65 => ⟨S_, .i32⟩
  | 66 => ⟨S120000, .i32⟩
  | 67 => ⟨S120000, .i32⟩
  | 68 => ⟨S120000, .i32⟩
  | 69 => ⟨S120000x1, .i32⟩
  | 70 => ⟨S120000x512, .f32⟩
  | 71 => ⟨S_, .i32⟩
  | 72 => ⟨S120000, .i32⟩
  | 73 => ⟨S120000, .i1⟩
  | 74 => ⟨S_, .i32⟩
  | 75 => ⟨S120000, .i32⟩
  | 76 => ⟨S120000, .i32⟩
  | 77 => ⟨S120000, .i32⟩
  | 78 => ⟨S120000x1, .i32⟩
  | 79 => ⟨S120000x512, .f32⟩
  | 80 => ⟨S120000x512, .f32⟩
  | 81 => ⟨S512x512, .f32⟩
  | 82 => ⟨S120000x512, .f32⟩
  | 83 => ⟨S120000x512, .f32⟩
  | 84 => ⟨S_, .f32⟩
  | 85 => ⟨S120000x512, .f32⟩
  | 86 => ⟨S120000x512, .f32⟩
  | 87 => ⟨S_, .i32⟩
  | 88 => ⟨S60000x6, .i32⟩
  | 89 => ⟨S60000x6, .i1⟩
  | 90 => ⟨S_, .i32⟩
  | 91 => ⟨S60000x6, .i32⟩
  | 92 => ⟨S60000x6, .i32⟩
  | 93 => ⟨S60000x6, .i32⟩
  | 94 => ⟨S60000x6x1, .i32⟩
  | 95 => ⟨S60000x6x512, .f32⟩
  | 96 => ⟨S_, .f32⟩
  | 97 => ⟨S60000x512, .f32⟩
  | 98 => ⟨S_, .i32⟩
  | 99 => ⟨S120000, .i32⟩
  | 100 => ⟨S120000, .i1⟩
  | 101 => ⟨S_, .i32⟩
  | 102 => ⟨S120000, .i32⟩
  | 103 => ⟨S120000, .i32⟩
  | 104 => ⟨S120000, .i32⟩
  | 105 => ⟨S120000x1, .i32⟩
  | 106 => ⟨S120000x512, .f32⟩
  | 107 => ⟨S_, .i32⟩
  | 108 => ⟨S120000, .i32⟩
  | 109 => ⟨S120000, .i1⟩
  | 110 => ⟨S_, .i32⟩
  | 111 => ⟨S120000, .i32⟩
  | 112 => ⟨S120000, .i32⟩
  | 113 => ⟨S120000, .i32⟩
  | 114 => ⟨S120000x1, .i32⟩
  | 115 => ⟨S120000x512, .f32⟩
  | 116 => ⟨S120000x512, .f32⟩
  | 117 => ⟨S512x512, .f32⟩
  | 118 => ⟨S120000x512, .f32⟩
  | 119 => ⟨S120000x512, .f32⟩
  | 120 => ⟨S_, .f32⟩
  | 121 => ⟨S120000x512, .f32⟩
  | 122 => ⟨S120000x512, .f32⟩
  | 123 => ⟨S_, .i32⟩
  | 124 => ⟨S60000x6, .i32⟩
  | 125 => ⟨S60000x6, .i1⟩
  | 126 => ⟨S_, .i32⟩
  | 127 => ⟨S60000x6, .i32⟩
  | _ => ⟨S60000x133, .f32⟩

abbrev hbmTy0_1 (i : Nat) : BufTy := match i % 128 with
  | 0 => ⟨S60000x6, .i32⟩
  | 1 => ⟨S60000x6, .i32⟩
  | 2 => ⟨S60000x6x1, .i32⟩
  | 3 => ⟨S60000x6x512, .f32⟩
  | 4 => ⟨S_, .f32⟩
  | 5 => ⟨S60000x512, .f32⟩
  | 6 => ⟨S_, .i32⟩
  | 7 => ⟨S120000, .i32⟩
  | 8 => ⟨S120000, .i1⟩
  | 9 => ⟨S_, .i32⟩
  | 10 => ⟨S120000, .i32⟩
  | 11 => ⟨S120000, .i32⟩
  | 12 => ⟨S120000, .i32⟩
  | 13 => ⟨S120000x1, .i32⟩
  | 14 => ⟨S120000x512, .f32⟩
  | 15 => ⟨S_, .i32⟩
  | 16 => ⟨S120000, .i32⟩
  | 17 => ⟨S120000, .i1⟩
  | 18 => ⟨S_, .i32⟩
  | 19 => ⟨S120000, .i32⟩
  | 20 => ⟨S120000, .i32⟩
  | 21 => ⟨S120000, .i32⟩
  | 22 => ⟨S120000x1, .i32⟩
  | 23 => ⟨S120000x512, .f32⟩
  | 24 => ⟨S120000x512, .f32⟩
  | 25 => ⟨S512x512, .f32⟩
  | 26 => ⟨S120000x512, .f32⟩
  | 27 => ⟨S120000x512, .f32⟩
  | 28 => ⟨S_, .f32⟩
  | 29 => ⟨S120000x512, .f32⟩
  | 30 => ⟨S120000x512, .f32⟩
  | 31 => ⟨S_, .i32⟩
  | 32 => ⟨S60000x6, .i32⟩
  | 33 => ⟨S60000x6, .i1⟩
  | 34 => ⟨S_, .i32⟩
  | 35 => ⟨S60000x6, .i32⟩
  | 36 => ⟨S60000x6, .i32⟩
  | 37 => ⟨S60000x6, .i32⟩
  | 38 => ⟨S60000x6x1, .i32⟩
  | 39 => ⟨S60000x6x512, .f32⟩
  | 40 => ⟨S_, .f32⟩
  | 41 => ⟨S60000x512, .f32⟩
  | 42 => ⟨S60000x645, .f32⟩
  | 43 => ⟨S645x512, .f32⟩
  | 44 => ⟨S60000x512, .f32⟩
  | 45 => ⟨S1x512, .f32⟩
  | 46 => ⟨S60000x512, .f32⟩
  | 47 => ⟨S60000x512, .f32⟩
  | 48 => ⟨S_, .f32⟩
  | 49 => ⟨S60000x512, .f32⟩
  | 50 => ⟨S60000x512, .f32⟩
  | 51 => ⟨S_, .f32⟩
  | 52 => ⟨S512x512, .f32⟩
  | 53 => ⟨S60000x1, .i32⟩
  | 54 => ⟨S512x512, .f32⟩
  | 55 => ⟨S_, .f32⟩
  | 56 => ⟨S60000, .f32⟩
  | 57 => ⟨S_, .f32⟩
  | 58 => ⟨S512, .f32⟩
  | 59 => ⟨S60000x1, .i32⟩
  | 60 => ⟨S512, .f32⟩
  | 61 => ⟨S_, .f32⟩
  | 62 => ⟨S512, .f32⟩
  | 63 => ⟨S512, .f32⟩
  | 64 => ⟨S512x1, .f32⟩
  | 65 => ⟨S512x512, .f32⟩
  | 66 => ⟨S512x512, .f32⟩
  | _ => ⟨S60000x133, .f32⟩

abbrev hbmTy (i : Nat) : BufTy := match i / 128 with
  | 0 => hbmTy0_0 i
  | 1 => hbmTy0_1 i
  | _ => ⟨S60000x133, .f32⟩

abbrev bufTy : (tb : Table) → Fin (tcTables nBuf tb) → BufTy
  | .hbm, ⟨i, _⟩ => hbmTy i
  | _, _ => ⟨S60000x133, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_call0_cst : Ref sig .tc := ⟨.hbm, 12, rfl⟩
abbrev main_call0_v0 : Ref sig .tc := ⟨.hbm, 13, rfl⟩
abbrev main_v2 : Ref sig .tc := ⟨.hbm, 14, rfl⟩
abbrev main_c : Ref sig .tc := ⟨.hbm, 15, rfl⟩
abbrev main_v3 : Ref sig .tc := ⟨.hbm, 16, rfl⟩
abbrev main_v4 : Ref sig .tc := ⟨.hbm, 17, rfl⟩
abbrev main_c_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call1_cst : Ref sig .tc := ⟨.hbm, 48, rfl⟩
abbrev main_call1_v0 : Ref sig .tc := ⟨.hbm, 49, rfl⟩
abbrev main_v29 : Ref sig .tc := ⟨.hbm, 50, rfl⟩
abbrev main_c_5 : Ref sig .tc := ⟨.hbm, 51, rfl⟩
abbrev main_v30 : Ref sig .tc := ⟨.hbm, 52, rfl⟩
abbrev main_v31 : Ref sig .tc := ⟨.hbm, 53, rfl⟩
abbrev main_c_6 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_7 : Ref sig .tc := ⟨.hbm, 60, rfl⟩
abbrev main_v37 : Ref sig .tc := ⟨.hbm, 61, rfl⟩
abbrev main_c_8 : Ref sig .tc := ⟨.hbm, 62, rfl⟩
abbrev main_v38 : Ref sig .tc := ⟨.hbm, 63, rfl⟩
abbrev main_v39 : Ref sig .tc := ⟨.hbm, 64, rfl⟩
abbrev main_c_9 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c_10 : Ref sig .tc := ⟨.hbm, 71, rfl⟩
abbrev main_v45 : Ref sig .tc := ⟨.hbm, 72, rfl⟩
abbrev main_v46 : Ref sig .tc := ⟨.hbm, 73, rfl⟩
abbrev main_c_11 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_call2_cst : Ref sig .tc := ⟨.hbm, 84, rfl⟩
abbrev main_call2_v0 : Ref sig .tc := ⟨.hbm, 85, rfl⟩
abbrev main_v56 : Ref sig .tc := ⟨.hbm, 86, rfl⟩
abbrev main_c_12 : Ref sig .tc := ⟨.hbm, 87, rfl⟩
abbrev main_v57 : Ref sig .tc := ⟨.hbm, 88, rfl⟩
abbrev main_v58 : Ref sig .tc := ⟨.hbm, 89, rfl⟩
abbrev main_c_13 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_14 : Ref sig .tc := ⟨.hbm, 96, rfl⟩
abbrev main_v64 : Ref sig .tc := ⟨.hbm, 97, rfl⟩
abbrev main_c_15 : Ref sig .tc := ⟨.hbm, 98, rfl⟩
abbrev main_v65 : Ref sig .tc := ⟨.hbm, 99, rfl⟩
abbrev main_v66 : Ref sig .tc := ⟨.hbm, 100, rfl⟩
abbrev main_c_16 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_c_17 : Ref sig .tc := ⟨.hbm, 107, rfl⟩
abbrev main_v72 : Ref sig .tc := ⟨.hbm, 108, rfl⟩
abbrev main_v73 : Ref sig .tc := ⟨.hbm, 109, rfl⟩
abbrev main_c_18 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_call3_cst : Ref sig .tc := ⟨.hbm, 120, rfl⟩
abbrev main_call3_v0 : Ref sig .tc := ⟨.hbm, 121, rfl⟩
abbrev main_v83 : Ref sig .tc := ⟨.hbm, 122, rfl⟩
abbrev main_c_19 : Ref sig .tc := ⟨.hbm, 123, rfl⟩
abbrev main_v84 : Ref sig .tc := ⟨.hbm, 124, rfl⟩
abbrev main_v85 : Ref sig .tc := ⟨.hbm, 125, rfl⟩
abbrev main_c_20 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_cst_21 : Ref sig .tc := ⟨.hbm, 132, rfl⟩
abbrev main_v91 : Ref sig .tc := ⟨.hbm, 133, rfl⟩
abbrev main_c_22 : Ref sig .tc := ⟨.hbm, 134, rfl⟩
abbrev main_v92 : Ref sig .tc := ⟨.hbm, 135, rfl⟩
abbrev main_v93 : Ref sig .tc := ⟨.hbm, 136, rfl⟩
abbrev main_c_23 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_c_24 : Ref sig .tc := ⟨.hbm, 143, rfl⟩
abbrev main_v99 : Ref sig .tc := ⟨.hbm, 144, rfl⟩
abbrev main_v100 : Ref sig .tc := ⟨.hbm, 145, rfl⟩
abbrev main_c_25 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_call4_cst : Ref sig .tc := ⟨.hbm, 156, rfl⟩
abbrev main_call4_v0 : Ref sig .tc := ⟨.hbm, 157, rfl⟩
abbrev main_v110 : Ref sig .tc := ⟨.hbm, 158, rfl⟩
abbrev main_c_26 : Ref sig .tc := ⟨.hbm, 159, rfl⟩
abbrev main_v111 : Ref sig .tc := ⟨.hbm, 160, rfl⟩
abbrev main_v112 : Ref sig .tc := ⟨.hbm, 161, rfl⟩
abbrev main_c_27 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_cst_28 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_call5_cst : Ref sig .tc := ⟨.hbm, 176, rfl⟩
abbrev main_call5_v0 : Ref sig .tc := ⟨.hbm, 177, rfl⟩
abbrev main_v125 : Ref sig .tc := ⟨.hbm, 178, rfl⟩
abbrev main_cst_29 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_cst_30 : Ref sig .tc := ⟨.hbm, 183, rfl⟩
abbrev main_v129 : Ref sig .tc := ⟨.hbm, 184, rfl⟩
abbrev main_cst_31 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_cst_32 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩

abbrev nD : Nat := 1
abbrev τ : Topo := Topo.v7x

variable {F : FTy → Type} [FloatOps F]

class Facts₀ : Prop where
  transposes_S512x147_S147x512_1_0 : S512x147.Transposes [1, 0] S147x512
  bcast_S_S120000x512 : S_.BroadcastsInDim S120000x512 (![] : Fin 0 → Fin S120000x512.rank)
  bcast_S_S60000x6 : S_.BroadcastsInDim S60000x6 (![] : Fin 0 → Fin S60000x6.rank)
  bcast_S60000x6_S60000x6x1_0_1 : S60000x6.BroadcastsInDim S60000x6x1 (![0, 1] : Fin 2 → Fin S60000x6x1.rank)
  reducesTo_S60000x6x512_S60000x512_d1 : S60000x6x512.ReducesTo [1] S60000x512
  h_S_ : 0 < S_.numel
  bcast_S_S120000 : S_.BroadcastsInDim S120000 (![] : Fin 0 → Fin S120000.rank)
  bcast_S120000_S120000x1_0 : S120000.BroadcastsInDim S120000x1 (![0] : Fin 1 → Fin S120000x1.rank)
  transposes_S512x512_S512x512_1_0 : S512x512.Transposes [1, 0] S512x512
  concatenates_S60000x133_S60000x512_S60000x645_d1 : Shape.Concatenates [S60000x133, S60000x512] S60000x645 1
  transposes_S512x645_S645x512_1_0 : S512x645.Transposes [1, 0] S645x512
  bcast_S512_S1x512_1 : S512.BroadcastsInDim S1x512 (![1] : Fin 1 → Fin S1x512.rank)
  bcast_S1x512_S60000x512_0_1 : S1x512.BroadcastsInDim S60000x512 (![0, 1] : Fin 2 → Fin S60000x512.rank)
  bcast_S_S60000x512 : S_.BroadcastsInDim S60000x512 (![] : Fin 0 → Fin S60000x512.rank)
  bcast_S_S512x512 : S_.BroadcastsInDim S512x512 (![] : Fin 0 → Fin S512x512.rank)
  bcast_S60000_S60000x1_0 : S60000.BroadcastsInDim S60000x1 (![0] : Fin 1 → Fin S60000x1.rank)
  bcast_S_S60000 : S_.BroadcastsInDim S60000 (![] : Fin 0 → Fin S60000.rank)
  bcast_S_S512 : S_.BroadcastsInDim S512 (![] : Fin 0 → Fin S512.rank)
  bcast_S512_S512x1_0 : S512.BroadcastsInDim S512x1 (![0] : Fin 1 → Fin S512x1.rank)
  bcast_S512x1_S512x512_0_1 : S512x1.BroadcastsInDim S512x512 (![0, 1] : Fin 2 → Fin S512x512.rank)
  dot_S120000x147_S147x512_S120000x512_1_0_0_1_n_n_wf : DotDims.WF S120000x147 S147x512 S120000x512 [1] [0] [0] [1] [] []
  gather_S120000x512_S60000x6x1_S60000x6x512_2_0_n_n_0_2_1512_wf : GatherDims.WF S120000x512 S60000x6x1 S60000x6x512 [2] [0] [] [0] [] 2 ![1, 512]
  gather_S60000x512_S120000x1_S120000x512_1_0_n_n_0_1_1512_wf : GatherDims.WF S60000x512 S120000x1 S120000x512 [1] [0] [] [0] [] 1 ![1, 512]
  gather_S120000x512_S120000x1_S120000x512_1_0_n_n_0_1_1512_wf : GatherDims.WF S120000x512 S120000x1 S120000x512 [1] [0] [] [0] [] 1 ![1, 512]
  dot_S120000x512_S512x512_S120000x512_1_0_0_1_n_n_wf : DotDims.WF S120000x512 S512x512 S120000x512 [1] [0] [0] [1] [] []
  dot_S60000x645_S645x512_S60000x512_1_0_0_1_n_n_wf : DotDims.WF S60000x645 S645x512 S60000x512 [1] [0] [0] [1] [] []
  scatter_S512x512_S60000x1_S60000x512_1_0_0_1_wf : ScatterDims.WF S512x512 S60000x1 S60000x512 [1] [0] [0] 1
  scatter_S512_S60000x1_S60000_n_0_0_1_wf : ScatterDims.WF S512 S60000x1 S60000 [] [0] [0] 1

variable [Facts₀]

def dot_S120000x147_S147x512_S120000x512_1_0_0_1_n_n : DotDims S120000x147 S147x512 S120000x512 where
  lhsContracting := [1]
  rhsContracting := [0]
  lhsNonContracting := [0]
  rhsNonContracting := [1]
  lhsBatch := []
  rhsBatch := []
  wf := dot_S120000x147_S147x512_S120000x512_1_0_0_1_n_n_wf
def gather_S120000x512_S60000x6x1_S60000x6x512_2_0_n_n_0_2_1512 : GatherDims S120000x512 S60000x6x1 S60000x6x512 where
  offsetDims := [2]
  collapsedSliceDims := [0]
  operandBatchingDims := []
  startIndicesBatchingDims := []
  startIndexMap := [0]
  indexVectorDim := 2
  sliceSizes := ![1, 512]
  wf := gather_S120000x512_S60000x6x1_S60000x6x512_2_0_n_n_0_2_1512_wf
def gather_S60000x512_S120000x1_S120000x512_1_0_n_n_0_1_1512 : GatherDims S60000x512 S120000x1 S120000x512 where
  offsetDims := [1]
  collapsedSliceDims := [0]
  operandBatchingDims := []
  startIndicesBatchingDims := []
  startIndexMap := [0]
  indexVectorDim := 1
  sliceSizes := ![1, 512]
  wf := gather_S60000x512_S120000x1_S120000x512_1_0_n_n_0_1_1512_wf
def gather_S120000x512_S120000x1_S120000x512_1_0_n_n_0_1_1512 : GatherDims S120000x512 S120000x1 S120000x512 where
  offsetDims := [1]
  collapsedSliceDims := [0]
  operandBatchingDims := []
  startIndicesBatchingDims := []
  startIndexMap := [0]
  indexVectorDim := 1
  sliceSizes := ![1, 512]
  wf := gather_S120000x512_S120000x1_S120000x512_1_0_n_n_0_1_1512_wf
def dot_S120000x512_S512x512_S120000x512_1_0_0_1_n_n : DotDims S120000x512 S512x512 S120000x512 where
  lhsContracting := [1]
  rhsContracting := [0]
  lhsNonContracting := [0]
  rhsNonContracting := [1]
  lhsBatch := []
  rhsBatch := []
  wf := dot_S120000x512_S512x512_S120000x512_1_0_0_1_n_n_wf
def dot_S60000x645_S645x512_S60000x512_1_0_0_1_n_n : DotDims S60000x645 S645x512 S60000x512 where
  lhsContracting := [1]
  rhsContracting := [0]
  lhsNonContracting := [0]
  rhsNonContracting := [1]
  lhsBatch := []
  rhsBatch := []
  wf := dot_S60000x645_S645x512_S60000x512_1_0_0_1_n_n_wf
def scatter_S512x512_S60000x1_S60000x512_1_0_0_1 : ScatterDims S512x512 S60000x1 S60000x512 where
  updateWindowDims := [1]
  insertedWindowDims := [0]
  scatterDimsToOperandDims := [0]
  indexVectorDim := 1
  wf := scatter_S512x512_S60000x1_S60000x512_1_0_0_1_wf
def scatter_S512_S60000x1_S60000_n_0_0_1 : ScatterDims S512 S60000x1 S60000 where
  updateWindowDims := []
  insertedWindowDims := [0]
  scatterDimsToOperandDims := [0]
  indexVectorDim := 1
  wf := scatter_S512_S60000x1_S60000_n_0_0_1_wf

class Facts : Prop extends Facts₀ where

variable [Facts]
-- ==== Proof.KernelRun.lean ====
/-
  The idealized kernel's run with its result named.

  @main is twelve segments: six grid launches, each followed by a stretch of host operations. Every weakly fair
  execution runs through them in order, terminates without a fault, and ends with every buffer that outlives a
  launch at the contents the segments leave one after the other: a launch leaves each of its arrays at what its
  grid points wrote back and every other buffer as it found it; a host stretch leaves each result at its operation's
  value of the operands. So the result buffer ends at the last boundary's contents, and each argument, which no
  segment writes, ends as launched.
-/
import proofs.«118969_j9337258902201_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run : θ_run defs (onTc (τ := τ) (main (F := F))) ⟨m, fun _ => 0, ρ⟩ (fun r => ∀ c : Dev nD,
      r.2.mem ((c.tc : Thread nD τ).loc main_v119) = W12 m ρ c (Proc.devRef .tc main_v119)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v119 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c)⟩)

end Cert.KernelIdeal.RunValue

end
-- ==== Proof.RefGlue.lean ====
/-
  The reference's sparse steps as functions of the current message array.

  Between two dense steps the reference only moves and adds entries, by the three index tables:
    * per atom, the sum over its six listed bonds of the current messages (a gather of rows by the table `a2b`, then a
      sum over the six gathered rows);
    * per bond, that sum at the bond's source atom (a gather by `b2a`) minus the message of the reverse bond (a gather
      by `b2revb`);
    * at the end, the atoms' input (the atom features and the per-atom sum side by side) and the pooling of the atoms'
      hidden rows per molecule (a scatter-add by `mol_ids`, divided by the molecule's size, at least one).
  An index table is prepared the same way each time it is used (a negative index is moved up by the axis length, then
  the table is given a trailing unit axis). Stated once as functions of the message array, these steps are what every
  round of the reference applies: the equations below say so round by round; they hold by unfolding the stages.
-/
import proofs.«118969_j9337258902201_1_alg».proof.Proof.Gen.ReferenceIdeal.Read

noncomputable section

namespace Cert.ReferenceIdeal.Glue

open Cert.ReferenceIdeal Cert.ReferenceIdeal.Gen Cert.ReferenceIdeal.Read Idealize.ShloMosaic

variable {F : FTy → Type} [FloatOps F]

/-- Per atom, the sum of the current messages of its six listed bonds. -/
def atomSum (msg : (⟨S120000x512, .f32⟩ : BufTy).Contents (Elt F)) (x6 : (⟨S60000x6, .i32⟩ : BufTy).Contents (Elt F)) : (⟨S60000x512, .f32⟩ : BufTy).Contents (Elt F) :=
  Host.reduceAdd (Host.gather gather_S120000x512_S60000x6x1_S60000x6x512_2_0_n_n_0_2_1512 msg (val_main_v8 (F := F) x6))
    (val_main_cst (F := F)) reducesTo_S60000x6x512_S60000x512_d1 h_S_

/-- Per bond, the per-atom sum at its source atom minus the current message of its reverse bond. -/
def diff (msg : (⟨S120000x512, .f32⟩ : BufTy).Contents (Elt F)) (x6 : (⟨S60000x6, .i32⟩ : BufTy).Contents (Elt F)) (x7 x8 : (⟨S120000, .i32⟩ : BufTy).Contents (Elt F)) : (⟨S120000x512, .f32⟩ : BufTy).Contents (Elt F) :=
  subf (Host.gather gather_S60000x512_S120000x1_S120000x512_1_0_n_n_0_1_1512 (atomSum msg x6) (val_main_v16 (F := F) x7))
    (Host.gather gather_S120000x512_S120000x1_S120000x512_1_0_n_n_0_1_1512 msg (val_main_v23 (F := F) x8))

/-- The atoms' input: the atom features and the per-atom sums side by side. -/
def atomInput (x0 : (⟨S60000x133, .f32⟩ : BufTy).Contents (Elt F)) (am : (⟨S60000x512, .f32⟩ : BufTy).Contents (Elt F)) : (⟨S60000x645, .f32⟩ : BufTy).Contents (Elt F) :=
  concatenate S60000x645 1 [⟨S60000x133, x0⟩, ⟨S60000x512, am⟩] concatenates_S60000x133_S60000x512_S60000x645_d1

/-- The pooling: per molecule, the sum of its atoms' hidden rows over the number of its atoms, at least one. -/
def pool (hid : (⟨S60000x512, .f32⟩ : BufTy).Contents (Elt F)) (x9 : (⟨S60000, .i32⟩ : BufTy).Contents (Elt F)) : (⟨S512x512, .f32⟩ : BufTy).Contents (Elt F) :=
  Host.divf (Host.scatterAdd scatter_S512x512_S60000x1_S60000x512_1_0_0_1 (val_main_v126 (F := F)) (val_main_v127 (F := F) x9) hid)
    (val_main_v136 (F := F) x9)

theorem diff1 (x1 : (⟨S120000x147, .f32⟩ : BufTy).Contents (Elt F)) (x2 : (⟨S512x147, .f32⟩ : BufTy).Contents (Elt F)) (x6 : (⟨S60000x6, .i32⟩ : BufTy).Contents (Elt F)) (x7 x8 : (⟨S120000, .i32⟩ : BufTy).Contents (Elt F)) :
    val_main_v25 (F := F) x1 x2 x6 x7 x8 = diff (val_main_v2 (F := F) x1 x2) x6 x7 x8 := rfl

theorem diff2 (x1 : (⟨S120000x147, .f32⟩ : BufTy).Contents (Elt F)) (x2 : (⟨S512x147, .f32⟩ : BufTy).Contents (Elt F)) (x3 : (⟨S512x512, .f32⟩ : BufTy).Contents (Elt F)) (x6 : (⟨S60000x6, .i32⟩ : BufTy).Contents (Elt F)) (x7 x8 : (⟨S120000, .i32⟩ : BufTy).Contents (Elt F)) :
    val_main_v52 (F := F) x1 x2 x3 x6 x7 x8 = diff (val_main_v29 (F := F) x1 x2 x3 x6 x7 x8) x6 x7 x8 := rfl

theorem diff3 (x1 : (⟨S120000x147, .f32⟩ : BufTy).Contents (Elt F)) (x2 : (⟨S512x147, .f32⟩ : BufTy).Contents (Elt F)) (x3 : (⟨S512x512, .f32⟩ : BufTy).Contents (Elt F)) (x6 : (⟨S60000x6, .i32⟩ : BufTy).Contents (Elt F)) (x7 x8 : (⟨S120000, .i32⟩ : BufTy).Contents (Elt F)) :
    val_main_v79 (F := F) x1 x2 x3 x6 x7 x8 = diff (val_main_v56 (F := F) x1 x2 x3 x6 x7 x8) x6 x7 x8 := rfl

theorem diff4 (x1 : (⟨S120000x147, .f32⟩ : BufTy).Contents (Elt F)) (x2 : (⟨S512x147, .f32⟩ : BufTy).Contents (Elt F)) (x3 : (⟨S512x512, .f32⟩ : BufTy).Contents (Elt F)) (x6 : (⟨S60000x6, .i32⟩ : BufTy).Contents (Elt F)) (x7 x8 : (⟨S120000, .i32⟩ : BufTy).Contents (Elt F)) :
    val_main_v106 (F := F) x1 x2 x3 x6 x7 x8 = diff (val_main_v83 (F := F) x1 x2 x3 x6 x7 x8) x6 x7 x8 := rfl

theorem atomInput5 (x0 : (⟨S60000x133, .f32⟩ : BufTy).Contents (Elt F)) (x1 : (⟨S120000x147, .f32⟩ : BufTy).Contents (Elt F)) (x2 : (⟨S512x147, .f32⟩ : BufTy).Contents (Elt F)) (x3 : (⟨S512x512, .f32⟩ : BufTy).Contents (Elt F)) (x6 : (⟨S60000x6, .i32⟩ : BufTy).Contents (Elt F)) (x7 x8 : (⟨S120000, .i32⟩ : BufTy).Contents (Elt F)) :
    val_main_v119 (F := F) x0 x1 x2 x3 x6 x7 x8 = atomInput x0 (atomSum (val_main_v110 (F := F) x1 x2 x3 x6 x7 x8) x6) := rfl

theorem pool_eq (x0 : (⟨S60000x133, .f32⟩ : BufTy).Contents (Elt F)) (x1 : (⟨S120000x147, .f32⟩ : BufTy).Contents (Elt F)) (x2 : (⟨S512x147, .f32⟩ : BufTy).Contents (Elt F)) (x3 : (⟨S512x512, .f32⟩ : BufTy).Contents (Elt F)) (x4 : (⟨S512x645, .f32⟩ : BufTy).Contents (Elt F)) (x5 : (⟨S512, .f32⟩ : BufTy).Contents (Elt F)) (x6 : (⟨S60000x6, .i32⟩ : BufTy).Contents (Elt F)) (x7 x8 : (⟨S120000, .i32⟩ : BufTy).Contents (Elt F)) (x9 : (⟨S60000, .i32⟩ : BufTy).Contents (Elt F)) :
    val_main_v137 (F := F) x0 x1 x2 x3 x4 x5 x6 x7 x8 x9 = pool (val_main_v125 (F := F) x0 x1 x2 x3 x4 x5 x6 x7 x8) x9 := rfl

end Cert.ReferenceIdeal.Glue

end
-- ==== Proof.KernelHost.lean ====
/-
  The kernel's host stretches, each as one function of the buffers it reads.

  Between two grid launches the kernel's @main runs a straight line of host operations. Whatever the buffers hold when
  the line starts, the line leaves in its last result the value of its operations composed over the buffers it reads,
  and it leaves untouched every buffer that none of its operations writes. The lines between the update launches
  compute, from the current message array and the three index tables, the per-bond difference of messages; the line
  before the read-out launch computes the atoms' input and lays the bias as one row; the line after it pools the atoms'
  hidden rows per molecule. These are operation for operation the reference's sparse steps, so each line's result is
  the reference's function of the same buffers.
-/
import proofs.«118969_j9337258902201_1_alg».proof.Proof.Gen.KernelIdeal.Launch
import proofs.«118969_j9337258902201_1_alg».proof.Proof.RefGlue
import Idealize.ShloMosaic.Lib.StableHlo.Run

noncomputable section

namespace Cert.KernelIdeal.HostValue

open Cert.KernelIdeal Cert.KernelIdeal.Gen
open Idealize.ShloMosaic Idealize.ShloMosaic.TcCoe Idealize.SL.Sem Idealize.ShloMosaic.StableHlo

/-- A buffer that no operation of a line writes holds after the line what it held before it. -/
macro "untouched " ops:ident : tactic => `(tactic| (
  refine StableHlo.after_of_forall_not_mem _ _ (List.forall_iff_forall_mem.mp ?_)
  simp only [$ops:ident, List.Forall, StableHlo.nullary_writes, StableHlo.unary_writes, StableHlo.binary_writes,
    StableHlo.ternary_writes, StableHlo.quaternary_writes, StableHlo.reshape_writes, StableHlo.binaryIndexed_writes, Finset.mem_singleton]
  repeat' apply And.intro
  all_goals exact StableHlo.devRef_ne_of_ne (by decide)))

variable {F : FTy → Type} [FloatOps F] (W : Valuation τ sig (Elt F))

set_option maxHeartbeats 1000000 in
/-- The line before update 1: the per-bond difference of the current messages. -/
theorem diff_line1 :
    after hostOps1 W (Proc.devRef .tc main_v23)
      = Cert.ReferenceIdeal.Glue.diff (F := F) (W (Proc.devRef .tc main_v0_1)) (W (Proc.devRef .tc main_arg6)) (W (Proc.devRef .tc main_arg7)) (W (Proc.devRef .tc main_arg8)) := by
  after_results_simp
  rfl

set_option maxHeartbeats 1000000 in
/-- The line before update 2: the per-bond difference of the current messages. -/
theorem diff_line2 :
    after hostOps2 W (Proc.devRef .tc main_v47)
      = Cert.ReferenceIdeal.Glue.diff (F := F) (W (Proc.devRef .tc main_v24)) (W (Proc.devRef .tc main_arg6)) (W (Proc.devRef .tc main_arg7)) (W (Proc.devRef .tc main_arg8)) := by
  after_results_simp
  rfl

set_option maxHeartbeats 1000000 in
/-- The line before update 3: the per-bond difference of the current messages. -/
theorem diff_line3 :
    after hostOps3 W (Proc.devRef .tc main_v71)
      = Cert.ReferenceIdeal.Glue.diff (F := F) (W (Proc.devRef .tc main_v48)) (W (Proc.devRef .tc main_arg6)) (W (Proc.devRef .tc main_arg7)) (W (Proc.devRef .tc main_arg8)) := by
  after_results_simp
  rfl

set_option maxHeartbeats 1000000 in
/-- The line before update 4: the per-bond difference of the current messages. -/
theorem diff_line4 :
    after hostOps4 W (Proc.devRef .tc main_v95)
      = Cert.ReferenceIdeal.Glue.diff (F := F) (W (Proc.devRef .tc main_v72)) (W (Proc.devRef .tc main_arg6)) (W (Proc.devRef .tc main_arg7)) (W (Proc.devRef .tc main_arg8)) := by
  after_results_simp
  rfl

/-- The line before the read-out: the atoms' input, the atom features beside the per-atom sums of the last messages. -/
theorem atomInput_line :
    after hostOps5 W (Proc.devRef .tc main_v105)
      = Cert.ReferenceIdeal.Glue.atomInput (F := F) (W (Proc.devRef .tc main_arg0))
          (Cert.ReferenceIdeal.Glue.atomSum (F := F) (W (Proc.devRef .tc main_v96)) (W (Proc.devRef .tc main_arg6))) := by
  after_results
  rfl

/-- The same line lays the bias vector as one row. -/
theorem biasRow_line :
    after hostOps5 W (Proc.devRef .tc main_v106) = shapeCast S1x512 (W (Proc.devRef .tc main_arg5)) shapeCasts_S512_S1x512 := by
  after_results
  rfl

/-- The line after the read-out: the pooling of the atoms' hidden rows per molecule. -/
theorem pool_line :
    after hostOps6 W (Proc.devRef .tc main_v119)
      = Cert.ReferenceIdeal.Glue.pool (F := F) (W (Proc.devRef .tc main_v107)) (W (Proc.devRef .tc main_arg9)) := by
  after_results
  rfl

/-! ## What the lines leave untouched -/

theorem line1_keeps_main_v0_0 : after hostOps1 W (Proc.devRef .tc main_v0_0) = W (Proc.devRef .tc main_v0_0) := by untouched hostOps1
theorem line1_keeps_main_arg0 : after hostOps1 W (Proc.devRef .tc main_arg0) = W (Proc.devRef .tc main_arg0) := by untouched hostOps1
theorem line1_keeps_main_arg3 : after hostOps1 W (Proc.devRef .tc main_arg3) = W (Proc.devRef .tc main_arg3) := by untouched hostOps1
theorem line1_keeps_main_arg4 : after hostOps1 W (Proc.devRef .tc main_arg4) = W (Proc.devRef .tc main_arg4) := by untouched hostOps1
theorem line1_keeps_main_arg5 : after hostOps1 W (Proc.devRef .tc main_arg5) = W (Proc.devRef .tc main_arg5) := by untouched hostOps1
theorem line1_keeps_main_arg6 : after hostOps1 W (Proc.devRef .tc main_arg6) = W (Proc.devRef .tc main_arg6) := by untouched hostOps1
theorem line1_keeps_main_arg7 : after hostOps1 W (Proc.devRef .tc main_arg7) = W (Proc.devRef .tc main_arg7) := by untouched hostOps1
theorem line1_keeps_main_arg8 : after hostOps1 W (Proc.devRef .tc main_arg8) = W (Proc.devRef .tc main_arg8) := by untouched hostOps1
theorem line1_keeps_main_arg9 : after hostOps1 W (Proc.devRef .tc main_arg9) = W (Proc.devRef .tc main_arg9) := by untouched hostOps1

theorem line2_keeps_main_v0_0 : after hostOps2 W (Proc.devRef .tc main_v0_0) = W (Proc.devRef .tc main_v0_0) := by untouched hostOps2
theorem line2_keeps_main_arg0 : after hostOps2 W (Proc.devRef .tc main_arg0) = W (Proc.devRef .tc main_arg0) := by untouched hostOps2
theorem line2_keeps_main_arg3 : after hostOps2 W (Proc.devRef .tc main_arg3) = W (Proc.devRef .tc main_arg3) := by untouched hostOps2
theorem line2_keeps_main_arg4 : after hostOps2 W (Proc.devRef .tc main_arg4) = W (Proc.devRef .tc main_arg4) := by untouched hostOps2
theorem line2_keeps_main_arg5 : after hostOps2 W (Proc.devRef .tc main_arg5) = W (Proc.devRef .tc main_arg5) := by untouched hostOps2
theorem line2_keeps_main_arg6 : after hostOps2 W (Proc.devRef .tc main_arg6) = W (Proc.devRef .tc main_arg6) := by untouched hostOps2
theorem line2_keeps_main_arg7 : after hostOps2 W (Proc.devRef .tc main_arg7) = W (Proc.devRef .tc main_arg7) := by untouched hostOps2
theorem line2_keeps_main_arg8 : after hostOps2 W (Proc.devRef .tc main_arg8) = W (Proc.devRef .tc main_arg8) := by untouched hostOps2
theorem line2_keeps_main_arg9 : after hostOps2 W (Proc.devRef .tc main_arg9) = W (Proc.devRef .tc main_arg9) := by untouched hostOps2

theorem line3_keeps_main_v0_0 : after hostOps3 W (Proc.devRef .tc main_v0_0) = W (Proc.devRef .tc main_v0_0) := by untouched hostOps3
theorem line3_keeps_main_arg0 : after hostOps3 W (Proc.devRef .tc main_arg0) = W (Proc.devRef .tc main_arg0) := by untouched hostOps3
theorem line3_keeps_main_arg3 : after hostOps3 W (Proc.devRef .tc main_arg3) = W (Proc.devRef .tc main_arg3) := by untouched hostOps3
theorem line3_keeps_main_arg4 : after hostOps3 W (Proc.devRef .tc main_arg4) = W (Proc.devRef .tc main_arg4) := by untouched hostOps3
theorem line3_keeps_main_arg5 : after hostOps3 W (Proc.devRef .tc main_arg5) = W (Proc.devRef .tc main_arg5) := by untouched hostOps3
theorem line3_keeps_main_arg6 : after hostOps3 W (Proc.devRef .tc main_arg6) = W (Proc.devRef .tc main_arg6) := by untouched hostOps3
theorem line3_keeps_main_arg7 : after hostOps3 W (Proc.devRef .tc main_arg7) = W (Proc.devRef .tc main_arg7) := by untouched hostOps3
theorem line3_keeps_main_arg8 : after hostOps3 W (Proc.devRef .tc main_arg8) = W (Proc.devRef .tc main_arg8) := by untouched hostOps3
theorem line3_keeps_main_arg9 : after hostOps3 W (Proc.devRef .tc main_arg9) = W (Proc.devRef .tc main_arg9) := by untouched hostOps3

theorem line4_keeps_main_v0_0 : after hostOps4 W (Proc.devRef .tc main_v0_0) = W (Proc.devRef .tc main_v0_0) := by untouched hostOps4
theorem line4_keeps_main_arg0 : after hostOps4 W (Proc.devRef .tc main_arg0) = W (Proc.devRef .tc main_arg0) := by untouched hostOps4
theorem line4_keeps_main_arg3 : after hostOps4 W (Proc.devRef .tc main_arg3) = W (Proc.devRef .tc main_arg3) := by untouched hostOps4
theorem line4_keeps_main_arg4 : after hostOps4 W (Proc.devRef .tc main_arg4) = W (Proc.devRef .tc main_arg4) := by untouched hostOps4
theorem line4_keeps_main_arg5 : after hostOps4 W (Proc.devRef .tc main_arg5) = W (Proc.devRef .tc main_arg5) := by untouched hostOps4
theorem line4_keeps_main_arg6 : after hostOps4 W (Proc.devRef .tc main_arg6) = W (Proc.devRef .tc main_arg6) := by untouched hostOps4
theorem line4_keeps_main_arg7 : after hostOps4 W (Proc.devRef .tc main_arg7) = W (Proc.devRef .tc main_arg7) := by untouched hostOps4
theorem line4_keeps_main_arg8 : after hostOps4 W (Proc.devRef .tc main_arg8) = W (Proc.devRef .tc main_arg8) := by untouched hostOps4
theorem line4_keeps_main_arg9 : after hostOps4 W (Proc.devRef .tc main_arg9) = W (Proc.devRef .tc main_arg9) := by untouched hostOps4

theorem line5_keeps_main_arg4 : after hostOps5 W (Proc.devRef .tc main_arg4) = W (Proc.devRef .tc main_arg4) := by untouched hostOps5
theorem line5_keeps_main_arg9 : after hostOps5 W (Proc.devRef .tc main_arg9) = W (Proc.devRef .tc main_arg9) := by untouched hostOps5

end Cert.KernelIdeal.HostValue

end
-- ==== Proof.KernelArgs.lean ====
/-
  The arguments through the run.

  No launch and no host line of the kernel's @main writes an argument buffer, so at every boundary between two
  segments the argument buffers that later segments read — the atom features, the two later weights, the bias and
  the four index tables — still hold what they held at the launch.
-/
import proofs.«118969_j9337258902201_1_alg».proof.Proof.Gen.KernelIdeal.Frame
import proofs.«118969_j9337258902201_1_alg».proof.Proof.KernelHost

noncomputable section

namespace Cert.KernelIdeal.ArgsKept

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The argument buffers read after the first launch hold their launch contents in the valuation `W` of core `c`. -/
structure At (W : Valuation τ sig (Elt F)) (c : Dev nD) : Prop where
  a0 : W (Proc.devRef .tc main_arg0) = m ((c : Thread nD τ).loc main_arg0)
  a3 : W (Proc.devRef .tc main_arg3) = m ((c : Thread nD τ).loc main_arg3)
  a4 : W (Proc.devRef .tc main_arg4) = m ((c : Thread nD τ).loc main_arg4)
  a5 : W (Proc.devRef .tc main_arg5) = m ((c : Thread nD τ).loc main_arg5)
  a6 : W (Proc.devRef .tc main_arg6) = m ((c : Thread nD τ).loc main_arg6)
  a7 : W (Proc.devRef .tc main_arg7) = m ((c : Thread nD τ).loc main_arg7)
  a8 : W (Proc.devRef .tc main_arg8) = m ((c : Thread nD τ).loc main_arg8)
  a9 : W (Proc.devRef .tc main_arg9) = m ((c : Thread nD τ).loc main_arg9)

theorem at0 (c : Dev nD) : At m (W0 m ρ c) c := ⟨rfl, rfl, rfl, rfl, rfl, rfl, rfl, rfl⟩

/-- A launch writes none of them. -/
theorem at1 (c : Dev nD) : At m (W1 m ρ c) c :=
  have h := at0 m ρ c
  ⟨(W1_of_ne m ρ c main_arg0 (by decide)).trans h.a0,
   (W1_of_ne m ρ c main_arg3 (by decide)).trans h.a3,
   (W1_of_ne m ρ c main_arg4 (by decide)).trans h.a4,
   (W1_of_ne m ρ c main_arg5 (by decide)).trans h.a5,
   (W1_of_ne m ρ c main_arg6 (by decide)).trans h.a6,
   (W1_of_ne m ρ c main_arg7 (by decide)).trans h.a7,
   (W1_of_ne m ρ c main_arg8 (by decide)).trans h.a8,
   (W1_of_ne m ρ c main_arg9 (by decide)).trans h.a9⟩

/-- Nor does a host line. -/
theorem at2 (c : Dev nD) : At m (W2 m ρ c) c :=
  have h := at1 m ρ c
  ⟨(HostValue.line1_keeps_main_arg0 (W1 m ρ c)).trans h.a0,
   (HostValue.line1_keeps_main_arg3 (W1 m ρ c)).trans h.a3,
   (HostValue.line1_keeps_main_arg4 (W1 m ρ c)).trans h.a4,
   (HostValue.line1_keeps_main_arg5 (W1 m ρ c)).trans h.a5,
   (HostValue.line1_keeps_main_arg6 (W1 m ρ c)).trans h.a6,
   (HostValue.line1_keeps_main_arg7 (W1 m ρ c)).trans h.a7,
   (HostValue.line1_keeps_main_arg8 (W1 m ρ c)).trans h.a8,
   (HostValue.line1_keeps_main_arg9 (W1 m ρ c)).trans h.a9⟩

/-- A launch writes none of them (the weight is one of its input windows: its array ends as it was found). -/
theorem at3 (c : Dev nD) : At m (W3 m ρ c) c :=
  have h := at2 m ρ c
  ⟨(W3_of_ne m ρ c main_arg0 (by decide)).trans h.a0,
   ((W3_arr m ρ c 2).trans (((dat1 (V2 m ρ) c).arrAt_in 2 rfl _).trans (A_eq1 (V2 m ρ) c 2))).trans h.a3,
   (W3_of_ne m ρ c main_arg4 (by decide)).trans h.a4,
   (W3_of_ne m ρ c main_arg5 (by decide)).trans h.a5,
   (W3_of_ne m ρ c main_arg6 (by decide)).trans h.a6,
   (W3_of_ne m ρ c main_arg7 (by decide)).trans h.a7,
   (W3_of_ne m ρ c main_arg8 (by decide)).trans h.a8,
   (W3_of_ne m ρ c main_arg9 (by decide)).trans h.a9⟩

/-- Nor does a host line. -/
theorem at4 (c : Dev nD) : At m (W4 m ρ c) c :=
  have h := at3 m ρ c
  ⟨(HostValue.line2_keeps_main_arg0 (W3 m ρ c)).trans h.a0,
   (HostValue.line2_keeps_main_arg3 (W3 m ρ c)).trans h.a3,
   (HostValue.line2_keeps_main_arg4 (W3 m ρ c)).trans h.a4,
   (HostValue.line2_keeps_main_arg5 (W3 m ρ c)).trans h.a5,
   (HostValue.line2_keeps_main_arg6 (W3 m ρ c)).trans h.a6,
   (HostValue.line2_keeps_main_arg7 (W3 m ρ c)).trans h.a7,
   (HostValue.line2_keeps_main_arg8 (W3 m ρ c)).trans h.a8,
   (HostValue.line2_keeps_main_arg9 (W3 m ρ c)).trans h.a9⟩

/-- A launch writes none of them. -/
theorem at5 (c : Dev nD) : At m (W5 m ρ c) c :=
  have h := at4 m ρ c
  ⟨(W5_of_ne m ρ c main_arg0 (by decide)).trans h.a0,
   ((W5_arr m ρ c 2).trans (((dat2 (V4 m ρ) c).arrAt_in 2 rfl _).trans (A_eq2 (V4 m ρ) c 2))).trans h.a3,
   (W5_of_ne m ρ c main_arg4 (by decide)).trans h.a4,
   (W5_of_ne m ρ c main_arg5 (by decide)).trans h.a5,
   (W5_of_ne m ρ c main_arg6 (by decide)).trans h.a6,
   (W5_of_ne m ρ c main_arg7 (by decide)).trans h.a7,
   (W5_of_ne m ρ c main_arg8 (by decide)).trans h.a8,
   (W5_of_ne m ρ c main_arg9 (by decide)).trans h.a9⟩

/-- Nor does a host line. -/
theorem at6 (c : Dev nD) : At m (W6 m ρ c) c :=
  have h := at5 m ρ c
  ⟨(HostValue.line3_keeps_main_arg0 (W5 m ρ c)).trans h.a0,
   (HostValue.line3_keeps_main_arg3 (W5 m ρ c)).trans h.a3,
   (HostValue.line3_keeps_main_arg4 (W5 m ρ c)).trans h.a4,
   (HostValue.line3_keeps_main_arg5 (W5 m ρ c)).trans h.a5,
   (HostValue.line3_keeps_main_arg6 (W5 m ρ c)).trans h.a6,
   (HostValue.line3_keeps_main_arg7 (W5 m ρ c)).trans h.a7,
   (HostValue.line3_keeps_main_arg8 (W5 m ρ c)).trans h.a8,
   (HostValue.line3_keeps_main_arg9 (W5 m ρ c)).trans h.a9⟩

/-- A launch writes none of them. -/
theorem at7 (c : Dev nD) : At m (W7 m ρ c) c :=
  have h := at6 m ρ c
  ⟨(W7_of_ne m ρ c main_arg0 (by decide)).trans h.a0,
   ((W7_arr m ρ c 2).trans (((dat3 (V6 m ρ) c).arrAt_in 2 rfl _).trans (A_eq3 (V6 m ρ) c 2))).trans h.a3,
   (W7_of_ne m ρ c main_arg4 (by decide)).trans h.a4,
   (W7_of_ne m ρ c main_arg5 (by decide)).trans h.a5,
   (W7_of_ne m ρ c main_arg6 (by decide)).trans h.a6,
   (W7_of_ne m ρ c main_arg7 (by decide)).trans h.a7,
   (W7_of_ne m ρ c main_arg8 (by decide)).trans h.a8,
   (W7_of_ne m ρ c main_arg9 (by decide)).trans h.a9⟩

/-- Nor does a host line. -/
theorem at8 (c : Dev nD) : At m (W8 m ρ c) c :=
  have h := at7 m ρ c
  ⟨(HostValue.line4_keeps_main_arg0 (W7 m ρ c)).trans h.a0,
   (HostValue.line4_keeps_main_arg3 (W7 m ρ c)).trans h.a3,
   (HostValue.line4_keeps_main_arg4 (W7 m ρ c)).trans h.a4,
   (HostValue.line4_keeps_main_arg5 (W7 m ρ c)).trans h.a5,
   (HostValue.line4_keeps_main_arg6 (W7 m ρ c)).trans h.a6,
   (HostValue.line4_keeps_main_arg7 (W7 m ρ c)).trans h.a7,
   (HostValue.line4_keeps_main_arg8 (W7 m ρ c)).trans h.a8,
   (HostValue.line4_keeps_main_arg9 (W7 m ρ c)).trans h.a9⟩

/-- A launch writes none of them. -/
theorem at9 (c : Dev nD) : At m (W9 m ρ c) c :=
  have h := at8 m ρ c
  ⟨(W9_of_ne m ρ c main_arg0 (by decide)).trans h.a0,
   ((W9_arr m ρ c 2).trans (((dat4 (V8 m ρ) c).arrAt_in 2 rfl _).trans (A_eq4 (V8 m ρ) c 2))).trans h.a3,
   (W9_of_ne m ρ c main_arg4 (by decide)).trans h.a4,
   (W9_of_ne m ρ c main_arg5 (by decide)).trans h.a5,
   (W9_of_ne m ρ c main_arg6 (by decide)).trans h.a6,
   (W9_of_ne m ρ c main_arg7 (by decide)).trans h.a7,
   (W9_of_ne m ρ c main_arg8 (by decide)).trans h.a8,
   (W9_of_ne m ρ c main_arg9 (by decide)).trans h.a9⟩

/-- The line before the read-out keeps the read-out weight and the molecule table. -/
theorem at10_a4 (c : Dev nD) : W10 m ρ c (Proc.devRef .tc main_arg4) = m ((c : Thread nD τ).loc main_arg4) :=
  (HostValue.line5_keeps_main_arg4 (W9 m ρ c)).trans (at9 m ρ c).a4
theorem at10_a9 (c : Dev nD) : W10 m ρ c (Proc.devRef .tc main_arg9) = m ((c : Thread nD τ).loc main_arg9) :=
  (HostValue.line5_keeps_main_arg9 (W9 m ρ c)).trans (at9 m ρ c).a9
/-- The read-out launch keeps the molecule table. -/
theorem at11_a9 (c : Dev nD) : W11 m ρ c (Proc.devRef .tc main_arg9) = m ((c : Thread nD τ).loc main_arg9) :=
  (W11_of_ne m ρ c main_arg9 (by decide)).trans (at10_a9 m ρ c)

end Cert.KernelIdeal.ArgsKept

end
-- ==== Proof.Spec.lean ====
/-
  The arithmetic of one layer of a bond-message network, entry by entry, on the extended reals.

  Every dense step of the network is "rows against rows": for `x : [M, K]` and a weight `w : [N, K]` the entry
  `(i, j)` of `x · wᵀ` is the sum over `k` of `x(i, k) · w(j, k)`.  The three dense steps are
    * the input step        `inp = f_bonds · W_iᵀ`, and the first message `max(inp, 0)`;
    * the update step       `max(inp + msgdiff · W_hᵀ, 0)`;
    * the read-out step     `max(a_input · W_oᵀ + b_o, 0)`, the bias held as one row `[1, N]`.
  The zero they are clamped at is kept as the float word it is printed as; it is never evaluated.
-/
import Idealize.ShloMosaic.PureOps.Ideal.Laws
import Idealize.ShloMosaic.Lib.ValueIdx
open scoped BigOperators
noncomputable section
namespace Cert.MPN
open Idealize.ShloMosaic Idealize.ShloMosaic.ValueIdx

/-- Row `i` of `x` against row `j` of `w`: the entry `(i, j)` of `x · wᵀ`. -/
def dotT {M K N : Nat} (x : FVec Ideal ⟨2, ![M, K]⟩ .f32) (w : FVec Ideal ⟨2, ![N, K]⟩ .f32) (i : Fin M) (j : Fin N) : EReal :=
  ∑ k : Fin K, x (ix2 i k) * w (ix2 j k)

/-- The zero word, read as an extended real. -/
abbrev zeroW : EReal := Ideal.ofBits .f32 0x00000000#32

/-- The input step at `(i, j)`. -/
def inpAt {M K N : Nat} (x : FVec Ideal ⟨2, ![M, K]⟩ .f32) (w : FVec Ideal ⟨2, ![N, K]⟩ .f32) (i : Fin M) (j : Fin N) : EReal :=
  dotT x w i j

/-- The first message at `(i, j)`: the input step clamped at zero. -/
def msg0At {M K N : Nat} (x : FVec Ideal ⟨2, ![M, K]⟩ .f32) (w : FVec Ideal ⟨2, ![N, K]⟩ .f32) (i : Fin M) (j : Fin N) : EReal :=
  max (dotT x w i j) zeroW

/-- The update step at `(i, j)`: the kept input plus the difference of messages against the weight, clamped at zero. -/
def updAt {M K N : Nat} (md : FVec Ideal ⟨2, ![M, K]⟩ .f32) (inp : FVec Ideal ⟨2, ![M, N]⟩ .f32) (w : FVec Ideal ⟨2, ![N, K]⟩ .f32)
    (i : Fin M) (j : Fin N) : EReal :=
  max (inp (ix2 i j) + dotT md w i j) zeroW

/-- The read-out step at `(i, j)`: the atom's input against the weight plus the bias row's entry `j`, clamped at zero. -/
def outAt {M K N : Nat} (a : FVec Ideal ⟨2, ![M, K]⟩ .f32) (w : FVec Ideal ⟨2, ![N, K]⟩ .f32) (b : FVec Ideal ⟨2, ![1, N]⟩ .f32)
    (i : Fin M) (j : Fin N) : EReal :=
  max (dotT a w i j + b (ix2 0 j)) zeroW

/-- Two arrays of rank 2 that agree at every pair of coordinates are equal. -/
theorem ext2 {α : Type} {a b : Nat} {f g : (⟨2, ![a, b]⟩ : Shape).Idx → α} (h : ∀ (p : Fin a) (q : Fin b), f (ix2 p q) = g (ix2 p q)) : f = g := by
  funext j; rw [eq_ix2 j]; exact h _ _

end Cert.MPN
-- ==== Proof.RefDense.lean ====
/-
  The reference's dense steps, entry by entry.

  Each dense step of the reference is a transpose of the weight, a contraction of axis 1 of the left operand with
  axis 0 of the transposed weight, and then pointwise operations. At `(p, q)` the contraction is the sum over `k` of
  the left operand at `(p, k)` times the transposed weight at `(k, q)`, which is the weight at `(q, k)`: row `p`
  against row `q`. The clamp is a maximum with the zero word broadcast to the whole array, and the bias of the
  read-out step is the vector broadcast to one row and then to every row, whose entry at `(p, q)` is the row's `(0, q)`.
-/
import proofs.«118969_j9337258902201_1_alg».proof.Proof.Gen.ReferenceIdeal.Read
import proofs.«118969_j9337258902201_1_alg».proof.Proof.Spec

open scoped BigOperators

noncomputable section

namespace Cert.ReferenceIdeal.Dense

open Cert.ReferenceIdeal Cert.ReferenceIdeal.Read Idealize.ShloMosaic Idealize.ShloMosaic.ValueIdx Cert.MPN

/-- The input step at `(p, q)`: row `p` of the bond features against row `q` of `W_i`. -/
theorem inp_apply (x1 : (⟨S120000x147, .f32⟩ : BufTy).Contents (Elt Ideal)) (x2 : (⟨S512x147, .f32⟩ : BufTy).Contents (Elt Ideal)) (p : Fin 120000) (q : Fin 512) :
    val_main_v1 (F := Ideal) x1 x2 (ix2 p q) = inpAt (M := 120000) (K := 147) (N := 512) x1 x2 p q := by
  rw [val_main_v1_apply]
  unfold inpAt dotT
  refine Finset.sum_congr rfl fun k _ => ?_
  rw [val_main_v0_apply]
  have el : lidx_main_v1 (ix2 p q) k = ix2 p k := funext fun a => Fin.ext (by match a with | ⟨0, _⟩ => rfl | ⟨1, _⟩ => rfl)
  have er : idx_main_v0 (ridx_main_v1 (ix2 p q) k) = ix2 q k := funext fun a => Fin.ext (by match a with | ⟨0, _⟩ => rfl | ⟨1, _⟩ => rfl)
  rw [el, er]

/-- The first message at `(p, q)`: the input step clamped at zero. -/
theorem msg0_apply (x1 : (⟨S120000x147, .f32⟩ : BufTy).Contents (Elt Ideal)) (x2 : (⟨S512x147, .f32⟩ : BufTy).Contents (Elt Ideal)) (p : Fin 120000) (q : Fin 512) :
    val_main_v2 (F := Ideal) x1 x2 (ix2 p q) = msg0At (M := 120000) (K := 147) (N := 512) x1 x2 p q := by
  rw [val_main_v2_apply, val_main_call0_v0_apply, val_main_call0_cst_apply, inp_apply]
  rfl

/-- Update 1: the message after it, at `(p, q)`, is the update step of the difference of messages, the kept input and `W_h`. -/
theorem msg1_apply (x1 : (⟨S120000x147, .f32⟩ : BufTy).Contents (Elt Ideal)) (x2 : (⟨S512x147, .f32⟩ : BufTy).Contents (Elt Ideal)) (x3 : (⟨S512x512, .f32⟩ : BufTy).Contents (Elt Ideal)) (x6 : (⟨S60000x6, .i32⟩ : BufTy).Contents (Elt Ideal)) (x7 x8 : (⟨S120000, .i32⟩ : BufTy).Contents (Elt Ideal)) (p : Fin 120000) (q : Fin 512) :
    val_main_v29 (F := Ideal) x1 x2 x3 x6 x7 x8 (ix2 p q)
      = updAt (M := 120000) (K := 512) (N := 512) (val_main_v25 (F := Ideal) x1 x2 x6 x7 x8) (val_main_v1 (F := Ideal) x1 x2) x3 p q := by
  have hs : ∑ k : Fin 512, val_main_v25 (F := Ideal) x1 x2 x6 x7 x8 (lidx_main_v27 (ix2 p q) k) * val_main_v26 (F := Ideal) x3 (ridx_main_v27 (ix2 p q) k)
      = dotT (M := 120000) (K := 512) (N := 512) (val_main_v25 (F := Ideal) x1 x2 x6 x7 x8) x3 p q := by
    unfold dotT
    refine Finset.sum_congr rfl fun k _ => ?_
    rw [val_main_v26_apply]
    have el : lidx_main_v27 (ix2 p q) k = ix2 p k := funext fun a => Fin.ext (by match a with | ⟨0, _⟩ => rfl | ⟨1, _⟩ => rfl)
    have er : idx_main_v26 (ridx_main_v27 (ix2 p q) k) = ix2 q k := funext fun a => Fin.ext (by match a with | ⟨0, _⟩ => rfl | ⟨1, _⟩ => rfl)
    rw [el, er]
  rw [val_main_v29_apply, val_main_v28_apply, val_main_call1_v0_apply, val_main_call1_cst_apply, val_main_v27_apply, hs]
  rfl

/-- Update 2: the message after it, at `(p, q)`, is the update step of the difference of messages, the kept input and `W_h`. -/
theorem msg2_apply (x1 : (⟨S120000x147, .f32⟩ : BufTy).Contents (Elt Ideal)) (x2 : (⟨S512x147, .f32⟩ : BufTy).Contents (Elt Ideal)) (x3 : (⟨S512x512, .f32⟩ : BufTy).Contents (Elt Ideal)) (x6 : (⟨S60000x6, .i32⟩ : BufTy).Contents (Elt Ideal)) (x7 x8 : (⟨S120000, .i32⟩ : BufTy).Contents (Elt Ideal)) (p : Fin 120000) (q : Fin 512) :
    val_main_v56 (F := Ideal) x1 x2 x3 x6 x7 x8 (ix2 p q)
      = updAt (M := 120000) (K := 512) (N := 512) (val_main_v52 (F := Ideal) x1 x2 x3 x6 x7 x8) (val_main_v1 (F := Ideal) x1 x2) x3 p q := by
  have hs : ∑ k : Fin 512, val_main_v52 (F := Ideal) x1 x2 x3 x6 x7 x8 (lidx_main_v54 (ix2 p q) k) * val_main_v53 (F := Ideal) x3 (ridx_main_v54 (ix2 p q) k)
      = dotT (M := 120000) (K := 512) (N := 512) (val_main_v52 (F := Ideal) x1 x2 x3 x6 x7 x8) x3 p q := by
    unfold dotT
    refine Finset.sum_congr rfl fun k _ => ?_
    rw [val_main_v53_apply]
    have el : lidx_main_v54 (ix2 p q) k = ix2 p k := funext fun a => Fin.ext (by match a with | ⟨0, _⟩ => rfl | ⟨1, _⟩ => rfl)
    have er : idx_main_v53 (ridx_main_v54 (ix2 p q) k) = ix2 q k := funext fun a => Fin.ext (by match a with | ⟨0, _⟩ => rfl | ⟨1, _⟩ => rfl)
    rw [el, er]
  rw [val_main_v56_apply, val_main_v55_apply, val_main_call2_v0_apply, val_main_call2_cst_apply, val_main_v54_apply, hs]
  rfl

/-- Update 3: the message after it, at `(p, q)`, is the update step of the difference of messages, the kept input and `W_h`. -/
theorem msg3_apply (x1 : (⟨S120000x147, .f32⟩ : BufTy).Contents (Elt Ideal)) (x2 : (⟨S512x147, .f32⟩ : BufTy).Contents (Elt Ideal)) (x3 : (⟨S512x512, .f32⟩ : BufTy).Contents (Elt Ideal)) (x6 : (⟨S60000x6, .i32⟩ : BufTy).Contents (Elt Ideal)) (x7 x8 : (⟨S120000, .i32⟩ : BufTy).Contents (Elt Ideal)) (p : Fin 120000) (q : Fin 512) :
    val_main_v83 (F := Ideal) x1 x2 x3 x6 x7 x8 (ix2 p q)
      = updAt (M := 120000) (K := 512) (N := 512) (val_main_v79 (F := Ideal) x1 x2 x3 x6 x7 x8) (val_main_v1 (F := Ideal) x1 x2) x3 p q := by
  have hs : ∑ k : Fin 512, val_main_v79 (F := Ideal) x1 x2 x3 x6 x7 x8 (lidx_main_v81 (ix2 p q) k) * val_main_v80 (F := Ideal) x3 (ridx_main_v81 (ix2 p q) k)
      = dotT (M := 120000) (K := 512) (N := 512) (val_main_v79 (F := Ideal) x1 x2 x3 x6 x7 x8) x3 p q := by
    unfold dotT
    refine Finset.sum_congr rfl fun k _ => ?_
    rw [val_main_v80_apply]
    have el : lidx_main_v81 (ix2 p q) k = ix2 p k := funext fun a => Fin.ext (by match a with | ⟨0, _⟩ => rfl | ⟨1, _⟩ => rfl)
    have er : idx_main_v80 (ridx_main_v81 (ix2 p q) k) = ix2 q k := funext fun a => Fin.ext (by match a with | ⟨0, _⟩ => rfl | ⟨1, _⟩ => rfl)
    rw [el, er]
  rw [val_main_v83_apply, val_main_v82_apply, val_main_call3_v0_apply, val_main_call3_cst_apply, val_main_v81_apply, hs]
  rfl

/-- Update 4: the message after it, at `(p, q)`, is the update step of the difference of messages, the kept input and `W_h`. -/
theorem msg4_apply (x1 : (⟨S120000x147, .f32⟩ : BufTy).Contents (Elt Ideal)) (x2 : (⟨S512x147, .f32⟩ : BufTy).Contents (Elt Ideal)) (x3 : (⟨S512x512, .f32⟩ : BufTy).Contents (Elt Ideal)) (x6 : (⟨S60000x6, .i32⟩ : BufTy).Contents (Elt Ideal)) (x7 x8 : (⟨S120000, .i32⟩ : BufTy).Contents (Elt Ideal)) (p : Fin 120000) (q : Fin 512) :
    val_main_v110 (F := Ideal) x1 x2 x3 x6 x7 x8 (ix2 p q)
      = updAt (M := 120000) (K := 512) (N := 512) (val_main_v106 (F := Ideal) x1 x2 x3 x6 x7 x8) (val_main_v1 (F := Ideal) x1 x2) x3 p q := by
  have hs : ∑ k : Fin 512, val_main_v106 (F := Ideal) x1 x2 x3 x6 x7 x8 (lidx_main_v108 (ix2 p q) k) * val_main_v107 (F := Ideal) x3 (ridx_main_v108 (ix2 p q) k)
      = dotT (M := 120000) (K := 512) (N := 512) (val_main_v106 (F := Ideal) x1 x2 x3 x6 x7 x8) x3 p q := by
    unfold dotT
    refine Finset.sum_congr rfl fun k _ => ?_
    rw [val_main_v107_apply]
    have el : lidx_main_v108 (ix2 p q) k = ix2 p k := funext fun a => Fin.ext (by match a with | ⟨0, _⟩ => rfl | ⟨1, _⟩ => rfl)
    have er : idx_main_v107 (ridx_main_v108 (ix2 p q) k) = ix2 q k := funext fun a => Fin.ext (by match a with | ⟨0, _⟩ => rfl | ⟨1, _⟩ => rfl)
    rw [el, er]
  rw [val_main_v110_apply, val_main_v109_apply, val_main_call4_v0_apply, val_main_call4_cst_apply, val_main_v108_apply, hs]
  rfl

/-- The read-out step at `(p, q)`: row `p` of the atoms' input against row `q` of `W_o`, plus the bias row's entry `q`,
    clamped at zero. The bias row is the bias vector broadcast along the second axis. -/
theorem hidden_apply (x0 : (⟨S60000x133, .f32⟩ : BufTy).Contents (Elt Ideal)) (x1 : (⟨S120000x147, .f32⟩ : BufTy).Contents (Elt Ideal)) (x2 : (⟨S512x147, .f32⟩ : BufTy).Contents (Elt Ideal)) (x3 : (⟨S512x512, .f32⟩ : BufTy).Contents (Elt Ideal)) (x4 : (⟨S512x645, .f32⟩ : BufTy).Contents (Elt Ideal)) (x5 : (⟨S512, .f32⟩ : BufTy).Contents (Elt Ideal)) (x6 : (⟨S60000x6, .i32⟩ : BufTy).Contents (Elt Ideal)) (x7 x8 : (⟨S120000, .i32⟩ : BufTy).Contents (Elt Ideal)) (p : Fin 60000) (q : Fin 512) :
    val_main_v125 (F := Ideal) x0 x1 x2 x3 x4 x5 x6 x7 x8 (ix2 p q)
      = outAt (M := 60000) (K := 645) (N := 512) (val_main_v119 (F := Ideal) x0 x1 x2 x3 x6 x7 x8) x4 (val_main_v122 (F := Ideal) x5) p q := by
  have hs : ∑ k : Fin 645, val_main_v119 (F := Ideal) x0 x1 x2 x3 x6 x7 x8 (lidx_main_v121 (ix2 p q) k) * val_main_v120 (F := Ideal) x4 (ridx_main_v121 (ix2 p q) k)
      = dotT (M := 60000) (K := 645) (N := 512) (val_main_v119 (F := Ideal) x0 x1 x2 x3 x6 x7 x8) x4 p q := by
    unfold dotT
    refine Finset.sum_congr rfl fun k _ => ?_
    rw [val_main_v120_apply]
    have el : lidx_main_v121 (ix2 p q) k = ix2 p k := funext fun a => Fin.ext (by match a with | ⟨0, _⟩ => rfl | ⟨1, _⟩ => rfl)
    have er : idx_main_v120 (ridx_main_v121 (ix2 p q) k) = ix2 q k := funext fun a => Fin.ext (by match a with | ⟨0, _⟩ => rfl | ⟨1, _⟩ => rfl)
    rw [el, er]
  have eb : idx_main_v123 (ix2 p q) = ix2 (0 : Fin 1) q := funext fun a => Fin.ext (by match a with | ⟨0, _⟩ => rfl | ⟨1, _⟩ => rfl)
  rw [val_main_v125_apply, val_main_v124_apply, val_main_call5_v0_apply, val_main_call5_cst_apply, val_main_v123_apply, eb, val_main_v121_apply, hs]
  rfl

end Cert.ReferenceIdeal.Dense

end
-- ==== Proof.LibRowVector.lean ====
/-
  A vector laid as a row.

  A vector of length `a` becomes the one row of a `[1, a]` array in two ways: by reading the vector's entries in
  row-major order at the new shape, or by broadcasting it along the second axis. Both arrays have at `(0, i)` the
  vector's entry `i`, so they are the same array.
-/
import Idealize.ShloMosaic.Lib.Pipeline.Value
import Idealize.ShloMosaic.Lib.ValueIdx
import Idealize.ShloMosaic.Lib.ValueLayout

namespace Cert.Lib.RowVector

open Idealize.ShloMosaic Idealize.ShloMosaic.ValueIdx

/-- The reshape of a vector to one row is its broadcast along the second axis. -/
theorem shapeCast_eq_broadcastInDim {α : Type} {a : ℕ} (x : (⟨1, ![a]⟩ : Shape).Idx → α)
    (h : (⟨1, ![a]⟩ : Shape).ShapeCasts ⟨2, ![1, a]⟩)
    (h' : (⟨1, ![a]⟩ : Shape).BroadcastsInDim ⟨2, ![1, a]⟩ ![1]) :
    shapeCast ⟨2, ![1, a]⟩ x h = broadcastInDim ⟨2, ![1, a]⟩ ![1] h' x := by
  funext j
  obtain ⟨u, i, rfl⟩ : ∃ (u : Fin 1) (i : Fin a), j = ix2 u i := ⟨j 0, j 1, eq_ix2 j⟩
  rw [shapeCast_a_1a_apply]
  refine (broadcastInDim_apply ![1] h' x (ix2 u i) (ix1 i) (fun ax => ?_)).symm
  match ax with
  | ⟨0, _⟩ =>
    show i.val = if a = 1 then 0 else i.val
    split
    · have := i.isLt; omega
    · rfl

end Cert.Lib.RowVector
-- ==== Proof.LibMatmul.lean ====
/-
  A plain matrix product and a two-axis transpose, read at an index.

  For `l : [M, K]` and `r : [K, N]` the contraction with dimension numbers "contract axis 1 of the left operand with
  axis 0 of the right one, no batch axis" has at `(i, j)`, at the ideal values, the sum over `k` of `l(i, k) · r(k, j)`:
  for the matrix unit's product into the zero accumulator and for the host's general dot alike. The contraction's own
  index set has one axis of extent `K`; the sum is re-indexed through the bijection with `Fin K`, and the two operand
  indices at `(i, j)` and `k` are `(i, k)` and `(k, j)` coordinate by coordinate.
  The transpose with permutation `[1, 0]` of `x : [A, B]` has at `(b, a)` the element `x(a, b)`.
-/
import Idealize.ShloMosaic.PureOps.Ideal.Laws
import Idealize.ShloMosaic.Lib.ValueIdx
import Idealize.ShloMosaic.Lib.Pipeline.Value
open scoped BigOperators
noncomputable section
namespace Cert.MatOps
open Idealize.ShloMosaic Idealize.ShloMosaic.ValueIdx

section Plain
variable {M K N : Nat}

/-- The contraction index set of the plain product is `Fin K`. -/
abbrev plainContr (M K N : Nat) : (DotDims.plain M K N).contr.Idx ≃ Fin K :=
  contrEquiv1 (DotDims.plain M K N) K rfl rfl

/-- The left operand's index at output `(i, j)` and contraction coordinate `k` is `(i, k)`. -/
theorem plain_lhsIdx (i : Fin M) (j : Fin N) (k : Fin K) :
    (DotDims.plain M K N).lhsIdx (ix2 i j) ((plainContr M K N).symm k) = ix2 i k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 i j) _).trans hk

/-- The right operand's index at output `(i, j)` and contraction coordinate `k` is `(k, j)`. -/
theorem plain_rhsIdx (i : Fin M) (j : Fin N) (k : Fin K) :
    (DotDims.plain M K N).rhsIdx (ix2 i j) ((plainContr M K N).symm k) = ix2 k j := by
  have hk := contrEquiv1_symm_val (DotDims.plain M K N) K rfl rfl k
  funext a
  refine Fin.ext ?_
  match a with
  | ⟨0, _⟩ => exact ((DotDims.plain M K N).rhsIdx_val_of_single rfl (ix2 i j) _).trans hk
  | ⟨1, _⟩ => rfl

/-- The contraction's sum over its own index set is the sum over `k : Fin K` of the products at `(i, k)`, `(k, j)`. -/
theorem plain_sum (l : (⟨2, ![M, K]⟩ : Shape).Idx → EReal) (r : (⟨2, ![K, N]⟩ : Shape).Idx → EReal) (i : Fin M) (j : Fin N) :
    ∑ q : (DotDims.plain M K N).contr.Idx, l ((DotDims.plain M K N).lhsIdx (ix2 i j) q) * r ((DotDims.plain M K N).rhsIdx (ix2 i j) q)
      = ∑ k : Fin K, l (ix2 i k) * r (ix2 k j) := by
  rw [← Equiv.sum_comp (plainContr M K N).symm]
  refine Finset.sum_congr rfl fun k _ => ?_
  rw [plain_lhsIdx, plain_rhsIdx]

end Plain

theorem matmul_plain_zero_apply {M K N : Nat} {φ₁ φ₂ : FTy} (prec : Option ContractPrecision) (l : FVec Ideal ⟨2, ![M, K]⟩ φ₁) (r : FVec Ideal ⟨2, ![K, N]⟩ φ₂) (i : Fin M) (j : Fin N) :
    matmul (F := Ideal) (DotDims.plain M K N) prec l r (constant ⟨2, ![M, N]⟩ .f32 0x00000000#32) (ix2 i j) = ∑ k : Fin K, l (ix2 i k) * r (ix2 k j) := by
  simp only [matmul]
  rw [Ideal.matmul_constant_zero_apply]
  exact plain_sum l r i j

theorem dotGeneral_plain_apply {M K N : Nat} {φ₁ φ₂ : FTy} (prec : Option ContractPrecision) (l : FVec Ideal ⟨2, ![M, K]⟩ φ₁) (r : FVec Ideal ⟨2, ![K, N]⟩ φ₂) (i : Fin M) (j : Fin N) :
    Host.dotGeneral (F := Ideal) (DotDims.plain M K N) prec l r (ix2 i j) = ∑ k : Fin K, l (ix2 i k) * r (ix2 k j) := by
  simp only [Host.dotGeneral]
  rw [Ideal.dotGeneral_apply]
  exact plain_sum l r i j

theorem transpose10_apply {α : Type} {A B : Nat} (x : (⟨2, ![A, B]⟩ : Shape).Idx → α) (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun c => match c with
    | ⟨0, _⟩ => rfl
    | ⟨1, _⟩ => rfl)
end Cert.MatOps
-- ==== Proof.InitPayload.lean ====
/-
  The input step's two stored values, entry by entry, at the ideal values.

  On a block `fb : [1600, 147]` of bond features and the whole input weight `wi : [512, 147]` the first stored value is
  the matrix product of `fb` with the transpose of `wi` into the zero accumulator: at `(p, q)` it is the sum over `k`
  of `fb(p, k) · wi(q, k)`, row `p` of the block against row `q` of the weight. The second stored value is the first
  clamped at zero from below. Narrowing the two operands to the matrix unit's input format is the identity on the
  extended reals, and the transpose only exchanges the two coordinates of the weight.
-/
import proofs.«118969_j9337258902201_1_alg».proof.Proof.Gen.KernelIdeal.Skeleton
import proofs.«118969_j9337258902201_1_alg».proof.Proof.Spec
import proofs.«118969_j9337258902201_1_alg».proof.Proof.LibMatmul

open scoped BigOperators

noncomputable section

namespace Cert.KernelIdeal.Region0

open Idealize.ShloMosaic Idealize.ShloMosaic.ValueIdx Cert.KernelIdeal Cert.KernelIdeal.Gen

/-- The product of a block of bond features with the transposed input weight, at `(p, q)`: row `p` of the block
    against row `q` of the weight. -/
theorem product_apply (fb : Vec Ideal S1600x147 .f32) (wi : Vec Ideal S512x147 .f32) (p : Fin 1600) (q : Fin 512) :
    k0_pay1 (F := Ideal) fb wi (ix2 p q) = Cert.MPN.dotT (fb : FVec Ideal S1600x147 .f32) (wi : FVec Ideal S512x147 .f32) p q := by
  unfold k0_pay1
  refine (Cert.MatOps.matmul_plain_zero_apply (M := 1600) (K := 147) (N := 512) none _ _ p q).trans ?_
  unfold Cert.MPN.dotT
  refine Finset.sum_congr rfl fun k _ => ?_
  refine congrArg (fb (ix2 p k) * ·) ?_
  exact Cert.MatOps.transpose10_apply (A := 512) (B := 147) _ _ k q

/-- The clamped product at `(p, q)`: the larger of that sum and the zero word. -/
theorem clamped_apply (fb : Vec Ideal S1600x147 .f32) (wi : Vec Ideal S512x147 .f32) (p : Fin 1600) (q : Fin 512) :
    k0_pay2 (F := Ideal) fb wi (ix2 p q)
      = max (Cert.MPN.dotT (fb : FVec Ideal S1600x147 .f32) (wi : FVec Ideal S512x147 .f32) p q) Cert.MPN.zeroW := by
  unfold k0_pay2
  exact congrArg (max · Cert.MPN.zeroW) (product_apply fb wi p q)

end Cert.KernelIdeal.Region0

end
-- ==== Proof.InitValue.lean ====
/-
  The input step's two result arrays, entry by entry.

  The step runs over 75 points. At point `t` it reads rows `1600·t … 1600·t + 1599` of the bond features (an array
  `[120000, 147]`) and the whole input weight (`[512, 147]`), and writes rows `1600·t … 1600·t + 1599` of each of its
  two results (`[120000, 512]`): the product of the rows read with the transposed weight, and that product clamped at
  zero. Row `r` of a result is therefore row `r mod 1600` of the block written at point `r / 1600`, the 75 blocks
  cover all 120000 rows, and entry `(r, q)` of the first result is row `r` of the bond features against row `q` of
  the weight — the second result its maximum with zero.
-/
import proofs.«118969_j9337258902201_1_alg».proof.Proof.Gen.KernelIdeal.Frame
import proofs.«118969_j9337258902201_1_alg».proof.Proof.Spec
import proofs.«118969_j9337258902201_1_alg».proof.Proof.InitPayload
import Idealize.ShloMosaic.Lib.Pipeline.Value

open scoped BigOperators

noncomputable section

namespace Cert.KernelIdeal.Region0

open Idealize.ShloMosaic Idealize.ShloMosaic.TcCoe Idealize.SL.Sem Idealize.ShloMosaic.ValueIdx
open Idealize.ShloMosaic.Pipeline (Dat)
open Cert.KernelIdeal Cert.KernelIdeal.Gen

/-! ## The two results as functions of the whole arrays -/

/-- The product of the bond features with the transposed weight, as one array. -/
abbrev inpArr (A1 : FVec Ideal S120000x147 .f32) (A2 : FVec Ideal S512x147 .f32) : S120000x512.Idx → EReal :=
  fun i => Cert.MPN.inpAt A1 A2 (i 0) (i 1)

/-- The clamped product, as one array. -/
abbrev msgArr (A1 : FVec Ideal S120000x147 .f32) (A2 : FVec Ideal S512x147 .f32) : S120000x512.Idx → EReal :=
  fun i => Cert.MPN.msg0At A1 A2 (i 0) (i 1)

/-! ## One block, over variables

A block `fb` that holds rows `1600·n …` of `A1` and a block `wi` that is all of `A2`: the stored values at `y` are the
arrays' entries at any `i` with `i₀ = 1600·n + y₀`, `i₁ = y₁`. -/

theorem product_block (fb : Vec Ideal S1600x147 .f32) (wi : Vec Ideal S512x147 .f32)
    (A1 : FVec Ideal S120000x147 .f32) (A2 : FVec Ideal S512x147 .f32) (n : Nat)
    (hfb : ∀ (p : Fin 1600) (k : Fin 147) (r : Fin 120000), r.val = 1600 * n + p.val → fb (ix2 p k) = A1 (ix2 r k))
    (hwi : wi = A2) (y : S1600x512.Idx) (i : S120000x512.Idx)
    (h0 : (i 0).val = 1600 * n + (y 0).val) (h1 : (i 1).val = (y 1).val) :
    k0_pay1 (F := Ideal) fb wi y = inpArr A1 A2 i := by
  obtain ⟨p, q, rfl⟩ : ∃ (p : Fin 1600) (q : Fin 512), y = ix2 p q := ⟨y 0, y 1, eq_ix2 y⟩
  obtain ⟨r, s, rfl⟩ : ∃ (r : Fin 120000) (s : Fin 512), i = ix2 r s := ⟨i 0, i 1, eq_ix2 i⟩
  obtain rfl : s = q := Fin.ext h1
  refine (product_apply fb wi p s).trans ?_
  show Cert.MPN.dotT fb wi p s = Cert.MPN.dotT A1 A2 r s
  unfold Cert.MPN.dotT
  refine Finset.sum_congr rfl fun k _ => ?_
  rw [hfb p k r h0, hwi]

theorem clamped_block (fb : Vec Ideal S1600x147 .f32) (wi : Vec Ideal S512x147 .f32)
    (A1 : FVec Ideal S120000x147 .f32) (A2 : FVec Ideal S512x147 .f32) (n : Nat)
    (hfb : ∀ (p : Fin 1600) (k : Fin 147) (r : Fin 120000), r.val = 1600 * n + p.val → fb (ix2 p k) = A1 (ix2 r k))
    (hwi : wi = A2) (y : S1600x512.Idx) (i : S120000x512.Idx)
    (h0 : (i 0).val = 1600 * n + (y 0).val) (h1 : (i 1).val = (y 1).val) :
    k0_pay2 (F := Ideal) fb wi y = msgArr A1 A2 i := by
  have h := product_block fb wi A1 A2 n hfb hwi y i h0 h1
  obtain ⟨p, q, rfl⟩ : ∃ (p : Fin 1600) (q : Fin 512), y = ix2 p q := ⟨y 0, y 1, eq_ix2 y⟩
  refine (clamped_apply fb wi p q).trans ?_
  rw [← product_apply fb wi p q, h]
  rfl

/-! ## The windows' blocks at a point -/

variable (V : (c : Dev nD) → (b : Ref sig .tc) → Buf (Elt Ideal) ((c : Thread nD τ).loc b))

theorem hz : (![0, 0] : Fin 2 → Nat) = fun _ => 0 := funext fun a => by fin_cases a <;> rfl

/-- The block indices at point `t`, decided over the 75 points: the bond features and both results move down one block
    of rows per point, the weight stays. -/
theorem idx_facts : ∀ t : Fin cfg0.N,
      win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The bond features' block at point `t` holds rows `1600·t …` of the array. -/
theorem bonds_block (c : Dev nD) (t : Fin cfg0.N) (p : Fin 1600) (k : Fin 147) (r : Fin 120000) (hr : r.val = 1600 * t.val + p.val) :
    (iblk0 (F := Ideal) V c 0 t : Vec Ideal S1600x147 .f32) (ix2 p k) = (V c main_arg1 : FVec Ideal S120000x147 .f32) (ix2 r k) := by
  obtain ⟨e0, e1, -⟩ := idx_facts t
  unfold iblk0
  rw [View.read_apply]
  show (V c main_arg1 : FVec Ideal S120000x147 .f32) (((cfg0.win 0).blk t).view.emb (ix2 p k)) = _
  refine congrArg (V c main_arg1 : FVec Ideal S120000x147 .f32) ?_
  funext a
  apply Fin.ext
  match a with
  | ⟨0, _⟩ => show win0_0.index t (0 : Fin 2) * 1600 + 1 * p.val = r.val; rw [e0, hr]; omega
  | ⟨1, _⟩ => show win0_0.index t (1 : Fin 2) * 147 + 1 * k.val = k.val; rw [e1]; omega

/-- The weight's block at every point is the whole weight. -/
theorem weight_block (c : Dev nD) (t : Fin cfg0.N) :
    (iblk0 (F := Ideal) V c 1 t : Vec Ideal S512x147 .f32) = (V c main_arg2 : FVec Ideal S512x147 .f32) := by
  obtain ⟨-, -, e2, e3, -⟩ := idx_facts t
  funext y
  unfold iblk0
  rw [View.read_apply]
  show (V c main_arg2 : FVec Ideal S512x147 .f32) (((cfg0.win 1).blk t).view.emb y) = _
  refine congrArg (V c main_arg2 : FVec Ideal S512x147 .f32) ?_
  funext a
  apply Fin.ext
  match a with
  | ⟨0, _⟩ => show win0_1.index t (0 : Fin 2) * 512 + 1 * (y 0).val = (y 0).val; rw [e2]; omega
  | ⟨1, _⟩ => show win0_1.index t (1 : Fin 2) * 147 + 1 * (y 1).val = (y 1).val; rw [e3]; omega

/-! ## What each point writes back -/

/-- Point `t` writes back block `t` of the product array. -/
theorem flushed_inp (c : Dev nD) (t : Fin cfg0.N) :
    (dat0 (F := Ideal) V c).flushed 2 t
      = ((cfg0.win 2).blk t).view.read (Elt Ideal) (inpArr (V c main_arg1) (V c main_arg2)) := by
  show (cfg0.win 2).cut (grid0.coords t) ((dat0 (F := Ideal) V c).after 2 t) = _
  rw [after0_2]
  unfold out0_2
  rw [View.canon_unit_zero hz]
  simp only [View.ld_unit_zero (S := S1600x147) hz, View.ld_unit_zero (S := S512x147) hz]
  obtain ⟨-, -, -, -, e4, e5, -⟩ := idx_facts t
  funext j
  refine product_block (iblk0 (F := Ideal) V c 0 t) (iblk0 (F := Ideal) V c 1 t) (V c main_arg1) (V c main_arg2) t.val
    (bonds_block V c t) (weight_block V c t) ((cfg0.win 2).xinj (grid0.coords t) j) (((cfg0.win 2).blk t).view.emb j) ?_ ?_
  · show win0_2.index t (0 : Fin 2) * 1600 + 1 * (j 0).val = 1600 * t.val + (j 0).val; rw [e4]; omega
  · show win0_2.index t (1 : Fin 2) * 512 + 1 * (j 1).val = (j 1).val; rw [e5]; omega

/-- Point `t` writes back block `t` of the clamped array. -/
theorem flushed_msg (c : Dev nD) (t : Fin cfg0.N) :
    (dat0 (F := Ideal) V c).flushed 3 t
      = ((cfg0.win 3).blk t).view.read (Elt Ideal) (msgArr (V c main_arg1) (V c main_arg2)) := by
  show (cfg0.win 3).cut (grid0.coords t) ((dat0 (F := Ideal) V c).after 3 t) = _
  rw [after0_3]
  unfold out0_3
  rw [View.canon_unit_zero hz]
  simp only [View.ld_unit_zero (S := S1600x147) hz, View.ld_unit_zero (S := S512x147) hz]
  obtain ⟨-, -, -, -, -, -, e6, e7⟩ := idx_facts t
  funext j
  refine clamped_block (iblk0 (F := Ideal) V c 0 t) (iblk0 (F := Ideal) V c 1 t) (V c main_arg1) (V c main_arg2) t.val
    (bonds_block V c t) (weight_block V c t) ((cfg0.win 3).xinj (grid0.coords t) j) (((cfg0.win 3).blk t).view.emb j) ?_ ?_
  · show win0_3.index t (0 : Fin 2) * 1600 + 1 * (j 0).val = 1600 * t.val + (j 0).val; rw [e6]; omega
  · show win0_3.index t (1 : Fin 2) * 512 + 1 * (j 1).val = (j 1).val; rw [e7]; omega

/-! ## The blocks cover the arrays -/

/-- An index is in point `t`'s block of the first result iff each coordinate is in the block's range. -/
theorem mem_rows_inp (t : Fin cfg0.N) (i : S120000x512.Idx) :
    i ∈ ((cfg0.win 2).blk t).view.set ↔ ∀ a : Fin 2, win0_2.index t a * S1600x512.size a ≤ (i a).val ∧ (i a).val < win0_2.index t a * S1600x512.size a + S1600x512.size a := by
  show i ∈ ((View.whole main_v0_0).slice (win0_2.rect t)).set ↔ _
  rw [View.set_slice_whole, Rect.mem_set_unit]
  exact Iff.rfl

/-- The same for the second result. -/
theorem mem_rows_msg (t : Fin cfg0.N) (i : S120000x512.Idx) :
    i ∈ ((cfg0.win 3).blk t).view.set ↔ ∀ a : Fin 2, win0_3.index t a * S1600x512.size a ≤ (i a).val ∧ (i a).val < win0_3.index t a * S1600x512.size a + S1600x512.size a := by
  show i ∈ ((View.whole main_v0_1).slice (win0_3.rect t)).set ↔ _
  rw [View.set_slice_whole, Rect.mem_set_unit]
  exact Iff.rfl

/-- The point whose block holds row `r` is `r / 1600`. -/
theorem point_of_row (i : S120000x512.Idx) : ∃ t : Fin cfg0.N, t.val = (i 0).val / 1600 := by
  have hi0 : (i 0).val < 120000 := (i 0).isLt
  have hN : cfg0.N = 75 := N_0
  exact ⟨⟨(i 0).val / 1600, by rw [hN]; omega⟩, rfl⟩

theorem covered_inp (i : S120000x512.Idx) :
    ∃ t : Fin cfg0.N, (cfg0.win 2).flush t = true ∧ i ∈ ((cfg0.win 2).blk t).view.set := by
  have hi0 : (i 0).val < 120000 := (i 0).isLt
  have hi1 : (i 1).val < 512 := (i 1).isLt
  obtain ⟨t, ht⟩ := point_of_row i
  obtain ⟨-, -, -, -, e4, e5, -⟩ := idx_facts t
  refine ⟨t, flush0_2 t, ?_⟩
  rw [mem_rows_inp]
  intro a
  match a with
  | ⟨0, _⟩ => show win0_2.index t (0 : Fin 2) * 1600 ≤ (i 0).val ∧ (i 0).val < win0_2.index t (0 : Fin 2) * 1600 + 1600; rw [e4, ht]; omega
  | ⟨1, _⟩ => show win0_2.index t (1 : Fin 2) * 512 ≤ (i 1).val ∧ (i 1).val < win0_2.index t (1 : Fin 2) * 512 + 512; rw [e5]; omega

theorem covered_msg (i : S120000x512.Idx) :
    ∃ t : Fin cfg0.N, (cfg0.win 3).flush t = true ∧ i ∈ ((cfg0.win 3).blk t).view.set := by
  have hi0 : (i 0).val < 120000 := (i 0).isLt
  have hi1 : (i 1).val < 512 := (i 1).isLt
  obtain ⟨t, ht⟩ := point_of_row i
  obtain ⟨-, -, -, -, -, -, e6, e7⟩ := idx_facts t
  refine ⟨t, flush0_3 t, ?_⟩
  rw [mem_rows_msg]
  intro a
  match a with
  | ⟨0, _⟩ => show win0_3.index t (0 : Fin 2) * 1600 ≤ (i 0).val ∧ (i 0).val < win0_3.index t (0 : Fin 2) * 1600 + 1600; rw [e6, ht]; omega
  | ⟨1, _⟩ => show win0_3.index t (1 : Fin 2) * 512 ≤ (i 1).val ∧ (i 1).val < win0_3.index t (1 : Fin 2) * 512 + 512; rw [e7]; omega

/-! ## The arrays after the step -/

/-- The first result after the step is the product array. -/
theorem final_inp (c : Dev nD) :
    (dat0 (F := Ideal) V c).arrAt 2 cfg0.N = inpArr (V c main_arg1) (V c main_arg2) :=
  (dat0 (F := Ideal) V c).arrAt_eq_of_cover 2 (inpArr (V c main_arg1) (V c main_arg2)) (fun t _ => flushed_inp V c t) covered_inp

/-- The second result after the step is the clamped array. -/
theorem final_msg (c : Dev nD) :
    (dat0 (F := Ideal) V c).arrAt 3 cfg0.N = msgArr (V c main_arg1) (V c main_arg2) :=
  (dat0 (F := Ideal) V c).arrAt_eq_of_cover 3 (msgArr (V c main_arg1) (V c main_arg2)) (fun t _ => flushed_msg V c t) covered_msg

theorem value_inp (V : (c : Dev nD) → (b : Ref sig .tc) → Buf (Elt Ideal) ((c : Thread nD τ).loc b)) (c : Dev nD) (p : Fin 120000) (q : Fin 512) :
    ((Gen.dat0 (F := Ideal) V c).arrAt 2 cfg0.N : FVec Ideal S120000x512 .f32) (ix2 p q)
      = Cert.MPN.inpAt (V c main_arg1 : FVec Ideal S120000x147 .f32) (V c main_arg2 : FVec Ideal S512x147 .f32) p q :=
  congrFun (final_inp V c) (ix2 p q)

theorem value_msg (V : (c : Dev nD) → (b : Ref sig .tc) → Buf (Elt Ideal) ((c : Thread nD τ).loc b)) (c : Dev nD) (p : Fin 120000) (q : Fin 512) :
    ((Gen.dat0 (F := Ideal) V c).arrAt 3 cfg0.N : FVec Ideal S120000x512 .f32) (ix2 p q)
      = Cert.MPN.msg0At (V c main_arg1 : FVec Ideal S120000x147 .f32) (V c main_arg2 : FVec Ideal S512x147 .f32) p q :=
  congrFun (final_msg V c) (ix2 p q)

end Cert.KernelIdeal.Region0

end
-- ==== Proof.UpdPayload.lean ====
/-
  The update step's block, entry by entry.

  The body of an update region holds three blocks: `md : [1600, 512]`, rows of the difference of messages; the whole
  weight `w : [512, 512]`; and `inp : [1600, 512]`, the same rows of the kept input. What it stores is, at `(p, q)`,
  `max (inp(p, q) + ∑ k, md(p, k) · w(q, k), 0)`: narrowing the two operands of the product is the identity on the
  extended reals, the transposed weight at `(k, q)` is the weight at `(q, k)`, the product into the zero accumulator is
  the plain sum of products, and a shape cast to the same shape moves nothing.

  The value at `(p, q)` uses row `p` of `md`, row `q` of `w` and the entry `(p, q)` of `inp` only: two triples of
  arrays that agree there give the same value (`updAt_congr`), whatever their numbers of rows.
-/
import proofs.«118969_j9337258902201_1_alg».proof.Proof.Gen.KernelIdeal.Skeleton
import proofs.«118969_j9337258902201_1_alg».proof.Proof.Spec
import proofs.«118969_j9337258902201_1_alg».proof.Proof.LibMatmul

open scoped BigOperators
noncomputable section
namespace Cert.KernelIdeal.Upd
open Idealize.ShloMosaic Idealize.ShloMosaic.ValueIdx Cert.KernelIdeal Cert.KernelIdeal.Gen

/-- The update step at `(i, j)` reads row `i` of the messages' difference, the entry `(i, j)` of the kept input and
    row `j` of the weight, and nothing else. -/
theorem updAt_congr {M M' K N : Nat}
    (md : FVec Ideal ⟨2, ![M, K]⟩ .f32) (inp : FVec Ideal ⟨2, ![M, N]⟩ .f32) (w : FVec Ideal ⟨2, ![N, K]⟩ .f32)
    (md' : FVec Ideal ⟨2, ![M', K]⟩ .f32) (inp' : FVec Ideal ⟨2, ![M', N]⟩ .f32) (w' : FVec Ideal ⟨2, ![N, K]⟩ .f32)
    (i : Fin M) (i' : Fin M') (j : Fin N)
    (hmd : ∀ k : Fin K, md (ix2 i k) = md' (ix2 i' k)) (hinp : inp (ix2 i j) = inp' (ix2 i' j))
    (hw : ∀ k : Fin K, w (ix2 j k) = w' (ix2 j k)) :
    Cert.MPN.updAt md inp w i j = Cert.MPN.updAt md' inp' w' i' j := by
  unfold Cert.MPN.updAt Cert.MPN.dotT
  rw [hinp]
  refine congrArg (fun s : EReal => max (inp' (ix2 i' j) + s) Cert.MPN.zeroW) ?_
  exact Finset.sum_congr rfl fun k _ => by rw [hmd k, hw k]

/-- The block an update region stores, at `(p, q)`: the update step of its three blocks. -/
theorem pay1_apply (md : FVec Ideal S1600x512 .f32) (w : FVec Ideal S512x512 .f32) (inp : FVec Ideal S1600x512 .f32)
    (p : Fin 1600) (q : Fin 512) :
    k1_pay1 (F := Ideal) md w inp (ix2 p q) = Cert.MPN.updAt md inp w p q := by
  unfold k1_pay1 Cert.MPN.updAt Cert.MPN.dotT
  refine (maximumf_apply _ _ (ix2 p q)).trans ?_
  refine congrArg₂ max ?_ rfl
  refine (addf_apply _ _ (ix2 p q)).trans ?_
  refine congrArg₂ (· + ·) ?_ ?_
  · exact congrFun (shapeCast_self inp _) (ix2 p q)
  · refine (Cert.MatOps.matmul_plain_zero_apply none _ _ p q).trans ?_
    refine Finset.sum_congr rfl fun k _ => ?_
    refine congrArg₂ (· * ·) ?_ ?_
    · exact congrFun (shapeCast_self md _) (ix2 p k)
    · exact Cert.MatOps.transpose10_apply _ _ k q

/-- The four update regions store the same function of their blocks. -/
theorem pay2_eq : k2_pay1 (F := Ideal) = k1_pay1 (F := Ideal) := rfl
theorem pay3_eq : k3_pay1 (F := Ideal) = k1_pay1 (F := Ideal) := rfl
theorem pay4_eq : k4_pay1 (F := Ideal) = k1_pay1 (F := Ideal) := rfl

theorem pay2_apply (md : FVec Ideal S1600x512 .f32) (w : FVec Ideal S512x512 .f32) (inp : FVec Ideal S1600x512 .f32)
    (p : Fin 1600) (q : Fin 512) :
    k2_pay1 (F := Ideal) md w inp (ix2 p q) = Cert.MPN.updAt md inp w p q := by
  rw [pay2_eq]; exact pay1_apply md w inp p q
theorem pay3_apply (md : FVec Ideal S1600x512 .f32) (w : FVec Ideal S512x512 .f32) (inp : FVec Ideal S1600x512 .f32)
    (p : Fin 1600) (q : Fin 512) :
    k3_pay1 (F := Ideal) md w inp (ix2 p q) = Cert.MPN.updAt md inp w p q := by
  rw [pay3_eq]; exact pay1_apply md w inp p q
theorem pay4_apply (md : FVec Ideal S1600x512 .f32) (w : FVec Ideal S512x512 .f32) (inp : FVec Ideal S1600x512 .f32)
    (p : Fin 1600) (q : Fin 512) :
    k4_pay1 (F := Ideal) md w inp (ix2 p q) = Cert.MPN.updAt md inp w p q := by
  rw [pay4_eq]; exact pay1_apply md w inp p q

end Cert.KernelIdeal.Upd
-- ==== Proof.Upd1Value.lean ====
/-
  The output array of an update region, entry by entry.

  The region walks the 75 blocks of 1600 rows of three `[120000, 512]` arrays — the difference of messages, the kept
  input and the output — with the whole `[512, 512]` weight in place at every point. At point `t` the body stores the
  update step of its three blocks. Row `y` of a block at point `t` is row `1600 · t + y` of its array, so what point
  `t` writes back is block `t` of ONE function of the contents the region finds: the update step of the three arrays,
  `max (inp(r, j) + ∑ k, msgdiff(r, k) · w(j, k), 0)` at `(r, j)`. Row `r` lies in block `r / 1600`, so the 75
  blocks cover the 120000 rows and the output array ends holding that function.
-/
import proofs.«118969_j9337258902201_1_alg».proof.Proof.Gen.KernelIdeal.Frame
import proofs.«118969_j9337258902201_1_alg».proof.Proof.Spec
import proofs.«118969_j9337258902201_1_alg».proof.Proof.UpdPayload
import Idealize.ShloMosaic.Lib.Pipeline.Value

noncomputable section

namespace Cert.KernelIdeal.Region1

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The body's loads and its store start at the origin of their buffers. -/
theorem origin : (![0, 0] : Fin 2 → Nat) = fun _ => 0 := funext fun a => by fin_cases a <;> rfl

/-- The block indices at point `t`: the three row-blocked windows are at block row `t`, block column 0; the weight's
    one block is the whole array. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The grid has 75 points. -/
theorem point_lt (t : Fin cfg1.N) : t.val < 75 := lt_of_lt_of_eq t.isLt N_1

/-- The update step of the three arrays the region finds, at every index of the output. -/
def updArr (c : Dev nD) : S120000x512.Idx → EReal := fun i =>
  Cert.MPN.updAt (V c main_v23 : FVec Ideal S120000x512 .f32) (V c main_v0_0 : FVec Ideal S120000x512 .f32)
    (V c main_arg3 : FVec Ideal S512x512 .f32) (i 0) (i 1)

/-- Row `y` of the messages' difference's block at point `t` is row `1600 · t + y` of the array. -/
theorem msgdiff_block (c : Dev nD) (t : Fin cfg1.N) (y : Fin 1600) (k : Fin 512) (r : Fin 120000)
    (hr : r.val = 1600 * t.val + y.val) :
    (iblk1 V c 0 t : FVec Ideal S1600x512 .f32) (ix2 y k) = (V c main_v23 : FVec Ideal S120000x512 .f32) (ix2 r k) := by
  obtain ⟨e0, e1, -⟩ := block_index t
  unfold iblk1
  rw [View.read_apply]
  show V c main_v23 _ = V c main_v23 _
  refine congrArg _ ?_
  funext a
  apply Fin.ext
  match a with
  | ⟨0, _⟩ => show win1_0.index t (0 : Fin 2) * 1600 + 1 * y.val = r.val; rw [e0, hr]; omega
  | ⟨1, _⟩ => show win1_0.index t (1 : Fin 2) * 512 + 1 * k.val = k.val; rw [e1]; omega

/-- Row `y` of the kept input's block at point `t` is row `1600 · t + y` of the array. -/
theorem inp_block (c : Dev nD) (t : Fin cfg1.N) (y : Fin 1600) (x : Fin 512) (r : Fin 120000)
    (hr : r.val = 1600 * t.val + y.val) :
    (iblk1 V c 1 t : FVec Ideal S1600x512 .f32) (ix2 y x) = (V c main_v0_0 : FVec Ideal S120000x512 .f32) (ix2 r x) := by
  obtain ⟨-, -, e0, e1, -⟩ := block_index t
  unfold iblk1
  rw [View.read_apply]
  show V c main_v0_0 _ = V c main_v0_0 _
  refine congrArg _ ?_
  funext a
  apply Fin.ext
  match a with
  | ⟨0, _⟩ => show win1_1.index t (0 : Fin 2) * 1600 + 1 * y.val = r.val; rw [e0, hr]; omega
  | ⟨1, _⟩ => show win1_1.index t (1 : Fin 2) * 512 + 1 * x.val = x.val; rw [e1]; omega

/-- The weight's block at every point is the whole weight. -/
theorem weight_block (c : Dev nD) (t : Fin cfg1.N) (q k : Fin 512) :
    (iblk1 V c 2 t : FVec Ideal S512x512 .f32) (ix2 q k) = (V c main_arg3 : FVec Ideal S512x512 .f32) (ix2 q k) := by
  obtain ⟨-, -, -, -, e0, e1, -⟩ := block_index t
  unfold iblk1
  rw [View.read_apply]
  show V c main_arg3 _ = V c main_arg3 _
  refine congrArg _ ?_
  funext a
  apply Fin.ext
  match a with
  | ⟨0, _⟩ => show win1_2.index t (0 : Fin 2) * 512 + 1 * q.val = q.val; rw [e0]; omega
  | ⟨1, _⟩ => show win1_2.index t (1 : Fin 2) * 512 + 1 * k.val = k.val; rw [e1]; omega

/-- WHAT POINT `t` WRITES BACK is block `t` of the update step of the three arrays. -/
theorem written_back (c : Dev nD) (t : Fin cfg1.N) :
    (dat1 (F := Ideal) V c).flushed 3 t = ((cfg1.win 3).blk t).view.read (Elt Ideal) (updArr V c) := by
  show (cfg1.win 3).cut (grid1.coords t) ((dat1 (F := Ideal) V c).after 3 t) = _
  rw [after1_3]
  unfold out1_3
  rw [View.canon_unit_zero origin]
  simp only [View.ld_unit_zero (S := S1600x512) origin, View.ld_unit_zero (S := S512x512) origin]
  obtain ⟨-, -, -, -, -, -, e0, e1⟩ := block_index t
  have ht := point_lt t
  refine funext fun (j : S1600x512.Idx) => ?_
  obtain ⟨y, x, rfl⟩ : ∃ (y : Fin 1600) (x : Fin 512), j = ix2 y x := ⟨j 0, j 1, eq_ix2 j⟩
  have hr : 1600 * t.val + y.val < 120000 := by have := y.isLt; omega
  have hemb : ((cfg1.win 3).blk t).view.emb (ix2 y x) = ix2 (⟨1600 * t.val + y.val, hr⟩ : Fin 120000) x := by
    funext a
    apply Fin.ext
    match a with
    | ⟨0, _⟩ => show win1_3.index t (0 : Fin 2) * 1600 + 1 * y.val = 1600 * t.val + y.val; rw [e0]; omega
    | ⟨1, _⟩ => show win1_3.index t (1 : Fin 2) * 512 + 1 * x.val = x.val; rw [e1]; omega
  show k1_pay1 (F := Ideal) (iblk1 V c 0 t) (iblk1 V c 2 t) (iblk1 V c 1 t) (ix2 y x)
    = updArr V c (((cfg1.win 3).blk t).view.emb (ix2 y x))
  rw [hemb]
  refine (Upd.pay1_apply _ _ _ y x).trans ?_
  exact Upd.updAt_congr _ _ _ _ _ _ y ⟨1600 * t.val + y.val, hr⟩ x
    (fun k => msgdiff_block V c t y k _ rfl) (inp_block V c t y x _ rfl) (fun k => weight_block V c t x k)

/-- An index of the output array is in point `t`'s block iff each coordinate is in the block's range on its axis. -/
theorem mem_block (t : Fin cfg1.N) (i : S120000x512.Idx) :
    i ∈ ((cfg1.win 3).blk t).view.set ↔ ∀ a : Fin 2, win1_3.index t a * S1600x512.size a ≤ (i a).val
      ∧ (i a).val < win1_3.index t a * S1600x512.size a + S1600x512.size a := by
  show i ∈ ((View.whole main_v24).slice (win1_3.rect t)).set ↔ _
  rw [View.set_slice_whole, Rect.mem_set_unit]
  exact Iff.rfl

/-- THE BLOCKS COVER THE ARRAY: row `r` is in the block of point `r / 1600`. -/
theorem blocks_cover (i : S120000x512.Idx) :
    ∃ t : Fin cfg1.N, (cfg1.win 3).flush t = true ∧ i ∈ ((cfg1.win 3).blk t).view.set := by
  have hi0 : (i 0).val < 120000 := (i 0).isLt
  have hi1 : (i 1).val < 512 := (i 1).isLt
  obtain ⟨t, ht⟩ : ∃ t : Fin cfg1.N, t.val = (i 0).val / 1600 :=
    ⟨⟨(i 0).val / 1600, by rw [show cfg1.N = 75 from N_1]; omega⟩, rfl⟩
  obtain ⟨-, -, -, -, -, -, e0, e1⟩ := block_index t
  refine ⟨t, flush1_3 t, ?_⟩
  rw [mem_block]
  intro a
  match a with
  | ⟨0, _⟩ =>
    show win1_3.index t (0 : Fin 2) * 1600 ≤ (i 0).val ∧ (i 0).val < win1_3.index t (0 : Fin 2) * 1600 + 1600
    rw [e0, ht]; omega
  | ⟨1, _⟩ =>
    show win1_3.index t (1 : Fin 2) * 512 ≤ (i 1).val ∧ (i 1).val < win1_3.index t (1 : Fin 2) * 512 + 512
    rw [e1]; omega

/-- THE OUTPUT ARRAY after the region: the update step of the three arrays the region finds. -/
theorem array_after (c : Dev nD) : (dat1 (F := Ideal) V c).arrAt 3 cfg1.N = updArr V c :=
  (dat1 (F := Ideal) V c).arrAt_eq_of_cover 3 (updArr V c) (fun t _ => written_back V c t) blocks_cover

theorem value (c : Dev nD) (p : Fin 120000) (q : Fin 512) :
    ((Gen.dat1 (F := Ideal) V c).arrAt 3 cfg1.N : FVec Ideal S120000x512 .f32) (ix2 p q)
      = Cert.MPN.updAt (V c main_v23 : FVec Ideal S120000x512 .f32) (V c main_v0_0 : FVec Ideal S120000x512 .f32) (V c main_arg3 : FVec Ideal S512x512 .f32) p q :=
  congrFun (array_after V c) (ix2 p q)

end Cert.KernelIdeal.Region1
-- ==== Proof.Upd2Value.lean ====
/-
  The output array of an update region, entry by entry.

  The region walks the 75 blocks of 1600 rows of three `[120000, 512]` arrays — the difference of messages, the kept
  input and the output — with the whole `[512, 512]` weight in place at every point. At point `t` the body stores the
  update step of its three blocks. Row `y` of a block at point `t` is row `1600 · t + y` of its array, so what point
  `t` writes back is block `t` of ONE function of the contents the region finds: the update step of the three arrays,
  `max (inp(r, j) + ∑ k, msgdiff(r, k) · w(j, k), 0)` at `(r, j)`. Row `r` lies in block `r / 1600`, so the 75
  blocks cover the 120000 rows and the output array ends holding that function.
-/
import proofs.«118969_j9337258902201_1_alg».proof.Proof.Gen.KernelIdeal.Frame
import proofs.«118969_j9337258902201_1_alg».proof.Proof.Spec
import proofs.«118969_j9337258902201_1_alg».proof.Proof.UpdPayload
import Idealize.ShloMosaic.Lib.Pipeline.Value

noncomputable section

namespace Cert.KernelIdeal.Region2

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The body's loads and its store start at the origin of their buffers. -/
theorem origin : (![0, 0] : Fin 2 → Nat) = fun _ => 0 := funext fun a => by fin_cases a <;> rfl

/-- The block indices at point `t`: the three row-blocked windows are at block row `t`, block column 0; the weight's
    one block is the whole array. -/
theorem block_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The grid has 75 points. -/
theorem point_lt (t : Fin cfg2.N) : t.val < 75 := lt_of_lt_of_eq t.isLt N_2

/-- The update step of the three arrays the region finds, at every index of the output. -/
def updArr (c : Dev nD) : S120000x512.Idx → EReal := fun i =>
  Cert.MPN.updAt (V c main_v47 : FVec Ideal S120000x512 .f32) (V c main_v0_0 : FVec Ideal S120000x512 .f32)
    (V c main_arg3 : FVec Ideal S512x512 .f32) (i 0) (i 1)

/-- Row `y` of the messages' difference's block at point `t` is row `1600 · t + y` of the array. -/
theorem msgdiff_block (c : Dev nD) (t : Fin cfg2.N) (y : Fin 1600) (k : Fin 512) (r : Fin 120000)
    (hr : r.val = 1600 * t.val + y.val) :
    (iblk2 V c 0 t : FVec Ideal S1600x512 .f32) (ix2 y k) = (V c main_v47 : FVec Ideal S120000x512 .f32) (ix2 r k) := by
  obtain ⟨e0, e1, -⟩ := block_index t
  unfold iblk2
  rw [View.read_apply]
  show V c main_v47 _ = V c main_v47 _
  refine congrArg _ ?_
  funext a
  apply Fin.ext
  match a with
  | ⟨0, _⟩ => show win2_0.index t (0 : Fin 2) * 1600 + 1 * y.val = r.val; rw [e0, hr]; omega
  | ⟨1, _⟩ => show win2_0.index t (1 : Fin 2) * 512 + 1 * k.val = k.val; rw [e1]; omega

/-- Row `y` of the kept input's block at point `t` is row `1600 · t + y` of the array. -/
theorem inp_block (c : Dev nD) (t : Fin cfg2.N) (y : Fin 1600) (x : Fin 512) (r : Fin 120000)
    (hr : r.val = 1600 * t.val + y.val) :
    (iblk2 V c 1 t : FVec Ideal S1600x512 .f32) (ix2 y x) = (V c main_v0_0 : FVec Ideal S120000x512 .f32) (ix2 r x) := by
  obtain ⟨-, -, e0, e1, -⟩ := block_index t
  unfold iblk2
  rw [View.read_apply]
  show V c main_v0_0 _ = V c main_v0_0 _
  refine congrArg _ ?_
  funext a
  apply Fin.ext
  match a with
  | ⟨0, _⟩ => show win2_1.index t (0 : Fin 2) * 1600 + 1 * y.val = r.val; rw [e0, hr]; omega
  | ⟨1, _⟩ => show win2_1.index t (1 : Fin 2) * 512 + 1 * x.val = x.val; rw [e1]; omega

/-- The weight's block at every point is the whole weight. -/
theorem weight_block (c : Dev nD) (t : Fin cfg2.N) (q k : Fin 512) :
    (iblk2 V c 2 t : FVec Ideal S512x512 .f32) (ix2 q k) = (V c main_arg3 : FVec Ideal S512x512 .f32) (ix2 q k) := by
  obtain ⟨-, -, -, -, e0, e1, -⟩ := block_index t
  unfold iblk2
  rw [View.read_apply]
  show V c main_arg3 _ = V c main_arg3 _
  refine congrArg _ ?_
  funext a
  apply Fin.ext
  match a with
  | ⟨0, _⟩ => show win2_2.index t (0 : Fin 2) * 512 + 1 * q.val = q.val; rw [e0]; omega
  | ⟨1, _⟩ => show win2_2.index t (1 : Fin 2) * 512 + 1 * k.val = k.val; rw [e1]; omega

/-- WHAT POINT `t` WRITES BACK is block `t` of the update step of the three arrays. -/
theorem written_back (c : Dev nD) (t : Fin cfg2.N) :
    (dat2 (F := Ideal) V c).flushed 3 t = ((cfg2.win 3).blk t).view.read (Elt Ideal) (updArr V c) := by
  show (cfg2.win 3).cut (grid2.coords t) ((dat2 (F := Ideal) V c).after 3 t) = _
  rw [after2_3]
  unfold out2_3
  rw [View.canon_unit_zero origin]
  simp only [View.ld_unit_zero (S := S1600x512) origin, View.ld_unit_zero (S := S512x512) origin]
  obtain ⟨-, -, -, -, -, -, e0, e1⟩ := block_index t
  have ht := point_lt t
  refine funext fun (j : S1600x512.Idx) => ?_
  obtain ⟨y, x, rfl⟩ : ∃ (y : Fin 1600) (x : Fin 512), j = ix2 y x := ⟨j 0, j 1, eq_ix2 j⟩
  have hr : 1600 * t.val + y.val < 120000 := by have := y.isLt; omega
  have hemb : ((cfg2.win 3).blk t).view.emb (ix2 y x) = ix2 (⟨1600 * t.val + y.val, hr⟩ : Fin 120000) x := by
    funext a
    apply Fin.ext
    match a with
    | ⟨0, _⟩ => show win2_3.index t (0 : Fin 2) * 1600 + 1 * y.val = 1600 * t.val + y.val; rw [e0]; omega
    | ⟨1, _⟩ => show win2_3.index t (1 : Fin 2) * 512 + 1 * x.val = x.val; rw [e1]; omega
  show k2_pay1 (F := Ideal) (iblk2 V c 0 t) (iblk2 V c 2 t) (iblk2 V c 1 t) (ix2 y x)
    = updArr V c (((cfg2.win 3).blk t).view.emb (ix2 y x))
  rw [hemb]
  refine (Upd.pay2_apply _ _ _ y x).trans ?_
  exact Upd.updAt_congr _ _ _ _ _ _ y ⟨1600 * t.val + y.val, hr⟩ x
    (fun k => msgdiff_block V c t y k _ rfl) (inp_block V c t y x _ rfl) (fun k => weight_block V c t x k)

/-- An index of the output array is in point `t`'s block iff each coordinate is in the block's range on its axis. -/
theorem mem_block (t : Fin cfg2.N) (i : S120000x512.Idx) :
    i ∈ ((cfg2.win 3).blk t).view.set ↔ ∀ a : Fin 2, win2_3.index t a * S1600x512.size a ≤ (i a).val
      ∧ (i a).val < win2_3.index t a * S1600x512.size a + S1600x512.size a := by
  show i ∈ ((View.whole main_v48).slice (win2_3.rect t)).set ↔ _
  rw [View.set_slice_whole, Rect.mem_set_unit]
  exact Iff.rfl

/-- THE BLOCKS COVER THE ARRAY: row `r` is in the block of point `r / 1600`. -/
theorem blocks_cover (i : S120000x512.Idx) :
    ∃ t : Fin cfg2.N, (cfg2.win 3).flush t = true ∧ i ∈ ((cfg2.win 3).blk t).view.set := by
  have hi0 : (i 0).val < 120000 := (i 0).isLt
  have hi1 : (i 1).val < 512 := (i 1).isLt
  obtain ⟨t, ht⟩ : ∃ t : Fin cfg2.N, t.val = (i 0).val / 1600 :=
    ⟨⟨(i 0).val / 1600, by rw [show cfg2.N = 75 from N_2]; omega⟩, rfl⟩
  obtain ⟨-, -, -, -, -, -, e0, e1⟩ := block_index t
  refine ⟨t, flush2_3 t, ?_⟩
  rw [mem_block]
  intro a
  match a with
  | ⟨0, _⟩ =>
    show win2_3.index t (0 : Fin 2) * 1600 ≤ (i 0).val ∧ (i 0).val < win2_3.index t (0 : Fin 2) * 1600 + 1600
    rw [e0, ht]; omega
  | ⟨1, _⟩ =>
    show win2_3.index t (1 : Fin 2) * 512 ≤ (i 1).val ∧ (i 1).val < win2_3.index t (1 : Fin 2) * 512 + 512
    rw [e1]; omega

/-- THE OUTPUT ARRAY after the region: the update step of the three arrays the region finds. -/
theorem array_after (c : Dev nD) : (dat2 (F := Ideal) V c).arrAt 3 cfg2.N = updArr V c :=
  (dat2 (F := Ideal) V c).arrAt_eq_of_cover 3 (updArr V c) (fun t _ => written_back V c t) blocks_cover

theorem value (c : Dev nD) (p : Fin 120000) (q : Fin 512) :
    ((Gen.dat2 (F := Ideal) V c).arrAt 3 cfg2.N : FVec Ideal S120000x512 .f32) (ix2 p q)
      = Cert.MPN.updAt (V c main_v47 : FVec Ideal S120000x512 .f32) (V c main_v0_0 : FVec Ideal S120000x512 .f32) (V c main_arg3 : FVec Ideal S512x512 .f32) p q :=
  congrFun (array_after V c) (ix2 p q)

end Cert.KernelIdeal.Region2
-- ==== Proof.Upd3Value.lean ====
/-
  The output array of an update region, entry by entry.

  The region walks the 75 blocks of 1600 rows of three `[120000, 512]` arrays — the difference of messages, the kept
  input and the output — with the whole `[512, 512]` weight in place at every point. At point `t` the body stores the
  update step of its three blocks. Row `y` of a block at point `t` is row `1600 · t + y` of its array, so what point
  `t` writes back is block `t` of ONE function of the contents the region finds: the update step of the three arrays,
  `max (inp(r, j) + ∑ k, msgdiff(r, k) · w(j, k), 0)` at `(r, j)`. Row `r` lies in block `r / 1600`, so the 75
  blocks cover the 120000 rows and the output array ends holding that function.
-/
import proofs.«118969_j9337258902201_1_alg».proof.Proof.Gen.KernelIdeal.Frame
import proofs.«118969_j9337258902201_1_alg».proof.Proof.Spec
import proofs.«118969_j9337258902201_1_alg».proof.Proof.UpdPayload
import Idealize.ShloMosaic.Lib.Pipeline.Value

noncomputable section

namespace Cert.KernelIdeal.Region3

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The body's loads and its store start at the origin of their buffers. -/
theorem origin : (![0, 0] : Fin 2 → Nat) = fun _ => 0 := funext fun a => by fin_cases a <;> rfl

/-- The block indices at point `t`: the three row-blocked windows are at block row `t`, block column 0; the weight's
    one block is the whole array. -/
theorem block_index : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The grid has 75 points. -/
theorem point_lt (t : Fin cfg3.N) : t.val < 75 := lt_of_lt_of_eq t.isLt N_3

/-- The update step of the three arrays the region finds, at every index of the output. -/
def updArr (c : Dev nD) : S120000x512.Idx → EReal := fun i =>
  Cert.MPN.updAt (V c main_v71 : FVec Ideal S120000x512 .f32) (V c main_v0_0 : FVec Ideal S120000x512 .f32)
    (V c main_arg3 : FVec Ideal S512x512 .f32) (i 0) (i 1)

/-- Row `y` of the messages' difference's block at point `t` is row `1600 · t + y` of the array. -/
theorem msgdiff_block (c : Dev nD) (t : Fin cfg3.N) (y : Fin 1600) (k : Fin 512) (r : Fin 120000)
    (hr : r.val = 1600 * t.val + y.val) :
    (iblk3 V c 0 t : FVec Ideal S1600x512 .f32) (ix2 y k) = (V c main_v71 : FVec Ideal S120000x512 .f32) (ix2 r k) := by
  obtain ⟨e0, e1, -⟩ := block_index t
  unfold iblk3
  rw [View.read_apply]
  show V c main_v71 _ = V c main_v71 _
  refine congrArg _ ?_
  funext a
  apply Fin.ext
  match a with
  | ⟨0, _⟩ => show win3_0.index t (0 : Fin 2) * 1600 + 1 * y.val = r.val; rw [e0, hr]; omega
  | ⟨1, _⟩ => show win3_0.index t (1 : Fin 2) * 512 + 1 * k.val = k.val; rw [e1]; omega

/-- Row `y` of the kept input's block at point `t` is row `1600 · t + y` of the array. -/
theorem inp_block (c : Dev nD) (t : Fin cfg3.N) (y : Fin 1600) (x : Fin 512) (r : Fin 120000)
    (hr : r.val = 1600 * t.val + y.val) :
    (iblk3 V c 1 t : FVec Ideal S1600x512 .f32) (ix2 y x) = (V c main_v0_0 : FVec Ideal S120000x512 .f32) (ix2 r x) := by
  obtain ⟨-, -, e0, e1, -⟩ := block_index t
  unfold iblk3
  rw [View.read_apply]
  show V c main_v0_0 _ = V c main_v0_0 _
  refine congrArg _ ?_
  funext a
  apply Fin.ext
  match a with
  | ⟨0, _⟩ => show win3_1.index t (0 : Fin 2) * 1600 + 1 * y.val = r.val; rw [e0, hr]; omega
  | ⟨1, _⟩ => show win3_1.index t (1 : Fin 2) * 512 + 1 * x.val = x.val; rw [e1]; omega

/-- The weight's block at every point is the whole weight. -/
theorem weight_block (c : Dev nD) (t : Fin cfg3.N) (q k : Fin 512) :
    (iblk3 V c 2 t : FVec Ideal S512x512 .f32) (ix2 q k) = (V c main_arg3 : FVec Ideal S512x512 .f32) (ix2 q k) := by
  obtain ⟨-, -, -, -, e0, e1, -⟩ := block_index t
  unfold iblk3
  rw [View.read_apply]
  show V c main_arg3 _ = V c main_arg3 _
  refine congrArg _ ?_
  funext a
  apply Fin.ext
  match a with
  | ⟨0, _⟩ => show win3_2.index t (0 : Fin 2) * 512 + 1 * q.val = q.val; rw [e0]; omega
  | ⟨1, _⟩ => show win3_2.index t (1 : Fin 2) * 512 + 1 * k.val = k.val; rw [e1]; omega

/-- WHAT POINT `t` WRITES BACK is block `t` of the update step of the three arrays. -/
theorem written_back (c : Dev nD) (t : Fin cfg3.N) :
    (dat3 (F := Ideal) V c).flushed 3 t = ((cfg3.win 3).blk t).view.read (Elt Ideal) (updArr V c) := by
  show (cfg3.win 3).cut (grid3.coords t) ((dat3 (F := Ideal) V c).after 3 t) = _
  rw [after3_3]
  unfold out3_3
  rw [View.canon_unit_zero origin]
  simp only [View.ld_unit_zero (S := S1600x512) origin, View.ld_unit_zero (S := S512x512) origin]
  obtain ⟨-, -, -, -, -, -, e0, e1⟩ := block_index t
  have ht := point_lt t
  refine funext fun (j : S1600x512.Idx) => ?_
  obtain ⟨y, x, rfl⟩ : ∃ (y : Fin 1600) (x : Fin 512), j = ix2 y x := ⟨j 0, j 1, eq_ix2 j⟩
  have hr : 1600 * t.val + y.val < 120000 := by have := y.isLt; omega
  have hemb : ((cfg3.win 3).blk t).view.emb (ix2 y x) = ix2 (⟨1600 * t.val + y.val, hr⟩ : Fin 120000) x := by
    funext a
    apply Fin.ext
    match a with
    | ⟨0, _⟩ => show win3_3.index t (0 : Fin 2) * 1600 + 1 * y.val = 1600 * t.val + y.val; rw [e0]; omega
    | ⟨1, _⟩ => show win3_3.index t (1 : Fin 2) * 512 + 1 * x.val = x.val; rw [e1]; omega
  show k3_pay1 (F := Ideal) (iblk3 V c 0 t) (iblk3 V c 2 t) (iblk3 V c 1 t) (ix2 y x)
    = updArr V c (((cfg3.win 3).blk t).view.emb (ix2 y x))
  rw [hemb]
  refine (Upd.pay3_apply _ _ _ y x).trans ?_
  exact Upd.updAt_congr _ _ _ _ _ _ y ⟨1600 * t.val + y.val, hr⟩ x
    (fun k => msgdiff_block V c t y k _ rfl) (inp_block V c t y x _ rfl) (fun k => weight_block V c t x k)

/-- An index of the output array is in point `t`'s block iff each coordinate is in the block's range on its axis. -/
theorem mem_block (t : Fin cfg3.N) (i : S120000x512.Idx) :
    i ∈ ((cfg3.win 3).blk t).view.set ↔ ∀ a : Fin 2, win3_3.index t a * S1600x512.size a ≤ (i a).val
      ∧ (i a).val < win3_3.index t a * S1600x512.size a + S1600x512.size a := by
  show i ∈ ((View.whole main_v72).slice (win3_3.rect t)).set ↔ _
  rw [View.set_slice_whole, Rect.mem_set_unit]
  exact Iff.rfl

/-- THE BLOCKS COVER THE ARRAY: row `r` is in the block of point `r / 1600`. -/
theorem blocks_cover (i : S120000x512.Idx) :
    ∃ t : Fin cfg3.N, (cfg3.win 3).flush t = true ∧ i ∈ ((cfg3.win 3).blk t).view.set := by
  have hi0 : (i 0).val < 120000 := (i 0).isLt
  have hi1 : (i 1).val < 512 := (i 1).isLt
  obtain ⟨t, ht⟩ : ∃ t : Fin cfg3.N, t.val = (i 0).val / 1600 :=
    ⟨⟨(i 0).val / 1600, by rw [show cfg3.N = 75 from N_3]; omega⟩, rfl⟩
  obtain ⟨-, -, -, -, -, -, e0, e1⟩ := block_index t
  refine ⟨t, flush3_3 t, ?_⟩
  rw [mem_block]
  intro a
  match a with
  | ⟨0, _⟩ =>
    show win3_3.index t (0 : Fin 2) * 1600 ≤ (i 0).val ∧ (i 0).val < win3_3.index t (0 : Fin 2) * 1600 + 1600
    rw [e0, ht]; omega
  | ⟨1, _⟩ =>
    show win3_3.index t (1 : Fin 2) * 512 ≤ (i 1).val ∧ (i 1).val < win3_3.index t (1 : Fin 2) * 512 + 512
    rw [e1]; omega

/-- THE OUTPUT ARRAY after the region: the update step of the three arrays the region finds. -/
theorem array_after (c : Dev nD) : (dat3 (F := Ideal) V c).arrAt 3 cfg3.N = updArr V c :=
  (dat3 (F := Ideal) V c).arrAt_eq_of_cover 3 (updArr V c) (fun t _ => written_back V c t) blocks_cover

theorem value (c : Dev nD) (p : Fin 120000) (q : Fin 512) :
    ((Gen.dat3 (F := Ideal) V c).arrAt 3 cfg3.N : FVec Ideal S120000x512 .f32) (ix2 p q)
      = Cert.MPN.updAt (V c main_v71 : FVec Ideal S120000x512 .f32) (V c main_v0_0 : FVec Ideal S120000x512 .f32) (V c main_arg3 : FVec Ideal S512x512 .f32) p q :=
  congrFun (array_after V c) (ix2 p q)

end Cert.KernelIdeal.Region3
-- ==== Proof.Upd4Value.lean ====
/-
  The output array of an update region, entry by entry.

  The region walks the 75 blocks of 1600 rows of three `[120000, 512]` arrays — the difference of messages, the kept
  input and the output — with the whole `[512, 512]` weight in place at every point. At point `t` the body stores the
  update step of its three blocks. Row `y` of a block at point `t` is row `1600 · t + y` of its array, so what point
  `t` writes back is block `t` of ONE function of the contents the region finds: the update step of the three arrays,
  `max (inp(r, j) + ∑ k, msgdiff(r, k) · w(j, k), 0)` at `(r, j)`. Row `r` lies in block `r / 1600`, so the 75
  blocks cover the 120000 rows and the output array ends holding that function.
-/
import proofs.«118969_j9337258902201_1_alg».proof.Proof.Gen.KernelIdeal.Frame
import proofs.«118969_j9337258902201_1_alg».proof.Proof.Spec
import proofs.«118969_j9337258902201_1_alg».proof.Proof.UpdPayload
import Idealize.ShloMosaic.Lib.Pipeline.Value

noncomputable section

namespace Cert.KernelIdeal.Region4

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The body's loads and its store start at the origin of their buffers. -/
theorem origin : (![0, 0] : Fin 2 → Nat) = fun _ => 0 := funext fun a => by fin_cases a <;> rfl

/-- The block indices at point `t`: the three row-blocked windows are at block row `t`, block column 0; the weight's
    one block is the whole array. -/
theorem block_index : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The grid has 75 points. -/
theorem point_lt (t : Fin cfg4.N) : t.val < 75 := lt_of_lt_of_eq t.isLt N_4

/-- The update step of the three arrays the region finds, at every index of the output. -/
def updArr (c : Dev nD) : S120000x512.Idx → EReal := fun i =>
  Cert.MPN.updAt (V c main_v95 : FVec Ideal S120000x512 .f32) (V c main_v0_0 : FVec Ideal S120000x512 .f32)
    (V c main_arg3 : FVec Ideal S512x512 .f32) (i 0) (i 1)

/-- Row `y` of the messages' difference's block at point `t` is row `1600 · t + y` of the array. -/
theorem msgdiff_block (c : Dev nD) (t : Fin cfg4.N) (y : Fin 1600) (k : Fin 512) (r : Fin 120000)
    (hr : r.val = 1600 * t.val + y.val) :
    (iblk4 V c 0 t : FVec Ideal S1600x512 .f32) (ix2 y k) = (V c main_v95 : FVec Ideal S120000x512 .f32) (ix2 r k) := by
  obtain ⟨e0, e1, -⟩ := block_index t
  unfold iblk4
  rw [View.read_apply]
  show V c main_v95 _ = V c main_v95 _
  refine congrArg _ ?_
  funext a
  apply Fin.ext
  match a with
  | ⟨0, _⟩ => show win4_0.index t (0 : Fin 2) * 1600 + 1 * y.val = r.val; rw [e0, hr]; omega
  | ⟨1, _⟩ => show win4_0.index t (1 : Fin 2) * 512 + 1 * k.val = k.val; rw [e1]; omega

/-- Row `y` of the kept input's block at point `t` is row `1600 · t + y` of the array. -/
theorem inp_block (c : Dev nD) (t : Fin cfg4.N) (y : Fin 1600) (x : Fin 512) (r : Fin 120000)
    (hr : r.val = 1600 * t.val + y.val) :
    (iblk4 V c 1 t : FVec Ideal S1600x512 .f32) (ix2 y x) = (V c main_v0_0 : FVec Ideal S120000x512 .f32) (ix2 r x) := by
  obtain ⟨-, -, e0, e1, -⟩ := block_index t
  unfold iblk4
  rw [View.read_apply]
  show V c main_v0_0 _ = V c main_v0_0 _
  refine congrArg _ ?_
  funext a
  apply Fin.ext
  match a with
  | ⟨0, _⟩ => show win4_1.index t (0 : Fin 2) * 1600 + 1 * y.val = r.val; rw [e0, hr]; omega
  | ⟨1, _⟩ => show win4_1.index t (1 : Fin 2) * 512 + 1 * x.val = x.val; rw [e1]; omega

/-- The weight's block at every point is the whole weight. -/
theorem weight_block (c : Dev nD) (t : Fin cfg4.N) (q k : Fin 512) :
    (iblk4 V c 2 t : FVec Ideal S512x512 .f32) (ix2 q k) = (V c main_arg3 : FVec Ideal S512x512 .f32) (ix2 q k) := by
  obtain ⟨-, -, -, -, e0, e1, -⟩ := block_index t
  unfold iblk4
  rw [View.read_apply]
  show V c main_arg3 _ = V c main_arg3 _
  refine congrArg _ ?_
  funext a
  apply Fin.ext
  match a with
  | ⟨0, _⟩ => show win4_2.index t (0 : Fin 2) * 512 + 1 * q.val = q.val; rw [e0]; omega
  | ⟨1, _⟩ => show win4_2.index t (1 : Fin 2) * 512 + 1 * k.val = k.val; rw [e1]; omega

/-- WHAT POINT `t` WRITES BACK is block `t` of the update step of the three arrays. -/
theorem written_back (c : Dev nD) (t : Fin cfg4.N) :
    (dat4 (F := Ideal) V c).flushed 3 t = ((cfg4.win 3).blk t).view.read (Elt Ideal) (updArr V c) := by
  show (cfg4.win 3).cut (grid4.coords t) ((dat4 (F := Ideal) V c).after 3 t) = _
  rw [after4_3]
  unfold out4_3
  rw [View.canon_unit_zero origin]
  simp only [View.ld_unit_zero (S := S1600x512) origin, View.ld_unit_zero (S := S512x512) origin]
  obtain ⟨-, -, -, -, -, -, e0, e1⟩ := block_index t
  have ht := point_lt t
  refine funext fun (j : S1600x512.Idx) => ?_
  obtain ⟨y, x, rfl⟩ : ∃ (y : Fin 1600) (x : Fin 512), j = ix2 y x := ⟨j 0, j 1, eq_ix2 j⟩
  have hr : 1600 * t.val + y.val < 120000 := by have := y.isLt; omega
  have hemb : ((cfg4.win 3).blk t).view.emb (ix2 y x) = ix2 (⟨1600 * t.val + y.val, hr⟩ : Fin 120000) x := by
    funext a
    apply Fin.ext
    match a with
    | ⟨0, _⟩ => show win4_3.index t (0 : Fin 2) * 1600 + 1 * y.val = 1600 * t.val + y.val; rw [e0]; omega
    | ⟨1, _⟩ => show win4_3.index t (1 : Fin 2) * 512 + 1 * x.val = x.val; rw [e1]; omega
  show k4_pay1 (F := Ideal) (iblk4 V c 0 t) (iblk4 V c 2 t) (iblk4 V c 1 t) (ix2 y x)
    = updArr V c (((cfg4.win 3).blk t).view.emb (ix2 y x))
  rw [hemb]
  refine (Upd.pay4_apply _ _ _ y x).trans ?_
  exact Upd.updAt_congr _ _ _ _ _ _ y ⟨1600 * t.val + y.val, hr⟩ x
    (fun k => msgdiff_block V c t y k _ rfl) (inp_block V c t y x _ rfl) (fun k => weight_block V c t x k)

/-- An index of the output array is in point `t`'s block iff each coordinate is in the block's range on its axis. -/
theorem mem_block (t : Fin cfg4.N) (i : S120000x512.Idx) :
    i ∈ ((cfg4.win 3).blk t).view.set ↔ ∀ a : Fin 2, win4_3.index t a * S1600x512.size a ≤ (i a).val
      ∧ (i a).val < win4_3.index t a * S1600x512.size a + S1600x512.size a := by
  show i ∈ ((View.whole main_v96).slice (win4_3.rect t)).set ↔ _
  rw [View.set_slice_whole, Rect.mem_set_unit]
  exact Iff.rfl

/-- THE BLOCKS COVER THE ARRAY: row `r` is in the block of point `r / 1600`. -/
theorem blocks_cover (i : S120000x512.Idx) :
    ∃ t : Fin cfg4.N, (cfg4.win 3).flush t = true ∧ i ∈ ((cfg4.win 3).blk t).view.set := by
  have hi0 : (i 0).val < 120000 := (i 0).isLt
  have hi1 : (i 1).val < 512 := (i 1).isLt
  obtain ⟨t, ht⟩ : ∃ t : Fin cfg4.N, t.val = (i 0).val / 1600 :=
    ⟨⟨(i 0).val / 1600, by rw [show cfg4.N = 75 from N_4]; omega⟩, rfl⟩
  obtain ⟨-, -, -, -, -, -, e0, e1⟩ := block_index t
  refine ⟨t, flush4_3 t, ?_⟩
  rw [mem_block]
  intro a
  match a with
  | ⟨0, _⟩ =>
    show win4_3.index t (0 : Fin 2) * 1600 ≤ (i 0).val ∧ (i 0).val < win4_3.index t (0 : Fin 2) * 1600 + 1600
    rw [e0, ht]; omega
  | ⟨1, _⟩ =>
    show win4_3.index t (1 : Fin 2) * 512 ≤ (i 1).val ∧ (i 1).val < win4_3.index t (1 : Fin 2) * 512 + 512
    rw [e1]; omega

/-- THE OUTPUT ARRAY after the region: the update step of the three arrays the region finds. -/
theorem array_after (c : Dev nD) : (dat4 (F := Ideal) V c).arrAt 3 cfg4.N = updArr V c :=
  (dat4 (F := Ideal) V c).arrAt_eq_of_cover 3 (updArr V c) (fun t _ => written_back V c t) blocks_cover

theorem value (c : Dev nD) (p : Fin 120000) (q : Fin 512) :
    ((Gen.dat4 (F := Ideal) V c).arrAt 3 cfg4.N : FVec Ideal S120000x512 .f32) (ix2 p q)
      = Cert.MPN.updAt (V c main_v95 : FVec Ideal S120000x512 .f32) (V c main_v0_0 : FVec Ideal S120000x512 .f32) (V c main_arg3 : FVec Ideal S512x512 .f32) p q :=
  congrFun (array_after V c) (ix2 p q)

end Cert.KernelIdeal.Region4
-- ==== Proof.OutPayload.lean ====
/-
  The read-out step's stored block, entry by entry.

  The block the step stores is, for a block `x0 : [2000, 645]` of the atoms' input, the weight `x1 : [512, 645]` and the
  bias row `x2 : [1, 512]`, the matrix product of `x0` with the transpose of `x1`, plus the bias row repeated down the
  2000 rows, clamped below at the zero word. At `(y, q)` that is
    max (∑ k, x0(y, k) · x1(q, k) + x2(0, q)) 0:
  the clamp and the sum read entry by entry; the product into the zero accumulator at `(y, q)` is the sum over the
  645 contracted coordinates of left entry `(y, k)` times right entry `(k, q)`; the right operand is a transpose, whose
  entry `(k, q)` is entry `(q, k)` of the weight; the roundings to the narrower format are the identity at the ideal
  values; and the repeated row at `(y, q)` is the row's entry `(0, q)`.
  When the three blocks are rows of whole arrays — row `y` of `x0` is row `r` of `A`, `x1` is `W`, `x2` is `B` — this is
  the read-out step of `A`, `W`, `B` at `(r, q)`.
-/
import proofs.«118969_j9337258902201_1_alg».proof.Proof.Gen.KernelIdeal.Skeleton
import proofs.«118969_j9337258902201_1_alg».proof.Proof.Spec
import proofs.«118969_j9337258902201_1_alg».proof.Proof.LibMatmul
import Idealize.ShloMosaic.Lib.Pipeline.Value
import Idealize.ShloMosaic.Lib.ValueLayout

open scoped BigOperators

noncomputable section

namespace Cert.KernelIdeal.Region5

open Idealize.ShloMosaic Idealize.ShloMosaic.ValueIdx Idealize.SL.Sem Cert.KernelIdeal Cert.KernelIdeal.Gen
open Cert.KernelIdeal.Facts₀ Cert.KernelIdeal.Facts

/-- The stored block at `(y, q)`: row `y` of the input block against row `q` of the weight, plus the bias row's entry
    `q`, clamped below at the zero word. -/
theorem payload_apply (x0 : FVec Ideal S2000x645 .f32) (x1 : FVec Ideal S512x645 .f32) (x2 : FVec Ideal S1x512 .f32)
    (y : Fin 2000) (q : Fin 512) :
    Gen.k5_pay1 (F := Ideal) x0 x1 x2 (ix2 y q)
      = max ((∑ k : Fin 645, x0 (ix2 y k) * x1 (ix2 q k)) + x2 (ix2 (0 : Fin 1) q)) Cert.MPN.zeroW := by
  unfold Gen.k5_pay1
  dsimp only
  rw [maximumf_apply, addf_apply, broadcast_apply]
  refine congrArg₂ max (congrArg₂ (· + ·) ?_ ?_) rfl
  · -- the product at `(y, q)` is the sum over the contracted coordinate
    refine (Cert.MatOps.matmul_plain_zero_apply none _ _ y q).trans ?_
    refine Finset.sum_congr rfl fun k _ => ?_
    refine congrArg₂ (· * ·) ?_ ?_
    · -- a reshape to the same shape changes nothing
      show shapeCast S2000x645 x0 _ (ix2 y k) = x0 (ix2 y k)
      rw [shapeCast_self]
    · -- the transpose's entry `(k, q)` is the weight's entry `(q, k)`
      exact Cert.MatOps.transpose10_apply _ _ k q
  · -- the repeated row at `(y, q)` is the row's entry `(0, q)`
    refine (broadcastTo_1b_ab_apply _ _ y q).trans ?_
    rw [shapeCast_self]

/-- When row `y` of the input block is row `r` of `A`, the weight block is `W` on row `q` and the bias block is `B` at
    `(0, q)`, the stored block at `(y, q)` is the read-out step of `A`, `W`, `B` at `(r, q)`. -/
theorem payload_eq_outAt (A : FVec Ideal S60000x645 .f32) (W : FVec Ideal S512x645 .f32) (B : FVec Ideal S1x512 .f32)
    (x0 : FVec Ideal S2000x645 .f32) (x1 : FVec Ideal S512x645 .f32) (x2 : FVec Ideal S1x512 .f32)
    (r : Fin 60000) (y : Fin 2000) (q : Fin 512)
    (h0 : ∀ k : Fin 645, x0 (ix2 y k) = A (ix2 r k))
    (h1 : ∀ k : Fin 645, x1 (ix2 q k) = W (ix2 q k))
    (h2 : x2 (ix2 (0 : Fin 1) q) = B (ix2 (0 : Fin 1) q)) :
    Gen.k5_pay1 (F := Ideal) x0 x1 x2 (ix2 y q) = Cert.MPN.outAt A W B r q := by
  refine (payload_apply x0 x1 x2 y q).trans ?_
  unfold Cert.MPN.outAt Cert.MPN.dotT
  rw [h2]
  refine congrArg₂ max (congrArg₂ (· + ·) (Finset.sum_congr rfl fun k _ => ?_) rfl) rfl
  rw [h0 k, h1 k]

end Cert.KernelIdeal.Region5
-- ==== Proof.OutValue.lean ====
/-
  The read-out step's output array after its thirty grid points.

  The step's grid has thirty points. At point `t` the body reads block row `t` of the atoms' input (rows `2000·t` to
  `2000·t + 1999`, all 645 columns), the whole weight and the whole bias row, and stores one block of 2000 rows and 512
  columns, which is written back as block row `t` of the output array. Row `y` of that stored block is the read-out step
  of the three arrays at row `2000·t + y`: so each write-back is a block of ONE function of the arrays — the read-out
  step index by index — and, the thirty block rows covering all 60000 rows (row `r` lies in block row `r / 2000`), the
  output array ends holding that function everywhere.
-/
import proofs.«118969_j9337258902201_1_alg».proof.Proof.Gen.KernelIdeal.Frame
import proofs.«118969_j9337258902201_1_alg».proof.Proof.Spec
import proofs.«118969_j9337258902201_1_alg».proof.Proof.OutPayload
import Idealize.ShloMosaic.Lib.Pipeline.Value

noncomputable section

namespace Cert.KernelIdeal.Region5

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block access, as the constant function. -/
theorem zero_offsets : (![0, 0] : Fin 2 → Nat) = fun _ => 0 := funext fun a => by fin_cases a <;> rfl

/-- The read-out step of the three arrays the region finds, index by index: what the output array ends holding. -/
def readOut (c : Dev nD) : S60000x512.Idx → EReal := fun i =>
  Cert.MPN.outAt (V c main_v105 : FVec Ideal S60000x645 .f32) (V c main_arg4 : FVec Ideal S512x645 .f32)
    (V c main_v106 : FVec Ideal S1x512 .f32) (i 0) (i 1)

/-- The block indices over the grid: the input's and the output's block row is the point, on their one column block;
    the weight and the bias row are one block each. -/
theorem block_indices : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- Row `y` of the input's block at point `t` is row `2000·t + y` of the input array. -/
theorem input_block_apply (c : Dev nD) (t : Fin cfg5.N) (y : Fin 2000) (k : Fin 645) (r : Fin 60000)
    (hr : r.val = t.val * 2000 + y.val) :
    (iblk5 V c 0 t : FVec Ideal S2000x645 .f32) (ix2 y k) = (V c main_v105 : FVec Ideal S60000x645 .f32) (ix2 r k) := by
  obtain ⟨e00, e01, -⟩ := block_indices t
  have h : ((cfg5.win 0).blk t).view.emb (ix2 y k) = ix2 r k := by
    funext a; apply Fin.ext
    match a with
    | ⟨0, _⟩ => show win5_0.index t (0 : Fin 2) * 2000 + 1 * y.val = r.val; omega
    | ⟨1, _⟩ => show win5_0.index t (1 : Fin 2) * 645 + 1 * k.val = k.val; omega
  show V c main_v105 (((cfg5.win 0).blk t).view.emb (ix2 y k)) = V c main_v105 (ix2 r k)
  rw [h]

/-- The weight's block at every point is the weight. -/
theorem weight_block_apply (c : Dev nD) (t : Fin cfg5.N) (q : Fin 512) (k : Fin 645) :
    (iblk5 V c 1 t : FVec Ideal S512x645 .f32) (ix2 q k) = (V c main_arg4 : FVec Ideal S512x645 .f32) (ix2 q k) := by
  obtain ⟨-, -, e10, e11, -⟩ := block_indices t
  have h : ((cfg5.win 1).blk t).view.emb (ix2 q k) = ix2 q k := by
    funext a; apply Fin.ext
    match a with
    | ⟨0, _⟩ => show win5_1.index t (0 : Fin 2) * 512 + 1 * q.val = q.val; omega
    | ⟨1, _⟩ => show win5_1.index t (1 : Fin 2) * 645 + 1 * k.val = k.val; omega
  show V c main_arg4 (((cfg5.win 1).blk t).view.emb (ix2 q k)) = V c main_arg4 (ix2 q k)
  rw [h]

/-- The bias row's block at every point is the bias row. -/
theorem bias_block_apply (c : Dev nD) (t : Fin cfg5.N) (q : Fin 512) :
    (iblk5 V c 2 t : FVec Ideal S1x512 .f32) (ix2 (0 : Fin 1) q) = (V c main_v106 : FVec Ideal S1x512 .f32) (ix2 (0 : Fin 1) q) := by
  obtain ⟨-, -, -, -, e20, e21, -⟩ := block_indices t
  have h : ((cfg5.win 2).blk t).view.emb (ix2 (0 : Fin 1) q) = ix2 (0 : Fin 1) q := by
    funext a; apply Fin.ext
    match a with
    | ⟨0, _⟩ => show win5_2.index t (0 : Fin 2) * 1 + 1 * 0 = 0; omega
    | ⟨1, _⟩ => show win5_2.index t (1 : Fin 2) * 512 + 1 * q.val = q.val; omega
  show V c main_v106 (((cfg5.win 2).blk t).view.emb (ix2 (0 : Fin 1) q)) = V c main_v106 (ix2 (0 : Fin 1) q)
  rw [h]

/-- What point `t` writes back is block row `t` of the read-out step of the arrays. -/
theorem flushed_eq (c : Dev nD) (t : Fin cfg5.N) :
    (dat5 (F := Ideal) V c).flushed 3 t = ((cfg5.win 3).blk t).view.read (Elt Ideal) (readOut V c) := by
  show (cfg5.win 3).cut (grid5.coords t) ((dat5 (F := Ideal) V c).after 3 t) = _
  rw [after5_3]
  unfold out5_3
  rw [View.canon_unit_zero zero_offsets]
  simp only [View.ld_unit_zero (S := S2000x645) zero_offsets, View.ld_unit_zero (S := S512x645) zero_offsets,
    View.ld_unit_zero (S := S1x512) zero_offsets]
  obtain ⟨-, -, -, -, -, -, e30, e31⟩ := block_indices t
  funext j
  obtain ⟨y, q, rfl⟩ : ∃ (y : Fin 2000) (q : Fin 512), j = ix2 y q := ⟨j 0, j 1, eq_ix2 (n0 := 2000) (n1 := 512) j⟩
  have hN : cfg5.N = 30 := N_5
  have ht : t.val < cfg5.N := t.isLt
  have hy : y.val < 2000 := y.isLt
  -- the stored block's entry `(y, q)` lands at `(2000·t + y, q)` of the output array
  have hemb : ((cfg5.win 3).blk t).view.emb (ix2 y q) = ix2 (⟨t.val * 2000 + y.val, by omega⟩ : Fin 60000) q := by
    funext a; apply Fin.ext
    match a with
    | ⟨0, _⟩ => show win5_3.index t (0 : Fin 2) * 2000 + 1 * y.val = t.val * 2000 + y.val; omega
    | ⟨1, _⟩ => show win5_3.index t (1 : Fin 2) * 512 + 1 * q.val = q.val; omega
  show k5_pay1 (iblk5 V c 0 t) (iblk5 V c 1 t) (iblk5 V c 2 t) (ix2 y q)
    = readOut V c (((cfg5.win 3).blk t).view.emb (ix2 y q))
  rw [hemb]
  exact payload_eq_outAt _ _ _ _ _ _ _ y q (fun k => input_block_apply V c t y k _ rfl)
    (fun k => weight_block_apply V c t q k) (bias_block_apply V c t q)

/-- An index of the output array is in point `t`'s block iff each coordinate is in the block's range on its axis. -/
theorem mem_block (t : Fin cfg5.N) (i : S60000x512.Idx) :
    i ∈ ((cfg5.win 3).blk t).view.set ↔ ∀ a : Fin 2, win5_3.index t a * S2000x512.size a ≤ (i a).val
      ∧ (i a).val < win5_3.index t a * S2000x512.size a + S2000x512.size a := by
  show i ∈ ((View.whole main_v107).slice (win5_3.rect t)).set ↔ _
  rw [View.set_slice_whole, Rect.mem_set_unit]
  exact Iff.rfl

/-- Every index of the output array is in some point's block: row `r` is in block row `r / 2000`. -/
theorem covered (i : S60000x512.Idx) :
    ∃ t : Fin cfg5.N, (cfg5.win 3).flush t = true ∧ i ∈ ((cfg5.win 3).blk t).view.set := by
  have hi0 : (i 0).val < 60000 := (i 0).isLt
  have hi1 : (i 1).val < 512 := (i 1).isLt
  have hN : cfg5.N = 30 := N_5
  refine ⟨⟨(i 0).val / 2000, by rw [hN]; omega⟩, flush5_3 _, ?_⟩
  obtain ⟨-, -, -, -, -, -, e30, e31⟩ := block_indices ⟨(i 0).val / 2000, by rw [hN]; omega⟩
  rw [mem_block]
  intro a
  match a with
  | ⟨0, _⟩ =>
    show win5_3.index _ (0 : Fin 2) * 2000 ≤ (i 0).val ∧ (i 0).val < win5_3.index _ (0 : Fin 2) * 2000 + 2000
    rw [e30]; show (i 0).val / 2000 * 2000 ≤ (i 0).val ∧ (i 0).val < (i 0).val / 2000 * 2000 + 2000; omega
  | ⟨1, _⟩ =>
    show win5_3.index _ (1 : Fin 2) * 512 ≤ (i 1).val ∧ (i 1).val < win5_3.index _ (1 : Fin 2) * 512 + 512
    rw [e31]; omega

/-- The output array after the run is the read-out step of the arrays, index by index. -/
theorem final (c : Dev nD) : (dat5 (F := Ideal) V c).arrAt 3 cfg5.N = readOut V c :=
  (dat5 (F := Ideal) V c).arrAt_eq_of_cover 3 (readOut V c) (fun t _ => flushed_eq V c t) covered

/-- The output array after the run, at `(p, q)`: the read-out step of the input, the weight and the bias row there. -/
theorem value (V : (c : Dev nD) → (b : Ref sig .tc) → Buf (Elt Ideal) ((c : Thread nD τ).loc b)) (c : Dev nD) (p : Fin 60000) (q : Fin 512) :
    ((Gen.dat5 (F := Ideal) V c).arrAt 3 cfg5.N : FVec Ideal S60000x512 .f32) (ix2 p q)
      = Cert.MPN.outAt (V c main_v105 : FVec Ideal S60000x645 .f32) (V c main_arg4 : FVec Ideal S512x645 .f32) (V c main_v106 : FVec Ideal S1x512 .f32) p q := by
  rw [final V c]
  rfl

end Cert.KernelIdeal.Region5
-- ==== Proof.KernelChain.lean ====
/-
  The kernel's result is the reference's, stage by stage.

  Follow the kernel's @main from the launch. The first grid launch leaves the input step `f_bonds · W_iᵀ` and the first
  messages, entry by entry what the reference's first contraction and clamp compute. Then four rounds: a host line
  turns the current messages into the per-bond differences exactly as the reference does (the same operations on the
  same index tables), and a grid launch leaves `max(inp + diff · W_hᵀ, 0)`, entry by entry the reference's update.
  Last, a host line forms the atoms' input and the bias row (a reshape where the reference broadcasts: the same row),
  a launch leaves the atoms' hidden rows, entry by entry the reference's read-out, and a host line pools them as the
  reference does. So the buffer the kernel returns holds the reference's last stage of the kernel's own arguments.
-/
import proofs.«118969_j9337258902201_1_alg».proof.Proof.Gen.KernelIdeal.Frame
import proofs.«118969_j9337258902201_1_alg».proof.Proof.KernelHost
import proofs.«118969_j9337258902201_1_alg».proof.Proof.KernelArgs
import proofs.«118969_j9337258902201_1_alg».proof.Proof.RefDense
import proofs.«118969_j9337258902201_1_alg».proof.Proof.RefGlue
import proofs.«118969_j9337258902201_1_alg».proof.Proof.LibRowVector
import proofs.«118969_j9337258902201_1_alg».proof.Proof.Spec
import proofs.«118969_j9337258902201_1_alg».proof.Proof.InitValue
import proofs.«118969_j9337258902201_1_alg».proof.Proof.Upd1Value
import proofs.«118969_j9337258902201_1_alg».proof.Proof.Upd2Value
import proofs.«118969_j9337258902201_1_alg».proof.Proof.Upd3Value
import proofs.«118969_j9337258902201_1_alg».proof.Proof.Upd4Value
import proofs.«118969_j9337258902201_1_alg».proof.Proof.OutValue

noncomputable section

namespace Cert.KernelIdeal.Chain

open Cert.KernelIdeal Cert.KernelIdeal.Gen
open Idealize.ShloMosaic Idealize.ShloMosaic.TcCoe Idealize.SL.Sem Idealize.ShloMosaic.ValueIdx
open Cert.ReferenceIdeal.Read

variable (m : (ℓ : Loc nD τ sig) → Buf (Elt Ideal) ℓ) (ρ : Dev nD → PrngReg) (c : Dev nD)

/-! ## The kernel's arguments, as the reference's stages take them -/
abbrev X0 : (⟨Cert.ReferenceIdeal.S60000x133, .f32⟩ : BufTy).Contents (Elt Ideal) := m ((c : Thread nD τ).loc Cert.KernelIdeal.main_arg0)
abbrev X1 : (⟨Cert.ReferenceIdeal.S120000x147, .f32⟩ : BufTy).Contents (Elt Ideal) := m ((c : Thread nD τ).loc Cert.KernelIdeal.main_arg1)
abbrev X2 : (⟨Cert.ReferenceIdeal.S512x147, .f32⟩ : BufTy).Contents (Elt Ideal) := m ((c : Thread nD τ).loc Cert.KernelIdeal.main_arg2)
abbrev X3 : (⟨Cert.ReferenceIdeal.S512x512, .f32⟩ : BufTy).Contents (Elt Ideal) := m ((c : Thread nD τ).loc Cert.KernelIdeal.main_arg3)
abbrev X4 : (⟨Cert.ReferenceIdeal.S512x645, .f32⟩ : BufTy).Contents (Elt Ideal) := m ((c : Thread nD τ).loc Cert.KernelIdeal.main_arg4)
abbrev X5 : (⟨Cert.ReferenceIdeal.S512, .f32⟩ : BufTy).Contents (Elt Ideal) := m ((c : Thread nD τ).loc Cert.KernelIdeal.main_arg5)
abbrev X6 : (⟨Cert.ReferenceIdeal.S60000x6, .i32⟩ : BufTy).Contents (Elt Ideal) := m ((c : Thread nD τ).loc Cert.KernelIdeal.main_arg6)
abbrev X7 : (⟨Cert.ReferenceIdeal.S120000, .i32⟩ : BufTy).Contents (Elt Ideal) := m ((c : Thread nD τ).loc Cert.KernelIdeal.main_arg7)
abbrev X8 : (⟨Cert.ReferenceIdeal.S120000, .i32⟩ : BufTy).Contents (Elt Ideal) := m ((c : Thread nD τ).loc Cert.KernelIdeal.main_arg8)
abbrev X9 : (⟨Cert.ReferenceIdeal.S60000, .i32⟩ : BufTy).Contents (Elt Ideal) := m ((c : Thread nD τ).loc Cert.KernelIdeal.main_arg9)

/-! ## Equal operands give equal entries -/

theorem updAt_congr {M K N : Nat} (p : Fin M) (q : Fin N) {md md' : FVec Ideal ⟨2, ![M, K]⟩ .f32} {inp inp' : FVec Ideal ⟨2, ![M, N]⟩ .f32}
    {w w' : FVec Ideal ⟨2, ![N, K]⟩ .f32} (h1 : md = md') (h2 : inp = inp') (h3 : w = w') :
    Cert.MPN.updAt md inp w p q = Cert.MPN.updAt md' inp' w' p q := by subst h1 h2 h3; rfl

theorem outAt_congr {M K N : Nat} (p : Fin M) (q : Fin N) {a a' : FVec Ideal ⟨2, ![M, K]⟩ .f32} {w w' : FVec Ideal ⟨2, ![N, K]⟩ .f32}
    {b b' : FVec Ideal ⟨2, ![1, N]⟩ .f32} (h1 : a = a') (h2 : w = w') (h3 : b = b') :
    Cert.MPN.outAt a w b p q = Cert.MPN.outAt a' w' b' p q := by subst h1 h2 h3; rfl

/-! ## The first launch -/

/-- The input step's array after the first launch is the reference's first contraction. -/
theorem inp_at1 : W1 m ρ c (Proc.devRef .tc main_v0_0) = val_main_v1 (F := Ideal) (X1 m c) (X2 m c) := by
  refine (W1_arr m ρ c 2).trans ?_
  refine Cert.MPN.ext2 fun p q => ?_
  refine (Region0.value_inp (V0 m ρ) c p q).trans ?_
  exact (Cert.ReferenceIdeal.Dense.inp_apply (X1 m c) (X2 m c) p q).symm

/-- The first messages after the first launch are the reference's first clamp. -/
theorem msg0_at1 : W1 m ρ c (Proc.devRef .tc main_v0_1) = val_main_v2 (F := Ideal) (X1 m c) (X2 m c) := by
  refine (W1_arr m ρ c 3).trans ?_
  refine Cert.MPN.ext2 fun p q => ?_
  refine (Region0.value_msg (V0 m ρ) c p q).trans ?_
  exact (Cert.ReferenceIdeal.Dense.msg0_apply (X1 m c) (X2 m c) p q).symm

/-! ## Round 1 -/

/-- The host line before update 1 leaves the per-bond difference of the current messages. -/
theorem diff1_at2 : W2 m ρ c (Proc.devRef .tc main_v23) = val_main_v25 (F := Ideal) (X1 m c) (X2 m c) (X6 m c) (X7 m c) (X8 m c) := by
  have h := ArgsKept.at1 m ρ c
  refine (HostValue.diff_line1 (W1 m ρ c)).trans ?_
  rw [msg0_at1 m ρ c, h.a6, h.a7, h.a8]
  exact (Cert.ReferenceIdeal.Glue.diff1 _ _ _ _ _).symm

/-- and keeps the input step's array; -/
theorem inp_at2 : W2 m ρ c (Proc.devRef .tc main_v0_0) = val_main_v1 (F := Ideal) (X1 m c) (X2 m c) :=
  (HostValue.line1_keeps_main_v0_0 (W1 m ρ c)).trans (inp_at1 m ρ c)

/-- the update launch leaves the next messages, -/
theorem msg1_at3 : W3 m ρ c (Proc.devRef .tc main_v24) = val_main_v29 (F := Ideal) (X1 m c) (X2 m c) (X3 m c) (X6 m c) (X7 m c) (X8 m c) := by
  refine (W3_arr m ρ c 3).trans ?_
  refine Cert.MPN.ext2 fun p q => ?_
  refine (Region1.value (V2 m ρ) c p q).trans ?_
  rw [Cert.ReferenceIdeal.Dense.msg1_apply]
  exact updAt_congr p q (diff1_at2 m ρ c) (inp_at2 m ρ c) (ArgsKept.at2 m ρ c).a3

/-- and, reading the input step's array through an input window, leaves it as it was. -/
theorem inp_at3 : W3 m ρ c (Proc.devRef .tc main_v0_0) = val_main_v1 (F := Ideal) (X1 m c) (X2 m c) :=
  ((W3_arr m ρ c 1).trans (((dat1 (V2 m ρ) c).arrAt_in 1 rfl _).trans (A_eq1 (V2 m ρ) c 1))).trans (inp_at2 m ρ c)

/-! ## Round 2 -/

/-- The host line before update 2 leaves the per-bond difference of the current messages. -/
theorem diff2_at4 : W4 m ρ c (Proc.devRef .tc main_v47) = val_main_v52 (F := Ideal) (X1 m c) (X2 m c) (X3 m c) (X6 m c) (X7 m c) (X8 m c) := by
  have h := ArgsKept.at3 m ρ c
  refine (HostValue.diff_line2 (W3 m ρ c)).trans ?_
  rw [msg1_at3 m ρ c, h.a6, h.a7, h.a8]
  exact (Cert.ReferenceIdeal.Glue.diff2 _ _ _ _ _ _).symm

/-- and keeps the input step's array; -/
theorem inp_at4 : W4 m ρ c (Proc.devRef .tc main_v0_0) = val_main_v1 (F := Ideal) (X1 m c) (X2 m c) :=
  (HostValue.line2_keeps_main_v0_0 (W3 m ρ c)).trans (inp_at3 m ρ c)

/-- the update launch leaves the next messages, -/
theorem msg2_at5 : W5 m ρ c (Proc.devRef .tc main_v48) = val_main_v56 (F := Ideal) (X1 m c) (X2 m c) (X3 m c) (X6 m c) (X7 m c) (X8 m c) := by
  refine (W5_arr m ρ c 3).trans ?_
  refine Cert.MPN.ext2 fun p q => ?_
  refine (Region2.value (V4 m ρ) c p q).trans ?_
  rw [Cert.ReferenceIdeal.Dense.msg2_apply]
  exact updAt_congr p q (diff2_at4 m ρ c) (inp_at4 m ρ c) (ArgsKept.at4 m ρ c).a3

/-- and, reading the input step's array through an input window, leaves it as it was. -/
theorem inp_at5 : W5 m ρ c (Proc.devRef .tc main_v0_0) = val_main_v1 (F := Ideal) (X1 m c) (X2 m c) :=
  ((W5_arr m ρ c 1).trans (((dat2 (V4 m ρ) c).arrAt_in 1 rfl _).trans (A_eq2 (V4 m ρ) c 1))).trans (inp_at4 m ρ c)

/-! ## Round 3 -/

/-- The host line before update 3 leaves the per-bond difference of the current messages. -/
theorem diff3_at6 : W6 m ρ c (Proc.devRef .tc main_v71) = val_main_v79 (F := Ideal) (X1 m c) (X2 m c) (X3 m c) (X6 m c) (X7 m c) (X8 m c) := by
  have h := ArgsKept.at5 m ρ c
  refine (HostValue.diff_line3 (W5 m ρ c)).trans ?_
  rw [msg2_at5 m ρ c, h.a6, h.a7, h.a8]
  exact (Cert.ReferenceIdeal.Glue.diff3 _ _ _ _ _ _).symm

/-- and keeps the input step's array; -/
theorem inp_at6 : W6 m ρ c (Proc.devRef .tc main_v0_0) = val_main_v1 (F := Ideal) (X1 m c) (X2 m c) :=
  (HostValue.line3_keeps_main_v0_0 (W5 m ρ c)).trans (inp_at5 m ρ c)

/-- the update launch leaves the next messages, -/
theorem msg3_at7 : W7 m ρ c (Proc.devRef .tc main_v72) = val_main_v83 (F := Ideal) (X1 m c) (X2 m c) (X3 m c) (X6 m c) (X7 m c) (X8 m c) := by
  refine (W7_arr m ρ c 3).trans ?_
  refine Cert.MPN.ext2 fun p q => ?_
  refine (Region3.value (V6 m ρ) c p q).trans ?_
  rw [Cert.ReferenceIdeal.Dense.msg3_apply]
  exact updAt_congr p q (diff3_at6 m ρ c) (inp_at6 m ρ c) (ArgsKept.at6 m ρ c).a3

/-- and, reading the input step's array through an input window, leaves it as it was. -/
theorem inp_at7 : W7 m ρ c (Proc.devRef .tc main_v0_0) = val_main_v1 (F := Ideal) (X1 m c) (X2 m c) :=
  ((W7_arr m ρ c 1).trans (((dat3 (V6 m ρ) c).arrAt_in 1 rfl _).trans (A_eq3 (V6 m ρ) c 1))).trans (inp_at6 m ρ c)

/-! ## Round 4 -/

/-- The host line before update 4 leaves the per-bond difference of the current messages. -/
theorem diff4_at8 : W8 m ρ c (Proc.devRef .tc main_v95) = val_main_v106 (F := Ideal) (X1 m c) (X2 m c) (X3 m c) (X6 m c) (X7 m c) (X8 m c) := by
  have h := ArgsKept.at7 m ρ c
  refine (HostValue.diff_line4 (W7 m ρ c)).trans ?_
  rw [msg3_at7 m ρ c, h.a6, h.a7, h.a8]
  exact (Cert.ReferenceIdeal.Glue.diff4 _ _ _ _ _ _).symm

/-- and keeps the input step's array; -/
theorem inp_at8 : W8 m ρ c (Proc.devRef .tc main_v0_0) = val_main_v1 (F := Ideal) (X1 m c) (X2 m c) :=
  (HostValue.line4_keeps_main_v0_0 (W7 m ρ c)).trans (inp_at7 m ρ c)

/-- the update launch leaves the next messages, -/
theorem msg4_at9 : W9 m ρ c (Proc.devRef .tc main_v96) = val_main_v110 (F := Ideal) (X1 m c) (X2 m c) (X3 m c) (X6 m c) (X7 m c) (X8 m c) := by
  refine (W9_arr m ρ c 3).trans ?_
  refine Cert.MPN.ext2 fun p q => ?_
  refine (Region4.value (V8 m ρ) c p q).trans ?_
  rw [Cert.ReferenceIdeal.Dense.msg4_apply]
  exact updAt_congr p q (diff4_at8 m ρ c) (inp_at8 m ρ c) (ArgsKept.at8 m ρ c).a3

/-- and, reading the input step's array through an input window, leaves it as it was. -/
theorem inp_at9 : W9 m ρ c (Proc.devRef .tc main_v0_0) = val_main_v1 (F := Ideal) (X1 m c) (X2 m c) :=
  ((W9_arr m ρ c 1).trans (((dat4 (V8 m ρ) c).arrAt_in 1 rfl _).trans (A_eq4 (V8 m ρ) c 1))).trans (inp_at8 m ρ c)

/-! ## The read-out -/

/-- The host line before the read-out leaves the atoms' input -/
theorem atomInput_at10 : W10 m ρ c (Proc.devRef .tc main_v105) = val_main_v119 (F := Ideal) (X0 m c) (X1 m c) (X2 m c) (X3 m c) (X6 m c) (X7 m c) (X8 m c) := by
  have h := ArgsKept.at9 m ρ c
  refine (HostValue.atomInput_line (W9 m ρ c)).trans ?_
  rw [msg4_at9 m ρ c, h.a0, h.a6]
  exact (Cert.ReferenceIdeal.Glue.atomInput5 _ _ _ _ _ _ _).symm

/-- and the bias as one row: a reshape of the vector, which is its broadcast along the second axis. -/
theorem biasRow_at10 : W10 m ρ c (Proc.devRef .tc main_v106) = val_main_v122 (F := Ideal) (X5 m c) := by
  have h := ArgsKept.at9 m ρ c
  refine (HostValue.biasRow_line (W9 m ρ c)).trans ?_
  rw [h.a5]
  exact Cert.Lib.RowVector.shapeCast_eq_broadcastInDim _ _ _

/-- The read-out launch leaves the atoms' hidden rows. -/
theorem hidden_at11 : W11 m ρ c (Proc.devRef .tc main_v107) = val_main_v125 (F := Ideal) (X0 m c) (X1 m c) (X2 m c) (X3 m c) (X4 m c) (X5 m c) (X6 m c) (X7 m c) (X8 m c) := by
  refine (W11_arr m ρ c 3).trans ?_
  refine Cert.MPN.ext2 fun p q => ?_
  refine (Region5.value (V10 m ρ) c p q).trans ?_
  rw [Cert.ReferenceIdeal.Dense.hidden_apply]
  exact outAt_congr p q (atomInput_at10 m ρ c) (ArgsKept.at10_a4 m ρ c) (biasRow_at10 m ρ c)

/-- The last host line pools them: the returned buffer holds the reference's last stage of the kernel's arguments. -/
theorem result_at12 : W12 m ρ c (Proc.devRef .tc main_v119)
    = val_main_v137 (F := Ideal) (X0 m c) (X1 m c) (X2 m c) (X3 m c) (X4 m c) (X5 m c) (X6 m c) (X7 m c) (X8 m c) (X9 m c) := by
  refine (HostValue.pool_line (W11 m ρ c)).trans ?_
  rw [hidden_at11 m ρ c, ArgsKept.at11_a9 m ρ c]
  exact (Cert.ReferenceIdeal.Glue.pool_eq _ _ _ _ _ _ _ _ _ _).symm

end Cert.KernelIdeal.Chain

end
-- ==== Proof.lean ====
/-
  The certificate of a directed message-passing encoder: a tiled kernel against its plain reference.

  The network sends messages along directed bonds. Its dense steps are the input step `inp = f_bonds · W_iᵀ` with the
  first messages `max(inp, 0)`, four updates `max(inp + diff · W_hᵀ, 0)` of the per-bond difference `diff` of the
  current messages, and the read-out `max(a_input · W_oᵀ + b_o, 0)`; between them entries are only moved and added
  by three index tables, and at the end the atoms' hidden rows are averaged per molecule. The kernel computes every
  dense step on the grid, a slab of 1600 bond rows (2000 atom rows) at a time against the whole weight, with the
  operands rounded to a shorter format on the way into the product; everything else it leaves to the same host
  operations the reference uses.

  On the extended reals a change of format is the identity, and a slab of rows of `x · wᵀ` is those rows of the whole
  product: each entry is the same sum over `k` of `x(i, k) · w(j, k)`, in the same order, so no law of arithmetic is
  needed and the finiteness of the inputs is never used. Proof/Spec.lean states the dense steps entry by entry;
  Proof/InitValue.lean, Proof/Upd1Value.lean … Proof/Upd4Value.lean and Proof/OutValue.lean read each launch's output
  array as that function of the arrays the launch finds; Proof/RefDense.lean reads the reference's dense stages the
  same way and Proof/RefGlue.lean names its sparse steps; Proof/KernelHost.lean reads the kernel's host lines as those
  same sparse steps; Proof/KernelChain.lean follows the kernel's run boundary by boundary to the reference's last
  stage; Proof/KernelRun.lean is the kernel's run with its result named. Here the five claims are assembled.
-/
import proofs.«118969_j9337258902201_1_alg».proof.Defs
import proofs.«118969_j9337258902201_1_alg».proof.Proof.Gen.Kernel
import proofs.«118969_j9337258902201_1_alg».proof.Proof.Gen.Kernel.Skeleton
import proofs.«118969_j9337258902201_1_alg».proof.Proof.Gen.Kernel.Launch
import proofs.«118969_j9337258902201_1_alg».proof.Proof.Gen.Kernel.Points
import proofs.«118969_j9337258902201_1_alg».proof.Proof.Gen.Kernel.Frame
import proofs.«118969_j9337258902201_1_alg».proof.Proof.Gen.KernelIdeal
import proofs.«118969_j9337258902201_1_alg».proof.Proof.Gen.KernelIdeal.Skeleton
import proofs.«118969_j9337258902201_1_alg».proof.Proof.Gen.KernelIdeal.Launch
import proofs.«118969_j9337258902201_1_alg».proof.Proof.Gen.KernelIdeal.Points
import proofs.«118969_j9337258902201_1_alg».proof.Proof.Gen.KernelIdeal.Frame
import proofs.«118969_j9337258902201_1_alg».proof.Proof.Gen.ReferenceIdeal
import proofs.«118969_j9337258902201_1_alg».proof.Proof.Gen.Pre_finite_inputs
import proofs.«118969_j9337258902201_1_alg».proof.Proof.Gen.ReferenceIdeal.Run
import proofs.«118969_j9337258902201_1_alg».proof.Proof.Gen.ReferenceIdeal.Read
import proofs.«118969_j9337258902201_1_alg».proof.Proof.KernelRun
import proofs.«118969_j9337258902201_1_alg».proof.Proof.KernelChain
import Idealize.ShloMosaic.Adequacy
import Idealize.ShloMosaic.Init

noncomputable section

namespace Cert.Proof

open Idealize.ShloMosaic Idealize.SL.Sem

/-- The kernel as printed runs, and its arguments end unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs, and its arguments end unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end at one array: the kernel's returned buffer holds the
    reference's last stage of the kernel's arguments, the reference's result is that stage of its own, and the
    arguments agree. -/
theorem algebraic : Cert.algebraic_KernelIdeal_ReferenceIdeal := by
  intro m ρ m' ρ' _ hagree
  refine ⟨fun c => Cert.KernelIdeal.Gen.W12 m ρ c (Proc.devRef .tc Cert.KernelIdeal.main_v119),
    Cert.KernelIdeal.RunValue.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v137_eq, h0, h1, h2, h3, h4, h5, h6, h7, h8, h9]
  exact (Cert.KernelIdeal.Chain.result_at12 m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
